-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v127_0)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v132_0)) (v3 : (c : Dev Cert.KernelIdeal.nD) → Buf (Elt Ideal) ((c.tc : Thread Cert.KernelIdeal.nD Cert.KernelIdeal.τ).loc Cert.KernelIdeal.main_v127_1)) (v4 : (c : Dev Cert.KernelIdeal.nD) → Buf (Elt Ideal) ((c.tc : Thread Cert.KernelIdeal.nD Cert.KernelIdeal.τ).loc Cert.KernelIdeal.main_v132_1)) (v5 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127_0) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v132_0) = v2 c
          ∧ r.2.mem ((c.tc : Thread Cert.KernelIdeal.nD Cert.KernelIdeal.τ).loc Cert.KernelIdeal.main_v127_1) = v3 c
          ∧ r.2.mem ((c.tc : Thread Cert.KernelIdeal.nD Cert.KernelIdeal.τ).loc Cert.KernelIdeal.main_v132_1) = v4 c
          ∧ r.2.mem ((c.tc : Thread Cert.KernelIdeal.nD Cert.KernelIdeal.τ).loc Cert.KernelIdeal.main_v39) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S25000x3x128 : S_.BroadcastsInDim S25000x3x128 (![] : Fin 0 → Fin S25000x3x128.rank)
  reducesTo_S25000x3x128_S_d0_1_2 : S25000x3x128.ReducesTo [0, 1, 2] S_
  bcast_S_S400000x128 : S_.BroadcastsInDim S400000x128 (![] : Fin 0 → Fin S400000x128.rank)
  reducesTo_S400000x128_S_d0_1 : S400000x128.ReducesTo [0, 1] S_
  bcast_S_S25000x3 : S_.BroadcastsInDim S25000x3 (![] : Fin 0 → Fin S25000x3.rank)
  reducesTo_S25000x3_S_d0_1 : S25000x3.ReducesTo [0, 1] S_
  bcast_S_S400000x50 : S_.BroadcastsInDim S400000x50 (![] : Fin 0 → Fin S400000x50.rank)
  reducesTo_S400000x50_S_d0_1 : S400000x50.ReducesTo [0, 1] S_
  bcast_S_S306x128 : S_.BroadcastsInDim S306x128 (![] : Fin 0 → Fin S306x128.rank)
  reducesTo_S306x128_S_d0_1 : S306x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_v63 main_v67

def fn_part2 {F : FTy → Type} [FloatOps F] (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg4 : FVec F S400000x50 .f32) (main_arg6 : FVec F S306x128 .f32) (main_arg7 : FVec F S128 .f32) (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S25000x3 1) : IVec S_ 1 :=
  let main_c_5 : IVec S_ 1 := constantI S_ 1 1#1
  let main_v17 : IVec S_ 1 := (fun x v => Host.reduce IntOp.andi x v reducesTo_S25000x3_S_d0_1 h_S_) main_v16 main_c_5
  let main_v18 : IVec S_ 1 := andi main_v13 main_v17
  let main_v19 : FVec F S400000x50 .f32 := Host.absf main_arg4
  let main_cst_6 : FVec F S_ .f32 := constant S_ .f32 0x7F800000#32
  let main_v20 : FVec F S400000x50 .f32 := broadcastInDim S400000x50 ![] bcast_S_S400000x50 main_cst_6
  let main_v21 : IVec S400000x50 1 := cmpf .olt main_v19 main_v20
  let main_c_7 : IVec S_ 1 := constantI S_ 1 1#1
  let main_v22 : IVec S_ 1 := (fun x v => Host.reduce IntOp.andi x v reducesTo_S400000x50_S_d0_1 h_S_) main_v21 main_c_7
  let main_v23 : IVec S_ 1 := andi main_v18 main_v22
  let main_v24 : FVec F S306x128 .f32 := Host.absf main_arg6
  let main_cst_8 : FVec F S_ .f32 := constant S_ .f32 0x7F800000#32
  let main_v25 : FVec F S306x128 .f32 := broadcastInDim S306x128 ![] bcast_S_S306x128 main_cst_8
  let main_v26 : IVec S306x128 1 := cmpf .olt main_v24 main_v25
  let main_c_9 : IVec S_ 1 := constantI S_ 1 1#1
  let main_v27 : IVec S_ 1 := (fun x v => Host.reduce IntOp.andi x v reducesTo_S306x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S25000x128 .f32) (main_arg1 : FVec F S25000x3x128 .f32) (main_arg2 : FVec F S400000x128 .f32) (main_arg3 : FVec F S25000x3 .f32) (main_arg4 : FVec F S400000x50 .f32) (main_arg5 : IVec S2x400000 32) (main_arg6 : FVec F S306x128 .f32) (main_arg7 : FVec F S128 .f32) (main_arg8 : FVec F S128x256 .f32) (main_arg9 : FVec F S256 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S25000x3x128 .f32 := Host.absf main_arg1
  let main_cst_0 : FVec F S_ .f32 := constant S_ .f32 0x7F800000#32
  let main_v5 : FVec F S25000x3x128 .f32 := broadcastInDim S25000x3x128 ![] bcast_S_S25000x3x128 main_cst_0
  let main_v6 : IVec S25000x3x128 1 := cmpf .olt main_v4 main_v5
  let main_c_1 : IVec S_ 1 := constantI S_ 1 1#1
  let main_v7 : IVec S_ 1 := (fun x v => Host.reduce IntOp.andi x v reducesTo_S25000x3x128_S_d0_1_2 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S25000x3 .f32 := Host.absf main_arg3
  let main_cst_4 : FVec F S_ .f32 := constant S_ .f32 0x7F800000#32
  let main_v15 : FVec F S25000x3 .f32 := broadcastInDim S25000x3 ![] bcast_S_S25000x3 main_cst_4
  let main_v16 : IVec S25000x3 1 := cmpf .olt main_v14 main_v15
  fn_part1 (F := F) main_arg4 main_arg6 main_arg7 main_arg8 main_arg9 main_arg10 main_arg11 main_arg12 main_arg13 main_arg14 main_arg15 main_arg16 main_arg17 main_v13 main_v16
-- ==== Kernel.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S25000 : Shape := ⟨1, ![25000]⟩
abbrev S25000x1 : Shape := ⟨2, ![25000, 1]⟩
abbrev S25000x384 : Shape := ⟨2, ![25000, 384]⟩
abbrev S400000x384 : Shape := ⟨2, ![400000, 384]⟩
abbrev S400000x4 : Shape := ⟨2, ![400000, 4]⟩
abbrev S50x128 : Shape := ⟨2, ![50, 128]⟩
abbrev S1x128 : Shape := ⟨2, ![1, 128]⟩
abbrev S1x256 : Shape := ⟨2, ![1, 256]⟩
abbrev S2000x128 : Shape := ⟨2, ![2000, 128]⟩
abbrev S2000x50 : Shape := ⟨2, ![2000, 50]⟩
abbrev S2000x4 : Shape := ⟨2, ![2000, 4]⟩
abbrev S2000x384 : Shape := ⟨2, ![2000, 384]⟩
abbrev S2000x256 : Shape := ⟨2, ![2000, 256]⟩
abbrev S2000x1 : Shape := ⟨2, ![2000, 1]⟩
abbrev S5000x128 : Shape := ⟨2, ![5000, 128]⟩
abbrev S5000x1 : Shape := ⟨2, ![5000, 1]⟩
abbrev S4000x128 : Shape := ⟨2, ![4000, 128]⟩
abbrev S4000x1 : Shape := ⟨2, ![4000, 1]⟩

abbrev nBuf : Space → Nat
  | .hbm => 189
  | .vmem => 42
  | .smem => 0
  | _ => 0

abbrev hbmTy0_0 (i : Nat) : BufTy := match i % 128 with
  | 0 => ⟨S25000x128, .f32⟩
  | 1 => ⟨S25000x3x128, .f32⟩
  | 2 => ⟨S400000x128, .f32⟩
  | 3 => ⟨S25000x3, .f32⟩
  | 4 => ⟨S400000x50, .f32⟩
  | 5 => ⟨S2x400000, .i32⟩
  | 6 => ⟨S306x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x3, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x3, .f32⟩
  | 40 => ⟨S400000x3, .f32⟩
  | 41 => ⟨S400000x3, .f32⟩
  | 42 => ⟨S_, .f32⟩
  | 43 => ⟨S400000, .f32⟩
  | 44 => ⟨S400000x1, .f32⟩
  | 45 => ⟨S400000x1, .f32⟩
  | 46 => ⟨S_, .f32⟩
  | 47 => ⟨S400000x1, .f32⟩
  | 48 => ⟨S400000x1, .f32⟩
  | 49 => ⟨S400000x3, .f32⟩
  | 50 => ⟨S400000x3, .f32⟩
  | 51 => ⟨S_, .f32⟩
  | 52 => ⟨S25000x3, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S25000x3, .f32⟩
  | 62 => ⟨S400000x3, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S25000x3, .f32⟩
  | 72 => ⟨S25000x3, .f32⟩
  | 73 => ⟨S_, .f32⟩
  | 74 => ⟨S25000, .f32⟩
  | 75 => ⟨S25000x1, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x3, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x3, .f32⟩
  | 94 => ⟨S400000x3, .f32⟩
  | 95 => ⟨S_, .f32⟩
  | 96 => ⟨S400000, .f32⟩
  | 97 => ⟨S400000x1, .f32⟩
  | 98 => ⟨S400000x3, .f32⟩
  | 99 => ⟨S_, .f32⟩
  | 100 => ⟨S400000, .f32⟩
  | 101 => ⟨S400000x1, .f32⟩
  | 102 => ⟨S400000x3, .f32⟩
  | 103 => ⟨S400000x3, .f32⟩
  | 104 => ⟨S400000x3, .f32⟩
  | 105 => ⟨S400000x3, .f32⟩
  | 106 => ⟨S400000x3, .f32⟩
  | 107 => ⟨S400000x3, .f32⟩
  | 108 => ⟨S400000x3, .f32⟩
  | 109 => ⟨S_, .f32⟩
  | 110 => ⟨S400000, .f32⟩
  | 111 => ⟨S400000x1, .f32⟩
  | 112 => ⟨S400000, .f32⟩
  | 113 => ⟨S_, .f32⟩
  | 114 => ⟨S400000, .f32⟩
  | 115 => ⟨S400000, .f32⟩
  | 116 => ⟨S_, .f32⟩
  | 117 => ⟨S400000, .f32⟩
  | 118 => ⟨S400000, .f32⟩
  | 119 => ⟨S400000, .f32⟩
  | 120 => ⟨S_, .f32⟩
  | 121 => ⟨S400000, .f32⟩
  | 122 => ⟨S400000, .f32⟩
  | 123 => ⟨S_, .f32⟩
  | 124 => ⟨S400000, .f32⟩
  | 125 => ⟨S400000, .f32⟩
  | 126 => ⟨S400000, .f32⟩
  | 127 => ⟨S_, .f32⟩
  | _ => ⟨S25000x128, .f32⟩

abbrev hbmTy0_1 (i : Nat) : BufTy := match i % 128 with
  | 0 => ⟨S400000, .f32⟩
  | 1 => ⟨S400000, .i1⟩
  | 2 => ⟨S400000, .f32⟩
  | 3 => ⟨S400000, .f32⟩
  | 4 => ⟨S25000x128, .bf16⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .bf16⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x128, .bf16⟩
  | 23 => ⟨S25000x384, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x384, .f32⟩
  | 33 => ⟨S400000x1, .f32⟩
  | 34 => ⟨S400000x4, .f32⟩
  | 35 => ⟨S128x128, .f32⟩
  | 36 => ⟨S128x128, .f32⟩
  | 37 => ⟨S50x128, .f32⟩
  | 38 => ⟨S1x128, .f32⟩
  | 39 => ⟨S1x256, .f32⟩
  | 40 => ⟨S400000x384, .f32⟩
  | 41 => ⟨S_, .f32⟩
  | 42 => ⟨S25000x384, .f32⟩
  | 43 => ⟨S400000x1, .i32⟩
  | 44 => ⟨S25000x384, .f32⟩
  | 45 => ⟨S25000x3x128, .f32⟩
  | 46 => ⟨S25000x3x128, .f32⟩
  | 47 => ⟨S1x128, .f32⟩
  | 48 => ⟨S1x128, .f32⟩
  | 49 => ⟨S_, .f32⟩
  | 50 => ⟨S128, .f32⟩
  | 51 => ⟨S1x128, .f32⟩
  | 52 => ⟨S25000x128, .f32⟩
  | 53 => ⟨S25000x128, .f32⟩
  | 54 => ⟨S1x128, .f32⟩
  | 55 => ⟨S1x128, .f32⟩
  | 56 => ⟨S_, .f32⟩
  | 57 => ⟨S128, .f32⟩
  | 58 => ⟨S1x128, .f32⟩
  | 59 => ⟨S400000x128, .f32⟩
  | 60 => ⟨S400000x128, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x50, .f32⟩
  | .local _ .vmem, ⟨5, _⟩ => ⟨S2000x50, .f32⟩
  | .local _ .vmem, ⟨6, _⟩ => ⟨S2000x4, .f32⟩
  | .local _ .vmem, ⟨7, _⟩ => ⟨S2000x4, .f32⟩
  | .local _ .vmem, ⟨8, _⟩ => ⟨S2000x384, .f32⟩
  | .local _ .vmem, ⟨9, _⟩ => ⟨S2000x384, .f32⟩
  | .local _ .vmem, ⟨10, _⟩ => ⟨S128x128, .f32⟩
  | .local _ .vmem, ⟨11, _⟩ => ⟨S128x128, .f32⟩
  | .local _ .vmem, ⟨12, _⟩ => ⟨S50x128, .f32⟩
  | .local _ .vmem, ⟨13, _⟩ => ⟨S1x128, .f32⟩
  | .local _ .vmem, ⟨14, _⟩ => ⟨S128x256, .f32⟩
  | .local _ .vmem, ⟨15, _⟩ => ⟨S1x256, .f32⟩
  | .local _ .vmem, ⟨16, _⟩ => ⟨S2000x384, .f32⟩
  | .local _ .vmem, ⟨17, _⟩ => ⟨S2000x384, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_c_9 : Ref sig .tc := ⟨.hbm, 76, rfl⟩
abbrev main_v43 : Ref sig .tc := ⟨.hbm, 77, rfl⟩
abbrev main_v44 : Ref sig .tc := ⟨.hbm, 78, rfl⟩
abbrev main_c_10 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_16 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_cst_19 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_20 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_21 : Ref sig .tc := ⟨.hbm, 133, rfl⟩
abbrev main_v88 : Ref sig .tc := ⟨.hbm, 134, rfl⟩
abbrev main_v89 : Ref sig .tc := ⟨.hbm, 135, rfl⟩
abbrev main_c_22 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_23 : Ref sig .tc := ⟨.hbm, 142, rfl⟩
abbrev main_v95 : Ref sig .tc := ⟨.hbm, 143, rfl⟩
abbrev main_v96 : Ref sig .tc := ⟨.hbm, 144, rfl⟩
abbrev main_c_24 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_25 : Ref sig .tc := ⟨.hbm, 152, rfl⟩
abbrev main_v103 : Ref sig .tc := ⟨.hbm, 153, rfl⟩
abbrev main_v104 : Ref sig .tc := ⟨.hbm, 154, rfl⟩
abbrev main_c_26 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_27 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_28 : Ref sig .tc := ⟨.hbm, 177, rfl⟩
abbrev main_v125 : Ref sig .tc := ⟨.hbm, 178, rfl⟩
abbrev main_v126 : Ref sig .tc := ⟨.hbm, 179, rfl⟩
abbrev main_v127_0 : Ref sig .tc := ⟨.hbm, 180, rfl⟩
abbrev main_v127_1 : Ref sig .tc := ⟨.hbm, 181, rfl⟩
abbrev main_v128 : Ref sig .tc := ⟨.hbm, 182, rfl⟩
abbrev main_v129 : Ref sig .tc := ⟨.hbm, 183, rfl⟩
abbrev main_cst_29 : Ref sig .tc := ⟨.hbm, 184, rfl⟩
abbrev main_v130 : Ref sig .tc := ⟨.hbm, 185, rfl⟩
abbrev main_v131 : Ref sig .tc := ⟨.hbm, 186, rfl⟩
abbrev main_v132_0 : Ref sig .tc := ⟨.hbm, 187, rfl⟩
abbrev main_v132_1 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem7_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem6_1 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  reducesTo_S25000x3_S25000_d1 : S25000x3.ReducesTo [1] S25000
  bcast_S25000_S25000x1_0 : S25000.BroadcastsInDim S25000x1 (![0] : Fin 1 → Fin S25000x1.rank)
  shapeCasts_S400000x1_S400000 : S400000x1.ShapeCasts S400000
  bitsLt_bf16_f32 : FTy.bits .bf16 < FTy.bits .f32
  shapeCasts_S25000x3x128_S25000x384 : S25000x3x128.ShapeCasts S25000x384
  concatenates_S400000x3_S400000x1_S400000x4_d1 : Shape.Concatenates [S400000x3, S400000x1] S400000x4 1
  slices_S306x128_S128x128_0_0 : S306x128.Slices ![0, 0] S128x128
  slices_S306x128_S128x128_128_0 : S306x128.Slices ![128, 0] S128x128
  slices_S306x128_S50x128_256_0 : S306x128.Slices ![256, 0] S50x128
  shapeCasts_S128_S1x128 : S128.ShapeCasts S1x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x50_S2000x50_0_0 : ∀ a, (![0, 0] : Fin 2 → Nat) a + S2000x50.size a ≤ S2000x50.size a
  h_S2000x50 : 0 < S2000x50.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  slices_S2000x256_o0_128_S2000x128 : S2000x256.Slices ![0, 128] S2000x128
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  slices_S2000x4_o0_0_S2000x1 : S2000x4.Slices ![0, 0] S2000x1
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  broadcasts_S2000x1_S2000x128 : S2000x1.Broadcasts S2000x128
  inb_S2000x384_S2000x128_0_0 : ∀ a, (![0, 0] : Fin 2 → Nat) a + S2000x128.size a ≤ S2000x384.size a
  inb_S2000x384_S2000x128_0_128 : ∀ a, (![0, 128] : Fin 2 → Nat) a + S2000x128.size a ≤ S2000x384.size a
  inb_S2000x384_S2000x128_0_256 : ∀ a, (![0, 256] : Fin 2 → Nat) a + S2000x128.size a ≤ S2000x384.size a
  bcast_S_S25000x384 : S_.BroadcastsInDim S25000x384 (![] : Fin 0 → Fin S25000x384.rank)
  shapeCasts_S25000x384_S25000x3x128 : S25000x384.ShapeCasts S25000x3x128
  reducesTo_S128x128_S128_d0 : S128x128.ReducesTo [0] S128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  broadcasts_S1x128_S4000x128 : S1x128.Broadcasts S4000x128
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1
  gather_S25000x128_S400000x1_S400000x128_1_0_n_n_0_1_1128_wf : GatherDims.WF S25000x128 S400000x1 S400000x128 [1] [0] [] [0] [] 1 ![1, 128]
  gather_S25000x384_S400000x1_S400000x384_1_0_n_n_0_1_1384_wf : GatherDims.WF S25000x384 S400000x1 S400000x384 [1] [0] [] [0] [] 1 ![1, 384]
  dot_S2000x128_S128x128_S2000x128_1_0_0_1_n_n_wf : DotDims.WF S2000x128 S128x128 S2000x128 [1] [0] [0] [1] [] []
  dot_S2000x50_S50x128_S2000x128_1_0_0_1_n_n_wf : DotDims.WF S2000x50 S50x128 S2000x128 [1] [0] [0] [1] [] []
  dot_S2000x128_S128x256_S2000x256_1_0_0_1_n_n_wf : DotDims.WF S2000x128 S128x256 S2000x256 [1] [0] [0] [1] [] []
  scatter_S25000x384_S400000x1_S400000x384_1_0_0_1_wf : ScatterDims.WF S25000x384 S400000x1 S400000x384 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S400000x128.size a
  hwx0_0 : ∀ i : grid0.Coords, EltTy.bits .bf16 = 32 ∨ (Rect.block (s := S400000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .bf16 = 32 ∨ (Rect.block (s := S400000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x50.size a ≤ S400000x50.size a
  hwx0_2 : ∀ i : grid0.Coords, EltTy.bits .f32 = 32 ∨ (Rect.block (s := S400000x50) S2000x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x4.size a ≤ S400000x4.size a
  hwx0_3 : ∀ i : grid0.Coords, EltTy.bits .f32 = 32 ∨ (Rect.block (s := S400000x4) S2000x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x384.size a ≤ S400000x384.size a
  hwx0_4 : ∀ i : grid0.Coords, EltTy.bits .f32 = 32 ∨ (Rect.block (s := S400000x384) S2000x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x128.size a ≤ S50x128.size a
  hwx0_7 : ∀ i : grid0.Coords, EltTy.bits .f32 = 32 ∨ (Rect.block (s := S50x128) S50x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x384.size a ≤ S400000x384.size a
  hwx0_11 : ∀ i : grid0.Coords, EltTy.bits .f32 = 32 ∨ (Rect.block (s := S400000x384) S2000x384.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S25000x1.size a
  hwx1_1 : ∀ i : grid1.Coords, EltTy.bits .f32 = 32 ∨ (Rect.block (s := S25000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S25000x128.size a
  hwx1_6 : ∀ i : grid1.Coords, EltTy.bits .f32 = 32 ∨ (Rect.block (s := S25000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S25000x128.size a
  hwx1_7 : ∀ i : grid1.Coords, EltTy.bits .f32 = 32 ∨ (Rect.block (s := S25000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S400000x128.size a
  hwx2_0 : ∀ i : grid2.Coords, EltTy.bits .f32 = 32 ∨ (Rect.block (s := S400000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S400000x1.size a
  hwx2_1 : ∀ i : grid2.Coords, EltTy.bits .f32 = 32 ∨ (Rect.block (s := S400000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S400000x128.size a
  hwx2_6 : ∀ i : grid2.Coords, EltTy.bits .f32 = 32 ∨ (Rect.block (s := S400000x128) S4000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S400000x128.size a
  hwx2_7 : ∀ i : grid2.Coords, EltTy.bits .f32 = 32 ∨ (Rect.block (s := S400000x128) S4000x128.size (cc2_transform_7 i) (hinb2_7 i)).WholeWords (EltTy.packing .f32)

variable [Facts₀]

def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def gather_S25000x384_S400000x1_S400000x384_1_0_n_n_0_1_1384 : GatherDims S25000x384 S400000x1 S400000x384 where
  offsetDims := [1]
  collapsedSliceDims := [0]
  operandBatchingDims := []
  startIndicesBatchingDims := []
  startIndexMap := [0]
  indexVectorDim := 1
  sliceSizes := ![1, 384]
  wf := gather_S25000x384_S400000x1_S400000x384_1_0_n_n_0_1_1384_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x50_S50x128_S2000x128_1_0_0_1_n_n : DotDims S2000x50 S50x128 S2000x128 where
  lhsContracting := [1]
  rhsContracting := [0]
  lhsNonContracting := [0]
  rhsNonContracting := [1]
  lhsBatch := []
  rhsBatch := []
  wf := dot_S2000x50_S50x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S25000x384_S400000x1_S400000x384_1_0_0_1 : ScatterDims S25000x384 S400000x1 S400000x384 where
  updateWindowDims := [1]
  insertedWindowDims := [0]
  scatterDimsToOperandDims := [0]
  indexVectorDim := 1
  wf := scatter_S25000x384_S400000x1_S400000x384_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v94) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v111) S2000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v109) S2000x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v112) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v113) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v114) S50x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v115) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v116) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v117) S2000x384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v123) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v126) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v124) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v127_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v127_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg2) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v128) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v131) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v129) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v132_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v132_1) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S25000x128 : Shape := ⟨2, ![25000, 128]⟩
abbrev S25000x3x128 : Shape := ⟨3, ![25000, 3, 128]⟩
abbrev S400000x128 : Shape := ⟨2, ![400000, 128]⟩
abbrev S25000x3 : Shape := ⟨2, ![25000, 3]⟩
abbrev S400000x50 : Shape := ⟨2, ![400000, 50]⟩
abbrev S2x400000 : Shape := ⟨2, ![2, 400000]⟩
abbrev S306x128 : Shape := ⟨2, ![306, 128]⟩
abbrev S128 : Shape := ⟨1, ![128]⟩
abbrev S128x256 : Shape := ⟨2, ![128, 256]⟩
abbrev S256 : Shape := ⟨1, ![256]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S25000 : Shape := ⟨1, ![25000]⟩
abbrev S25000x1 : Shape := ⟨2, ![25000, 1]⟩
abbrev S400000x306 : Shape := ⟨2, ![400000, 306]⟩
abbrev S1x128 : Shape := ⟨2, ![1, 128]⟩
abbrev S400000x256 : Shape := ⟨2, ![400000, 256]⟩
abbrev S1x256 : Shape := ⟨2, ![1, 256]⟩
abbrev S400000x1x128 : Shape := ⟨3, ![400000, 1, 128]⟩
abbrev S400000x3x1 : Shape := ⟨3, ![400000, 3, 1]⟩
abbrev S400000x3x128 : Shape := ⟨3, ![400000, 3, 128]⟩
abbrev S400000x1x1 : Shape := ⟨3, ![400000, 1, 1]⟩

abbrev nBuf : Space → Nat
  | .hbm => 225
  | .vmem => 0
  | .smem => 0
  | _ => 0

abbrev hbmTy0_0 (i : Nat) : BufTy := match i % 128 with
  | 0 => ⟨S25000x128, .f32⟩
  | 1 => ⟨S25000x3x128, .f32⟩
  | 2 => ⟨S400000x128, .f32⟩
  | 3 => ⟨S25000x3, .f32⟩
  | 4 => ⟨S400000x50, .f32⟩
  | 5 => ⟨S2x400000, .i32⟩
  | 6 => ⟨S306x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S1x400000, .i32⟩
  | 19 => ⟨S400000, .i32⟩
  | 20 => ⟨S1x400000, .i32⟩
  | 21 => ⟨S400000, .i32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000x3, .f32⟩
  | 31 => ⟨S_, .i32⟩
  | 32 => ⟨S400000, .i32⟩
  | 33 => ⟨S400000, .i1⟩
  | 34 => ⟨S_, .i32⟩
  | 35 => ⟨S400000, .i32⟩
  | 36 => ⟨S400000, .i32⟩
  | 37 => ⟨S400000, .i32⟩
  | 38 => ⟨S400000x1, .i32⟩
  | 39 => ⟨S400000x3, .f32⟩
  | 40 => ⟨S400000x3, .f32⟩
  | 41 => ⟨S400000x3, .f32⟩
  | 42 => ⟨S_, .f32⟩
  | 43 => ⟨S400000, .f32⟩
  | 44 => ⟨S400000x1, .f32⟩
  | 45 => ⟨S400000x1, .f32⟩
  | 46 => ⟨S_, .f32⟩
  | 47 => ⟨S400000x1, .f32⟩
  | 48 => ⟨S400000x1, .f32⟩
  | 49 => ⟨S400000x3, .f32⟩
  | 50 => ⟨S400000x3, .f32⟩
  | 51 => ⟨S_, .f32⟩
  | 52 => ⟨S25000x3, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S25000x3, .f32⟩
  | 62 => ⟨S400000x3, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S25000x3, .f32⟩
  | 72 => ⟨S25000x3, .f32⟩
  | 73 => ⟨S_, .f32⟩
  | 74 => ⟨S25000, .f32⟩
  | 75 => ⟨S25000x1, .f32⟩
  | 76 => ⟨S25000x128, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x3, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x3, .f32⟩
  | 95 => ⟨S400000x3, .f32⟩
  | 96 => ⟨S_, .f32⟩
  | 97 => ⟨S400000, .f32⟩
  | 98 => ⟨S400000x1, .f32⟩
  | 99 => ⟨S400000x3, .f32⟩
  | 100 => ⟨S_, .f32⟩
  | 101 => ⟨S400000, .f32⟩
  | 102 => ⟨S400000x1, .f32⟩
  | 103 => ⟨S400000x3, .f32⟩
  | 104 => ⟨S400000x3, .f32⟩
  | 105 => ⟨S400000x3, .f32⟩
  | 106 => ⟨S400000x3, .f32⟩
  | 107 => ⟨S400000x3, .f32⟩
  | 108 => ⟨S400000x3, .f32⟩
  | 109 => ⟨S400000x3, .f32⟩
  | 110 => ⟨S_, .f32⟩
  | 111 => ⟨S400000, .f32⟩
  | 112 => ⟨S400000x1, .f32⟩
  | 113 => ⟨S400000x128, .f32⟩
  | 114 => ⟨S400000, .f32⟩
  | 115 => ⟨S_, .f32⟩
  | 116 => ⟨S400000, .f32⟩
  | 117 => ⟨S400000, .f32⟩
  | 118 => ⟨S_, .f32⟩
  | 119 => ⟨S400000, .f32⟩
  | 120 => ⟨S400000, .f32⟩
  | 121 => ⟨S400000, .f32⟩
  | 122 => ⟨S_, .f32⟩
  | 123 => ⟨S400000, .f32⟩
  | 124 => ⟨S400000, .f32⟩
  | 125 => ⟨S_, .f32⟩
  | 126 => ⟨S400000, .f32⟩
  | 127 => ⟨S400000, .f32⟩
  | _ => ⟨S25000x128, .f32⟩

abbrev hbmTy0_1 (i : Nat) : BufTy := match i % 128 with
  | 0 => ⟨S400000, .f32⟩
  | 1 => ⟨S_, .f32⟩
  | 2 => ⟨S400000, .f32⟩
  | 3 => ⟨S400000, .i1⟩
  | 4 => ⟨S400000, .f32⟩
  | 5 => ⟨S400000, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x128, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x128, .f32⟩
  | 24 => ⟨S400000x306, .f32⟩
  | 25 => ⟨S400000x128, .f32⟩
  | 26 => ⟨S1x128, .f32⟩
  | 27 => ⟨S400000x128, .f32⟩
  | 28 => ⟨S400000x128, .f32⟩
  | 29 => ⟨S400000x256, .f32⟩
  | 30 => ⟨S1x256, .f32⟩
  | 31 => ⟨S400000x256, .f32⟩
  | 32 => ⟨S400000x256, .f32⟩
  | 33 => ⟨S400000x128, .f32⟩
  | 34 => ⟨S400000x128, .f32⟩
  | 35 => ⟨S400000x1x128, .f32⟩
  | 36 => ⟨S400000x3x1, .f32⟩
  | 37 => ⟨S400000x3x128, .f32⟩
  | 38 => ⟨S400000x3x128, .f32⟩
  | 39 => ⟨S400000x3x128, .f32⟩
  | 40 => ⟨S400000x1x128, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000x3x128, .f32⟩
  | 50 => ⟨S400000x3x128, .f32⟩
  | 51 => ⟨S400000x3x128, .f32⟩
  | 52 => ⟨S400000x3x128, .f32⟩
  | 53 => ⟨S400000x1x1, .f32⟩
  | 54 => ⟨S400000x3x128, .f32⟩
  | 55 => ⟨S400000x3x128, .f32⟩
  | 56 => ⟨S_, .f32⟩
  | 57 => ⟨S25000x3x128, .f32⟩
  | 58 => ⟨S400000x1, .i32⟩
  | 59 => ⟨S25000x3x128, .f32⟩
  | 60 => ⟨S25000x3x128, .f32⟩
  | 61 => ⟨S25000x128, .f32⟩
  | 62 => ⟨S1x128, .f32⟩
  | 63 => ⟨S25000x128, .f32⟩
  | 64 => ⟨S25000x128, .f32⟩
  | 65 => ⟨S25000x128, .f32⟩
  | 66 => ⟨S25000x128, .f32⟩
  | 67 => ⟨S_, .f32⟩
  | 68 => ⟨S25000x128, .f32⟩
  | 69 => ⟨S25000x128, .f32⟩
  | 70 => ⟨S_, .f32⟩
  | 71 => ⟨S25000x128, .f32⟩
  | 72 => ⟨S25000x128, .f32⟩
  | 73 => ⟨S25000x128, .f32⟩
  | 74 => ⟨S1x128, .f32⟩
  | 75 => ⟨S25000x128, .f32⟩
  | 76 => ⟨S25000x128, .f32⟩
  | 77 => ⟨S25000x128, .f32⟩
  | 78 => ⟨S25000x128, .f32⟩
  | 79 => ⟨S400000x128, .f32⟩
  | 80 => ⟨S1x128, .f32⟩
  | 81 => ⟨S400000x128, .f32⟩
  | 82 => ⟨S400000x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S_, .f32⟩
  | 89 => ⟨S400000x128, .f32⟩
  | 90 => ⟨S400000x128, .f32⟩
  | 91 => ⟨S400000x128, .f32⟩
  | 92 => ⟨S1x128, .f32⟩
  | 93 => ⟨S400000x128, .f32⟩
  | 94 => ⟨S400000x128, .f32⟩
  | 95 => ⟨S400000x128, .f32⟩
  | 96 => ⟨S400000x128, .f32⟩
  | _ => ⟨S25000x128, .f32⟩

abbrev hbmTy (i : Nat) : BufTy := match i / 128 with
  | 0 => hbmTy0_0 i
  | 1 => hbmTy0_1 i
  | _ => ⟨S25000x128, .f32⟩

abbrev bufTy : (tb : Table) → Fin (tcTables nBuf tb) → BufTy
  | .hbm, ⟨i, _⟩ => hbmTy i
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_6 : Ref sig .tc := ⟨.hbm, 63, rfl⟩
abbrev main_v33 : Ref sig .tc := ⟨.hbm, 64, rfl⟩
abbrev main_v34 : Ref sig .tc := ⟨.hbm, 65, rfl⟩
abbrev main_c_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_11 : Ref sig .tc := ⟨.hbm, 86, rfl⟩
abbrev main_v51 : Ref sig .tc := ⟨.hbm, 87, rfl⟩
abbrev main_v52 : Ref sig .tc := ⟨.hbm, 88, rfl⟩
abbrev main_c_12 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_16 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_18 : Ref sig .tc := ⟨.hbm, 122, rfl⟩
abbrev main_v80 : Ref sig .tc := ⟨.hbm, 123, rfl⟩
abbrev main_v81 : Ref sig .tc := ⟨.hbm, 124, rfl⟩
abbrev main_cst_19 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_21 : Ref sig .tc := ⟨.hbm, 134, rfl⟩
abbrev main_v89 : Ref sig .tc := ⟨.hbm, 135, rfl⟩
abbrev main_v90 : Ref sig .tc := ⟨.hbm, 136, rfl⟩
abbrev main_c_22 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_23 : Ref sig .tc := ⟨.hbm, 143, rfl⟩
abbrev main_v96 : Ref sig .tc := ⟨.hbm, 144, rfl⟩
abbrev main_v97 : Ref sig .tc := ⟨.hbm, 145, rfl⟩
abbrev main_c_24 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_25 : Ref sig .tc := ⟨.hbm, 169, rfl⟩
abbrev main_v120 : Ref sig .tc := ⟨.hbm, 170, rfl⟩
abbrev main_v121 : Ref sig .tc := ⟨.hbm, 171, rfl⟩
abbrev main_c_26 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_27 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_28 : Ref sig .tc := ⟨.hbm, 195, rfl⟩
abbrev main_v143 : Ref sig .tc := ⟨.hbm, 196, rfl⟩
abbrev main_v144 : Ref sig .tc := ⟨.hbm, 197, rfl⟩
abbrev main_cst_29 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_30 : Ref sig .tc := ⟨.hbm, 213, rfl⟩
abbrev main_v159 : Ref sig .tc := ⟨.hbm, 214, rfl⟩
abbrev main_v160 : Ref sig .tc := ⟨.hbm, 215, rfl⟩
abbrev main_cst_31 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  bcast_S_S400000x1 : S_.BroadcastsInDim S400000x1 (![] : Fin 0 → Fin S400000x1.rank)
  bcast_S400000x1_S400000x3_0_1 : S400000x1.BroadcastsInDim S400000x3 (![0, 1] : Fin 2 → Fin S400000x3.rank)
  bcast_S_S25000x3 : S_.BroadcastsInDim S25000x3 (![] : Fin 0 → Fin S25000x3.rank)
  reducesTo_S25000x3_S25000_d1 : S25000x3.ReducesTo [1] S25000
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S400000x1_S400000x128_0_1 : S400000x1.BroadcastsInDim S400000x128 (![0, 1] : Fin 2 → Fin S400000x128.rank)
  shapeCasts_S400000x1_S400000 : S400000x1.ShapeCasts S400000
  concatenates_S400000x128_S400000x128_S400000x50_S400000x306_d1 : Shape.Concatenates [S400000x128, S400000x128, S400000x50] S400000x306 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  slices_S400000x256_S400000x128_0_0 : S400000x256.Slices ![0, 0] S400000x128
  slices_S400000x256_S400000x128_0_128 : S400000x256.Slices ![0, 128] S400000x128
  bcast_S400000x128_S400000x1x128_0_2 : S400000x128.BroadcastsInDim S400000x1x128 (![0, 2] : Fin 2 → Fin S400000x1x128.rank)
  bcast_S400000x3_S400000x3x1_0_1 : S400000x3.BroadcastsInDim S400000x3x1 (![0, 1] : Fin 2 → Fin S400000x3x1.rank)
  bcast_S400000x1x128_S400000x3x128_0_1_2 : S400000x1x128.BroadcastsInDim S400000x3x128 (![0, 1, 2] : Fin 3 → Fin S400000x3x128.rank)
  bcast_S400000x3x1_S400000x3x128_0_1_2 : S400000x3x1.BroadcastsInDim S400000x3x128 (![0, 1, 2] : Fin 3 → Fin S400000x3x128.rank)
  bcast_S400000_S400000x1x1_0 : S400000.BroadcastsInDim S400000x1x1 (![0] : Fin 1 → Fin S400000x1x1.rank)
  bcast_S400000x1x1_S400000x3x128_0_1_2 : S400000x1x1.BroadcastsInDim S400000x3x128 (![0, 1, 2] : Fin 3 → Fin S400000x3x128.rank)
  bcast_S_S25000x3x128 : S_.BroadcastsInDim S25000x3x128 (![] : Fin 0 → Fin S25000x3x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  bcast_S_S400000x128 : S_.BroadcastsInDim S400000x128 (![] : Fin 0 → Fin S400000x128.rank)
  gather_S25000x3_S400000x1_S400000x3_1_0_n_n_0_1_13_wf : GatherDims.WF S25000x3 S400000x1 S400000x3 [1] [0] [] [0] [] 1 ![1, 3]
  scatter_S25000x3_S400000x1_S400000x3_1_0_0_1_wf : ScatterDims.WF S25000x3 S400000x1 S400000x3 [1] [0] [0] 1
  gather_S25000x128_S400000x1_S400000x128_1_0_n_n_0_1_1128_wf : GatherDims.WF S25000x128 S400000x1 S400000x128 [1] [0] [] [0] [] 1 ![1, 128]
  dot_S400000x306_S306x128_S400000x128_1_0_0_1_n_n_wf : DotDims.WF S400000x306 S306x128 S400000x128 [1] [0] [0] [1] [] []
  dot_S400000x128_S128x256_S400000x256_1_0_0_1_n_n_wf : DotDims.WF S400000x128 S128x256 S400000x256 [1] [0] [0] [1] [] []
  gather_S25000x3x128_S400000x1_S400000x3x128_12_0_n_n_0_1_13128_wf : GatherDims.WF S25000x3x128 S400000x1 S400000x3x128 [1, 2] [0] [] [0] [] 1 ![1, 3, 128]
  scatter_S25000x3x128_S400000x1_S400000x3x128_12_0_0_1_wf : ScatterDims.WF S25000x3x128 S400000x1 S400000x3x128 [1, 2] [0] [0] 1
  dot_S25000x128_S128x128_S25000x128_1_0_0_1_n_n_wf : DotDims.WF S25000x128 S128x128 S25000x128 [1] [0] [0] [1] [] []
  dot_S400000x128_S128x128_S400000x128_1_0_0_1_n_n_wf : DotDims.WF S400000x128 S128x128 S400000x128 [1] [0] [0] [1] [] []

variable [Facts₀]

def gather_S25000x3_S400000x1_S400000x3_1_0_n_n_0_1_13 : GatherDims S25000x3 S400000x1 S400000x3 where
  offsetDims := [1]
  collapsedSliceDims := [0]
  operandBatchingDims := []
  startIndicesBatchingDims := []
  startIndexMap := [0]
  indexVectorDim := 1
  sliceSizes := ![1, 3]
  wf := gather_S25000x3_S400000x1_S400000x3_1_0_n_n_0_1_13_wf
def scatter_S25000x3_S400000x1_S400000x3_1_0_0_1 : ScatterDims S25000x3 S400000x1 S400000x3 where
  updateWindowDims := [1]
  insertedWindowDims := [0]
  scatterDimsToOperandDims := [0]
  indexVectorDim := 1
  wf := scatter_S25000x3_S400000x1_S400000x3_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x306_S306x128_S400000x128_1_0_0_1_n_n : DotDims S400000x306 S306x128 S400000x128 where
  lhsContracting := [1]
  rhsContracting := [0]
  lhsNonContracting := [0]
  rhsNonContracting := [1]
  lhsBatch := []
  rhsBatch := []
  wf := dot_S400000x306_S306x128_S400000x128_1_0_0_1_n_n_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def gather_S25000x3x128_S400000x1_S400000x3x128_12_0_n_n_0_1_13128 : GatherDims S25000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S25000x3x128_S400000x1_S400000x3x128_12_0_n_n_0_1_13128_wf
def scatter_S25000x3x128_S400000x1_S400000x3x128_12_0_0_1 : ScatterDims S25000x3x128 S400000x1 S400000x3x128 where
  updateWindowDims := [1, 2]
  insertedWindowDims := [0]
  scatterDimsToOperandDims := [0]
  indexVectorDim := 1
  wf := scatter_S25000x3x128_S400000x1_S400000x3x128_12_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.KernelRun.lean ====
/-
  The idealized kernel's run, with every unscoped buffer named after it.  @main is eight segments: three stretches of
  host operations, the edge-message region, a stretch, the first gated-update region, a stretch, the second gated-update
  region.  The contents of the TensorCore's buffers at each boundary are a fold from the launch memory (`Gen.W0` …
  `Gen.W8`): a stretch applies its operations, a region replaces its arrays by what its write-backs leave.  Every weakly
  fair execution terminates without a fault in a state whose unscoped buffers hold the last fold, `Gen.W8`.
-/
import proofs.«161305_j25314537242668_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from the memory `m` ends, nothing faulting, with each unscoped buffer of each
    core at the last boundary's contents. -/
theorem run_W8 : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Run

end
-- ==== Proof.HostVals.lean ====
/-
  What the host operations before the edge-message region leave in the buffers that region reads, and in the
  geometry buffers the later regions and the results read: each is the same composition of host operations the
  reference program applies to the same arguments, so each is named by the reference's stage function of the
  positions (argument 3) and the edge index (argument 5).
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

/-- The accumulated direction vectors, one row per node. -/
theorem W3_v39 (c : Dev nD) : W3 m ρ c (Proc.devRef .tc main_v39) = Cert.ReferenceIdeal.Read.val_main_v39 (F := F) (m ((c.tc : Thread nD τ).loc main_arg3)) (m ((c.tc : Thread nD τ).loc main_arg5)) := by
  show StableHlo.after hostOps0_2 (StableHlo.after hostOps0_1 (StableHlo.after hostOps0 (W0 m ρ c))) (Proc.devRef .tc main_v39) = _
  after_results_simp <;> rfl

/-- The squared norm of a node's direction vector, as a column. -/
theorem W3_v42 (c : Dev nD) : W3 m ρ c (Proc.devRef .tc main_v42) = Cert.ReferenceIdeal.Read.val_main_v42 (F := F) (m ((c.tc : Thread nD τ).loc main_arg3)) (m ((c.tc : Thread nD τ).loc main_arg5)) := by
  show StableHlo.after hostOps0_2 (StableHlo.after hostOps0_1 (StableHlo.after hostOps0 (W0 m ρ c))) (Proc.devRef .tc main_v42) = _
  after_results_simp <;> rfl

/-- The dihedral scalar of an edge, as a column. -/
theorem W3_v71 (c : Dev nD) : W3 m ρ c (Proc.devRef .tc main_v71) = Cert.ReferenceIdeal.Read.val_main_v72 (F := F) (m ((c.tc : Thread nD τ).loc main_arg3)) (m ((c.tc : Thread nD τ).loc main_arg5)) := by
  show StableHlo.after hostOps0_2 (StableHlo.after hostOps0_1 (StableHlo.after hostOps0 (W0 m ρ c))) (Proc.devRef .tc main_v71) = _
  after_results_simp <;> rfl

/-- The second row of the edge index (the target nodes), flat. -/
theorem W3_v3 (c : Dev nD) : W3 m ρ c (Proc.devRef .tc main_v3) = Cert.ReferenceIdeal.Read.val_main_v3 (F := F) (m ((c.tc : Thread nD τ).loc main_arg5)) := by
  show StableHlo.after hostOps0_2 (StableHlo.after hostOps0_1 (StableHlo.after hostOps0 (W0 m ρ c))) (Proc.devRef .tc main_v3) = _
  after_results_simp <;> rfl

/-- The unit direction of each edge beside its cutoff weight: four columns. -/
theorem W3_v111 (c : Dev nD) : W3 m ρ c (Proc.devRef .tc main_v111)
    = concatenate S400000x4 1 [⟨S400000x3, Cert.ReferenceIdeal.Read.val_main_v23 (F := F) (m ((c.tc : Thread nD τ).loc main_arg3)) (m ((c.tc : Thread nD τ).loc main_arg5))⟩,
        ⟨S400000x1, broadcastInDim S400000x1 ![0] bcast_S400000_S400000x1_0 (Cert.ReferenceIdeal.Read.val_main_v88 (F := F) (m ((c.tc : Thread nD τ).loc main_arg3)) (m ((c.tc : Thread nD τ).loc main_arg5)))⟩] concatenates_S400000x3_S400000x1_S400000x4_d1 := by
  show StableHlo.after hostOps0_2 (StableHlo.after hostOps0_1 (StableHlo.after hostOps0 (W0 m ρ c))) (Proc.devRef .tc main_v111) = _
  after_results_simp <;> rfl

end Cert.KernelIdeal.HostVals
end
-- ==== Proof.HostVals4.lean ====
/-
  The buffers the second gated-update region reads when it is entered, and the six result buffers at the end of the
  run: the last stretch reshapes two biases and sums the second gate's weights over their rows; each gated-update
  region changes only its two output arrays.
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostVals4

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

theorem W7_arg2 (c : Dev nD) : W7 m ρ c (Proc.devRef .tc main_arg2) = W3 m ρ c (Proc.devRef .tc main_arg2) :=
  ((show StableHlo.after hostOps2 (W6 m ρ c) (Proc.devRef .tc main_arg2) = W6 m ρ c (Proc.devRef .tc main_arg2) by after_results_simp <;> rfl).trans (W6_of_ne m ρ c main_arg2 (by decide))).trans
    ((show StableHlo.after hostOps1 (W4 m ρ c) (Proc.devRef .tc main_arg2) = W4 m ρ c (Proc.devRef .tc main_arg2) by after_results_simp <;> rfl).trans (W4_of_ne m ρ c main_arg2 (by decide)))

theorem W7_arg12 (c : Dev nD) : W7 m ρ c (Proc.devRef .tc main_arg12) = W3 m ρ c (Proc.devRef .tc main_arg12) :=
  ((show StableHlo.after hostOps2 (W6 m ρ c) (Proc.devRef .tc main_arg12) = W6 m ρ c (Proc.devRef .tc main_arg12) by after_results_simp <;> rfl).trans (W6_of_ne m ρ c main_arg12 (by decide))).trans
    ((show StableHlo.after hostOps1 (W4 m ρ c) (Proc.devRef .tc main_arg12) = W4 m ρ c (Proc.devRef .tc main_arg12) by after_results_simp <;> rfl).trans (W4_of_ne m ρ c main_arg12 (by decide)))

theorem W7_v71 (c : Dev nD) : W7 m ρ c (Proc.devRef .tc main_v71) = W3 m ρ c (Proc.devRef .tc main_v71) :=
  ((show StableHlo.after hostOps2 (W6 m ρ c) (Proc.devRef .tc main_v71) = W6 m ρ c (Proc.devRef .tc main_v71) by after_results_simp <;> rfl).trans (W6_of_ne m ρ c main_v71 (by decide))).trans
    ((show StableHlo.after hostOps1 (W4 m ρ c) (Proc.devRef .tc main_v71) = W4 m ρ c (Proc.devRef .tc main_v71) by after_results_simp <;> rfl).trans (W4_of_ne m ρ c main_v71 (by decide)))

theorem W7_v39 (c : Dev nD) : W7 m ρ c (Proc.devRef .tc main_v39) = W3 m ρ c (Proc.devRef .tc main_v39) :=
  ((show StableHlo.after hostOps2 (W6 m ρ c) (Proc.devRef .tc main_v39) = W6 m ρ c (Proc.devRef .tc main_v39) by after_results_simp <;> rfl).trans (W6_of_ne m ρ c main_v39 (by decide))).trans
    ((show StableHlo.after hostOps1 (W4 m ρ c) (Proc.devRef .tc main_v39) = W4 m ρ c (Proc.devRef .tc main_v39) by after_results_simp <;> rfl).trans (W4_of_ne m ρ c main_v39 (by decide)))

theorem W7_arg13 (c : Dev nD) : W7 m ρ c (Proc.devRef .tc main_arg13) = W3 m ρ c (Proc.devRef .tc main_arg13) :=
  ((show StableHlo.after hostOps2 (W6 m ρ c) (Proc.devRef .tc main_arg13) = W6 m ρ c (Proc.devRef .tc main_arg13) by after_results_simp <;> rfl).trans (W6_of_ne m ρ c main_arg13 (by decide))).trans
    ((show StableHlo.after hostOps1 (W4 m ρ c) (Proc.devRef .tc main_arg13) = W4 m ρ c (Proc.devRef .tc main_arg13) by after_results_simp <;> rfl).trans (W4_of_ne m ρ c main_arg13 (by decide)))

theorem W7_arg16 (c : Dev nD) : W7 m ρ c (Proc.devRef .tc main_arg16) = W3 m ρ c (Proc.devRef .tc main_arg16) :=
  ((show StableHlo.after hostOps2 (W6 m ρ c) (Proc.devRef .tc main_arg16) = W6 m ρ c (Proc.devRef .tc main_arg16) by after_results_simp <;> rfl).trans (W6_of_ne m ρ c main_arg16 (by decide))).trans
    ((show StableHlo.after hostOps1 (W4 m ρ c) (Proc.devRef .tc main_arg16) = W4 m ρ c (Proc.devRef .tc main_arg16) by after_results_simp <;> rfl).trans (W4_of_ne m ρ c main_arg16 (by decide)))

theorem W7_arg17 (c : Dev nD) : W7 m ρ c (Proc.devRef .tc main_arg17) = W3 m ρ c (Proc.devRef .tc main_arg17) :=
  ((show StableHlo.after hostOps2 (W6 m ρ c) (Proc.devRef .tc main_arg17) = W6 m ρ c (Proc.devRef .tc main_arg17) by after_results_simp <;> rfl).trans (W6_of_ne m ρ c main_arg17 (by decide))).trans
    ((show StableHlo.after hostOps1 (W4 m ρ c) (Proc.devRef .tc main_arg17) = W4 m ρ c (Proc.devRef .tc main_arg17) by after_results_simp <;> rfl).trans (W4_of_ne m ρ c main_arg17 (by decide)))

theorem W7_v128 (c : Dev nD) : W7 m ρ c (Proc.devRef .tc main_v128) = shapeCast S1x128 (W6 m ρ c (Proc.devRef .tc main_arg13)) shapeCasts_S128_S1x128 :=
  show StableHlo.after hostOps2 (W6 m ρ c) (Proc.devRef .tc main_v128) = shapeCast S1x128 (W6 m ρ c (Proc.devRef .tc main_arg13)) shapeCasts_S128_S1x128 by after_results_simp <;> rfl
theorem W7_v129 (c : Dev nD) : W7 m ρ c (Proc.devRef .tc main_v129) = shapeCast S1x128 (W6 m ρ c (Proc.devRef .tc main_arg17)) shapeCasts_S128_S1x128 :=
  show StableHlo.after hostOps2 (W6 m ρ c) (Proc.devRef .tc main_v129) = shapeCast S1x128 (W6 m ρ c (Proc.devRef .tc main_arg17)) shapeCasts_S128_S1x128 by after_results_simp <;> rfl
theorem W7_v131 (c : Dev nD) : W7 m ρ c (Proc.devRef .tc main_v131)
    = broadcastInDim S1x128 ![1] bcast_S128_S1x128_1 (Host.reduceAdd (W6 m ρ c (Proc.devRef .tc main_arg16)) (constant S_ .f32 0x00000000#32) reducesTo_S128x128_S128_d0 h_S_) :=
  show StableHlo.after hostOps2 (W6 m ρ c) (Proc.devRef .tc main_v131)
    = broadcastInDim S1x128 ![1] bcast_S128_S1x128_1 (Host.reduceAdd (W6 m ρ c (Proc.devRef .tc main_arg16)) (constant S_ .f32 0x00000000#32) reducesTo_S128x128_S128_d0 h_S_) by after_results_simp <;> rfl
theorem W6_arg13' (c : Dev nD) : W6 m ρ c (Proc.devRef .tc main_arg13) = W3 m ρ c (Proc.devRef .tc main_arg13) :=
  (show W6 m ρ c (Proc.devRef .tc main_arg13) = StableHlo.after hostOps2 (W6 m ρ c) (Proc.devRef .tc main_arg13) by after_results_simp <;> rfl).trans (W7_arg13 m ρ c)
theorem W6_arg16' (c : Dev nD) : W6 m ρ c (Proc.devRef .tc main_arg16) = W3 m ρ c (Proc.devRef .tc main_arg16) :=
  (show W6 m ρ c (Proc.devRef .tc main_arg16) = StableHlo.after hostOps2 (W6 m ρ c) (Proc.devRef .tc main_arg16) by after_results_simp <;> rfl).trans (W7_arg16 m ρ c)
theorem W6_arg17' (c : Dev nD) : W6 m ρ c (Proc.devRef .tc main_arg17) = W3 m ρ c (Proc.devRef .tc main_arg17) :=
  (show W6 m ρ c (Proc.devRef .tc main_arg17) = StableHlo.after hostOps2 (W6 m ρ c) (Proc.devRef .tc main_arg17) by after_results_simp <;> rfl).trans (W7_arg17 m ρ c)

/-! ## The results at the end of the run -/

theorem W8_v127_0 (c : Dev nD) : W8 m ρ c (Proc.devRef .tc main_v127_0) = (dat1 (V5 m ρ) c).arrAt 6 cfg1.N :=
  (W8_of_ne m ρ c main_v127_0 (by decide)).trans
    ((show StableHlo.after hostOps2 (W6 m ρ c) (Proc.devRef .tc main_v127_0) = W6 m ρ c (Proc.devRef .tc main_v127_0) by after_results_simp <;> rfl).trans (W6_arr m ρ c 6))
theorem W8_v127_1 (c : Dev nD) : W8 m ρ c (Proc.devRef .tc main_v127_1) = (dat1 (V5 m ρ) c).arrAt 7 cfg1.N :=
  (W8_of_ne m ρ c main_v127_1 (by decide)).trans
    ((show StableHlo.after hostOps2 (W6 m ρ c) (Proc.devRef .tc main_v127_1) = W6 m ρ c (Proc.devRef .tc main_v127_1) by after_results_simp <;> rfl).trans (W6_arr m ρ c 7))
theorem W8_v132_0 (c : Dev nD) : W8 m ρ c (Proc.devRef .tc main_v132_0) = (dat2 (V7 m ρ) c).arrAt 6 cfg2.N := W8_arr m ρ c 6
theorem W8_v132_1 (c : Dev nD) : W8 m ρ c (Proc.devRef .tc main_v132_1) = (dat2 (V7 m ρ) c).arrAt 7 cfg2.N := W8_arr m ρ c 7
theorem W8_v39 (c : Dev nD) : W8 m ρ c (Proc.devRef .tc main_v39) = W3 m ρ c (Proc.devRef .tc main_v39) :=
  (W8_of_ne m ρ c main_v39 (by decide)).trans (W7_v39 m ρ c)
theorem W8_v122 (c : Dev nD) : W8 m ρ c (Proc.devRef .tc main_v122) = W5 m ρ c (Proc.devRef .tc main_v122) :=
  (W8_of_ne m ρ c main_v122 (by decide)).trans
    ((show StableHlo.after hostOps2 (W6 m ρ c) (Proc.devRef .tc main_v122) = W6 m ρ c (Proc.devRef .tc main_v122) by after_results_simp <;> rfl).trans (W6_of_ne m ρ c main_v122 (by decide)))

end Cert.KernelIdeal.HostVals4
end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.RealInputs.lean ====
/-
  From the precondition to real inputs.

  The precondition is the conjunction, over the seventeen float inputs, of "every entry has absolute value below +∞".
  Read on the extended reals, an entry whose absolute value is below +∞ is a real number (the two infinities have
  absolute value +∞). So under the precondition the positions and the two weight matrices used by the geometric terms
  are arrays of reals: split the conjunction, and read each "all" at an entry.
-/
import proofs.«161305_j25314537242668_2_alg».proof.Defs
import proofs.«161305_j25314537242668_2_alg».proof.Proof.LibRealEntries
import Idealize.ShloMosaic.Lib.ReduceAll
import Idealize.ShloMosaic.Lib.Affine
import Idealize.ShloMosaic.Lib.ValueIdx

noncomputable section

namespace Cert.RealInputs

open Idealize.ShloMosaic Idealize.SL.Sem Cert.Lib Cert.Pre_finite_inputs

/-- The shape of rank zero has one index. -/
theorem subsingleton_S_ : Subsingleton S_.Idx := ⟨fun a b => funext fun d => d.elim0⟩

/-- One conjunct of the precondition: if "all entries of `|x|` are below the splat of `+∞`" answers one, `x` is an
    array of reals. -/
theorem real_of_all {s : Shape} (x : FVec Ideal s .f32) {axes : List (Fin s.rank)}
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) : AllReal x :=
  haveI := subsingleton_S_
  allReal_of_all_abs_lt x _ (fun _ => rfl) hr _ hu ValueIdx.ix0 e

variable [Cert.Pre_finite_inputs.Facts]

/-- The precondition as a function of the eighteen inputs: where it answers one, inputs 3, 14 and 16 are real. -/
theorem fn_real (a0 : FVec Ideal S25000x128 .f32) (a1 : FVec Ideal S25000x3x128 .f32) (a2 : FVec Ideal S400000x128 .f32)
    (a3 : FVec Ideal S25000x3 .f32) (a4 : FVec Ideal S400000x50 .f32) (a5 : IVec S2x400000 32) (a6 : FVec Ideal S306x128 .f32)
    (a7 : FVec Ideal S128 .f32) (a8 : FVec Ideal S128x256 .f32) (a9 : FVec Ideal S256 .f32) (a10 : FVec Ideal S128x128 .f32)
    (a11 : FVec Ideal S128 .f32) (a12 : FVec Ideal S128x128 .f32) (a13 : FVec Ideal S128 .f32) (a14 : FVec Ideal S128x128 .f32)
    (a15 : FVec Ideal S128 .f32) (a16 : FVec Ideal S128x128 .f32) (a17 : FVec Ideal S128 .f32)
    (h : Cert.Pre_finite_inputs.fn (F := Ideal) a0 a1 a2 a3 a4 a5 a6 a7 a8 a9 a10 a11 a12 a13 a14 a15 a16 a17 = fun _ => 1#1) :
    AllReal a3 ∧ AllReal a14 ∧ AllReal a16 := by
  have h0 := congrFun h ValueIdx.ix0
  dsimp only [Cert.Pre_finite_inputs.fn, fn_part1, fn_part2, fn_part3, fn_part4, andi] at h0
  simp only [IntOp.andi_eq_one] at h0
  obtain ⟨⟨⟨⟨⟨⟨⟨⟨⟨⟨⟨⟨⟨⟨⟨⟨-, -⟩, -⟩, h3⟩, -⟩, -⟩, -⟩, -⟩, -⟩, -⟩, -⟩, -⟩, -⟩, h14⟩, -⟩, h16⟩, -⟩ := h0
  exact ⟨real_of_all a3 _ _ _ h3, real_of_all a14 _ _ _ h14, real_of_all a16 _ _ _ h16⟩

/-- Under the precondition the positions and the two weight matrices of the geometric terms are arrays of reals, on
    every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (ι := S25000x3.Idx) (m ((c.tc : Thread Cert.KernelIdeal.nD Cert.KernelIdeal.τ).loc Cert.KernelIdeal.main_arg3))
    ∧ AllReal (ι := S128x128.Idx) (m ((c.tc : Thread Cert.KernelIdeal.nD Cert.KernelIdeal.τ).loc Cert.KernelIdeal.main_arg14))
    ∧ AllReal (ι := S128x128.Idx) (m ((c.tc : Thread Cert.KernelIdeal.nD Cert.KernelIdeal.τ).loc Cert.KernelIdeal.main_arg16)) :=
  fn_real _ _ _ _ _ _ _ _ _ _ _ _ _ _ _ _ _ _ (h c)

end Cert.RealInputs

end
-- ==== Proof.HostVals3.lean ====
/-
  The buffers the first gated-update region reads when it is entered, and the updated vector features, in terms of
  what the first stretches left: the stretch between the edge-message region and this one reshapes two biases, sums
  the gate's weights over their rows, and accumulates the edge messages at the target nodes; the edge-message region
  changes only its output array.
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostVals3

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

theorem W5_arg0 (c : Dev nD) : W5 m ρ c (Proc.devRef .tc main_arg0) = W3 m ρ c (Proc.devRef .tc main_arg0) :=
  (show StableHlo.after hostOps1 (W4 m ρ c) (Proc.devRef .tc main_arg0) = W4 m ρ c (Proc.devRef .tc main_arg0) by after_results_simp <;> rfl).trans (W4_of_ne m ρ c main_arg0 (by decide))

theorem W5_arg10 (c : Dev nD) : W5 m ρ c (Proc.devRef .tc main_arg10) = W3 m ρ c (Proc.devRef .tc main_arg10) :=
  (show StableHlo.after hostOps1 (W4 m ρ c) (Proc.devRef .tc main_arg10) = W4 m ρ c (Proc.devRef .tc main_arg10) by after_results_simp <;> rfl).trans (W4_of_ne m ρ c main_arg10 (by decide))

theorem W5_v42 (c : Dev nD) : W5 m ρ c (Proc.devRef .tc main_v42) = W3 m ρ c (Proc.devRef .tc main_v42) :=
  (show StableHlo.after hostOps1 (W4 m ρ c) (Proc.devRef .tc main_v42) = W4 m ρ c (Proc.devRef .tc main_v42) by after_results_simp <;> rfl).trans (W4_of_ne m ρ c main_v42 (by decide))

/-- The first linear layer's bias as a one-row matrix. -/
theorem W5_v123 (c : Dev nD) : W5 m ρ c (Proc.devRef .tc main_v123) = shapeCast S1x128 (W3 m ρ c (Proc.devRef .tc main_arg11)) shapeCasts_S128_S1x128 :=
  (show StableHlo.after hostOps1 (W4 m ρ c) (Proc.devRef .tc main_v123) = shapeCast S1x128 (W4 m ρ c (Proc.devRef .tc main_arg11)) shapeCasts_S128_S1x128 by after_results_simp <;> rfl).trans
    (by rw [(W4_of_ne m ρ c main_arg11 (by decide))])
/-- The gate's bias as a one-row matrix. -/
theorem W5_v124 (c : Dev nD) : W5 m ρ c (Proc.devRef .tc main_v124) = shapeCast S1x128 (W3 m ρ c (Proc.devRef .tc main_arg15)) shapeCasts_S128_S1x128 :=
  (show StableHlo.after hostOps1 (W4 m ρ c) (Proc.devRef .tc main_v124) = shapeCast S1x128 (W4 m ρ c (Proc.devRef .tc main_arg15)) shapeCasts_S128_S1x128 by after_results_simp <;> rfl).trans
    (by rw [(W4_of_ne m ρ c main_arg15 (by decide))])
/-- The column sums of the gate's weights as a one-row matrix. -/
theorem W5_v126 (c : Dev nD) : W5 m ρ c (Proc.devRef .tc main_v126)
    = broadcastInDim S1x128 ![1] bcast_S128_S1x128_1 (Host.reduceAdd (W3 m ρ c (Proc.devRef .tc main_arg14)) (constant S_ .f32 0x00000000#32) reducesTo_S128x128_S128_d0 h_S_) :=
  (show StableHlo.after hostOps1 (W4 m ρ c) (Proc.devRef .tc main_v126)
      = broadcastInDim S1x128 ![1] bcast_S128_S1x128_1 (Host.reduceAdd (W4 m ρ c (Proc.devRef .tc main_arg14)) (constant S_ .f32 0x00000000#32) reducesTo_S128x128_S128_d0 h_S_) by after_results_simp <;> rfl).trans
    (by rw [(W4_of_ne m ρ c main_arg14 (by decide))])
/-- The updated vector features: the argument plus the reshaped accumulation of the edge messages at the target nodes. -/
theorem W5_v122 (c : Dev nD) : W5 m ρ c (Proc.devRef .tc main_v122)
    = addf (W3 m ρ c (Proc.devRef .tc main_arg1)) (shapeCast S25000x3x128 (Host.scatterAdd scatter_S25000x384_S400000x1_S400000x384_1_0_0_1
        (broadcastInDim S25000x384 ![] bcast_S_S25000x384 (constant S_ .f32 0x00000000#32))
        (broadcastInDim S400000x1 ![0] bcast_S400000_S400000x1_0 (W3 m ρ c (Proc.devRef .tc main_v3)))
        (W4 m ρ c (Proc.devRef .tc main_v117))) shapeCasts_S25000x384_S25000x3x128) :=
  (show StableHlo.after hostOps1 (W4 m ρ c) (Proc.devRef .tc main_v122)
      = addf (W4 m ρ c (Proc.devRef .tc main_arg1)) (shapeCast S25000x3x128 (Host.scatterAdd scatter_S25000x384_S400000x1_S400000x384_1_0_0_1
        (broadcastInDim S25000x384 ![] bcast_S_S25000x384 (constant S_ .f32 0x00000000#32))
        (broadcastInDim S400000x1 ![0] bcast_S400000_S400000x1_0 (W4 m ρ c (Proc.devRef .tc main_v3)))
        (W4 m ρ c (Proc.devRef .tc main_v117))) shapeCasts_S25000x384_S25000x3x128) by after_results_simp <;> rfl).trans
    (by rw [(W4_of_ne m ρ c main_arg1 (by decide)), (W4_of_ne m ρ c main_v3 (by decide))])
theorem W4_v117 (c : Dev nD) : W4 m ρ c (Proc.devRef .tc main_v117) = (dat0 (V3 m ρ) c).arrAt 11 cfg0.N := W4_arr m ρ c 11

end Cert.KernelIdeal.HostVals3
end
-- ==== Proof.HostArgsA.lean ====
/-
  The argument arrays are what the launch memory holds when the edge-message region is entered: no host operation
  before it writes one.
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostArgsA

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

theorem W3_arg0 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl

theorem W3_arg1 (c : Dev nD) : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results_simp <;> rfl

theorem W3_arg10 (c : Dev nD) : W3 m ρ c (Proc.devRef .tc main_arg10) = (m ((c.tc : Thread nD τ).loc main_arg10)) := by
  show StableHlo.after hostOps0_2 (StableHlo.after hostOps0_1 (StableHlo.after hostOps0 (W0 m ρ c))) (Proc.devRef .tc main_arg10) = _
  after_results_simp <;> rfl

theorem W3_arg11 (c : Dev nD) : W3 m ρ c (Proc.devRef .tc main_arg11) = (m ((c.tc : Thread nD τ).loc main_arg11)) := by
  show StableHlo.after hostOps0_2 (StableHlo.after hostOps0_1 (StableHlo.after hostOps0 (W0 m ρ c))) (Proc.devRef .tc main_arg11) = _
  after_results_simp <;> rfl

theorem W3_arg14 (c : Dev nD) : W3 m ρ c (Proc.devRef .tc main_arg14) = (m ((c.tc : Thread nD τ).loc main_arg14)) := by
  show StableHlo.after hostOps0_2 (StableHlo.after hostOps0_1 (StableHlo.after hostOps0 (W0 m ρ c))) (Proc.devRef .tc main_arg14) = _
  after_results_simp <;> rfl

theorem W3_arg15 (c : Dev nD) : W3 m ρ c (Proc.devRef .tc main_arg15) = (m ((c.tc : Thread nD τ).loc main_arg15)) := by
  show StableHlo.after hostOps0_2 (StableHlo.after hostOps0_1 (StableHlo.after hostOps0 (W0 m ρ c))) (Proc.devRef .tc main_arg15) = _
  after_results_simp <;> rfl

end Cert.KernelIdeal.HostArgsA
end
-- ==== Proof.HostArgsB.lean ====
/-
  The argument arrays are what the launch memory holds when the edge-message region is entered: no host operation
  before it writes one.
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostArgsB

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

theorem W3_arg2 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl

theorem W3_arg12 (c : Dev nD) : W3 m ρ c (Proc.devRef .tc main_arg12) = (m ((c.tc : Thread nD τ).loc main_arg12)) := by
  show StableHlo.after hostOps0_2 (StableHlo.after hostOps0_1 (StableHlo.after hostOps0 (W0 m ρ c))) (Proc.devRef .tc main_arg12) = _
  after_results_simp <;> rfl

theorem W3_arg13 (c : Dev nD) : W3 m ρ c (Proc.devRef .tc main_arg13) = (m ((c.tc : Thread nD τ).loc main_arg13)) := by
  show StableHlo.after hostOps0_2 (StableHlo.after hostOps0_1 (StableHlo.after hostOps0 (W0 m ρ c))) (Proc.devRef .tc main_arg13) = _
  after_results_simp <;> rfl

theorem W3_arg16 (c : Dev nD) : W3 m ρ c (Proc.devRef .tc main_arg16) = (m ((c.tc : Thread nD τ).loc main_arg16)) := by
  show StableHlo.after hostOps0_2 (StableHlo.after hostOps0_1 (StableHlo.after hostOps0 (W0 m ρ c))) (Proc.devRef .tc main_arg16) = _
  after_results_simp <;> rfl

theorem W3_arg17 (c : Dev nD) : W3 m ρ c (Proc.devRef .tc main_arg17) = (m ((c.tc : Thread nD τ).loc main_arg17)) := by
  show StableHlo.after hostOps0_2 (StableHlo.after hostOps0_1 (StableHlo.after hostOps0 (W0 m ρ c))) (Proc.devRef .tc main_arg17) = _
  after_results_simp <;> rfl

end Cert.KernelIdeal.HostArgsB
end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.GatedValue1.lean ====
/-
  The first gated-update region of the idealized kernel, as whole-array values.

  The region's body reads a block of 5000 rows of `x` and of the column `s`, and the whole of `W`, `b1`, `cs`, `b2`; it
  stores `x + (x · W + b1) * logistic (s * cs + b2)` to its first output and the column `s` repeated along each row to its
  second. Here: both stored values read at an index of the block; each window's block as a part of its array (block `t`
  holds rows `5000 t … 5000 t + 4999`; the small operands are whole); so each grid point writes back block `t` of ONE
  function of the region's input arrays, the five blocks cover the array (row `r` lies in block `r / 5000`), and the
  output arrays after the region are those functions, whatever the buffer contents `V` the region is entered with.
-/
import proofs.«161305_j25314537242668_2_alg».proof.Proof.Gen.KernelIdeal.Frame
import proofs.«161305_j25314537242668_2_alg».proof.Proof.LibMatDot
import proofs.«161305_j25314537242668_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.GatedValue1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The gated update, entry by entry -/

/-- Entry `(p, q)` of the gated update: the input plus its linear image (row `p` of `x` against column `q` of `W`, plus the
    bias) damped by the logistic of the row's scalar times the column weight plus the gate bias. -/
def gated (x : S25000x128.Idx → EReal) (s : S25000x1.Idx → EReal) (W : S128x128.Idx → EReal)
    (b1 cs b2 : S1x128.Idx → EReal) (p : Fin 25000) (q : Fin 128) : EReal :=
  x (ix2 p q) + ((∑ k : Fin 128, x (ix2 p k) * W (ix2 k q)) + b1 (ix2 0 q))
    * Ideal.logistic (s (ix2 p 0) * cs (ix2 0 q) + b2 (ix2 0 q))

/-- The first output array as one function of the region's six input arrays. -/
def G6 (c : Dev nD) : S25000x128.Idx → EReal := fun i =>
  gated (V c main_arg0) (V c main_v42) (V c main_arg10) (V c main_v123) (V c main_v126) (V c main_v124) (i 0) (i 1)

/-- The second output array: the row's scalar repeated along the row. -/
def G7 (c : Dev nD) : S25000x128.Idx → EReal := fun i => (V c main_v42 : S25000x1.Idx → EReal) (ix2 (i 0) (0 : Fin 1))

theorem hz : (![0, 0] : Fin 2 → Nat) = fun _ => 0 := funext fun a => by fin_cases a <;> rfl

/-! ## The body's two stored values at an index -/

/-- The product of a block of rows with the weight matrix, both passed through a change of format (the identity on
    extended reals), into the zero accumulator: the row-by-column sum. -/
theorem lin_apply (x0 : FVec Ideal S5000x128 .f32) (w : FVec Ideal S128x128 .f32) (h1 h2) (p : Fin 5000) (q : Fin 128) :
    (matmul (F := Ideal) dot_S5000x128_S128x128_S5000x128_1_0_0_1_n_n none (truncf .bf16 x0 h1) (truncf .bf16 w h2)
      (constant (F := Ideal) S5000x128 .f32 0x00000000#32) : FVec Ideal S5000x128 .f32) (ix2 p q)
      = ∑ k : Fin 128, x0 (ix2 p k) * w (ix2 k q) :=
  Cert.Lib.matmul_plain_zero_apply dot_S5000x128_S128x128_S5000x128_1_0_0_1_n_n_wf none (truncf .bf16 x0 h1) (truncf .bf16 w h2) p q

/-- The value stored to the first output at `(p, q)` of the block. -/
theorem pay3_apply (x0 : Vec Ideal S5000x128 .f32) (x1 : Vec Ideal S5000x1 .f32) (v5 v10 : Vec Ideal S1x128 .f32)
    (v15 : Vec Ideal S128x128 .f32) (v19 : Vec Ideal S1x128 .f32) (p : Fin 5000) (q : Fin 128) :
    k1_pay3 x0 x1 v5 v10 v15 v19 (ix2 p q) =
      x0 (ix2 p q) + ((∑ k : Fin 128, x0 (ix2 p k) * v15 (ix2 k q)) + v19 (ix2 0 q))
        * Ideal.logistic (x1 (ix2 p 0) * v5 (ix2 0 q) + v10 (ix2 0 q)) := by
  unfold k1_pay3 k1_pay1
  simp only [shapeCast_self]
  show x0 (ix2 p q) + ((matmul (F := Ideal) dot_S5000x128_S128x128_S5000x128_1_0_0_1_n_n none (truncf .bf16 x0 _) (truncf .bf16 v15 _)
        (constant (F := Ideal) S5000x128 .f32 0x00000000#32) : FVec Ideal S5000x128 .f32) (ix2 p q)
      + broadcastTo S5000x128 v19 _ (ix2 p q))
    * Ideal.logistic (broadcastTo S5000x128 x1 _ (ix2 p q) * broadcastTo S5000x128 v5 _ (ix2 p q)
      + broadcastTo S5000x128 v10 _ (ix2 p q)) = _
  rw [lin_apply, broadcastTo_1b_ab_apply, broadcastTo_1b_ab_apply, broadcastTo_1b_ab_apply,
    Cert.Lib.broadcastTo_a1_ab_apply]

/-- The value stored to the second output at `(p, q)` of the block: the row's scalar. -/
theorem pay2_apply (x1 : Vec Ideal S5000x1 .f32) (p : Fin 5000) (q : Fin 128) :
    k1_pay2 x1 (ix2 p q) = x1 (ix2 p 0) := by
  unfold k1_pay2 k1_pay1
  simp only [shapeCast_self]
  exact Cert.Lib.broadcastTo_a1_ab_apply x1 _ p q

/-- What the body leaves in the first output's buffer, at `(p, q)`. -/
theorem out6_apply (x0 : Vec Ideal S5000x128 .f32) (x1 : Vec Ideal S5000x1 .f32) (x2 : Vec Ideal S128x128 .f32)
    (x3 x4 x5 : Vec Ideal S1x128 .f32) (p : Fin 5000) (q : Fin 128) :
    out1_6 x0 x1 x2 x3 x4 x5 (ix2 p q) =
      x0 (ix2 p q) + ((∑ k : Fin 128, x0 (ix2 p k) * x2 (ix2 k q)) + x3 (ix2 0 q))
        * Ideal.logistic (x1 (ix2 p 0) * x4 (ix2 0 q) + x5 (ix2 0 q)) := by
  unfold out1_6
  rw [View.canon_unit_zero hz]
  simp only [View.ld_unit_zero (S := S5000x128) hz, View.ld_unit_zero (S := S5000x1) hz,
    View.ld_unit_zero (S := S1x128) hz, View.ld_unit_zero (S := S128x128) hz]
  exact pay3_apply x0 x1 x4 x5 x2 x3 p q

/-- What the body leaves in the second output's buffer, at `(p, q)`. -/
theorem out7_apply (x0 : Vec Ideal S5000x128 .f32) (x1 : Vec Ideal S5000x1 .f32) (x2 : Vec Ideal S128x128 .f32)
    (x3 x4 x5 : Vec Ideal S1x128 .f32) (p : Fin 5000) (q : Fin 128) :
    out1_7 x0 x1 x2 x3 x4 x5 (ix2 p q) = x1 (ix2 p 0) := by
  unfold out1_7
  rw [View.canon_unit_zero hz]
  simp only [View.ld_unit_zero (S := S5000x1) hz]
  exact pay2_apply x1 p q

/-! ## The windows' blocks as parts of their arrays -/

/-- The printed index maps over the five grid points: the row-blocked windows (0, 1, 6, 7) sit at block row `t`, the
    whole-array windows (2 to 5) at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt_N (t : Fin cfg1.N) : t.val < 5 := lt_of_lt_of_eq t.isLt N_1

/-- Row `r` of block `t` is row `5000 t + r` of the array. -/
def row (t : Fin cfg1.N) (r : Fin 5000) : Fin 25000 := ⟨t.val * 5000 + r.val, by have := lt_N t; have := r.isLt; omega⟩

theorem emb0 (t : Fin cfg1.N) (r : Fin 5000) (k : Fin 128) :
    ((cfg1.win 0).blk t).view.emb (ix2 r k) = ix2 (row t r) k := by
  obtain ⟨e0, e1, -⟩ := idx_facts t
  funext a; apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega

theorem emb1 (t : Fin cfg1.N) (r : Fin 5000) (u : Fin 1) :
    ((cfg1.win 1).blk t).view.emb (ix2 r u) = ix2 (row t r) u := by
  obtain ⟨-, -, e0, e1, -⟩ := idx_facts t
  funext a; apply Fin.ext
  match a with
  | ⟨0, _⟩ => show win1_1.index t (0 : Fin 2) * 5000 + 1 * r.val = t.val * 5000 + r.val; omega
  | ⟨1, _⟩ => show win1_1.index t (1 : Fin 2) * 1 + 1 * u.val = u.val; omega

theorem emb2 (t : Fin cfg1.N) (k : Fin 128) (q : Fin 128) :
    ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

theorem emb3 (t : Fin cfg1.N) (u : Fin 1) (q : Fin 128) :
    ((cfg1.win 3).blk t).view.emb (ix2 u q) = ix2 u q := by
  obtain ⟨-, -, -, -, -, -, e0, e1, -⟩ := idx_facts t
  funext a; apply Fin.ext
  match a with
  | ⟨0, _⟩ => show win1_3.index t (0 : Fin 2) * 1 + 1 * u.val = u.val; omega
  | ⟨1, _⟩ => show win1_3.index t (1 : Fin 2) * 128 + 1 * q.val = q.val; omega

theorem emb4 (t : Fin cfg1.N) (u : Fin 1) (q : Fin 128) :
    ((cfg1.win 4).blk t).view.emb (ix2 u q) = ix2 u q := by
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 128 + 1 * q.val = q.val; omega

theorem emb5 (t : Fin cfg1.N) (u : Fin 1) (q : Fin 128) :
    ((cfg1.win 5).blk t).view.emb (ix2 u q) = ix2 u q := by
  obtain ⟨-, -, -, -, -, -, -, -, -, -, e0, e1, -⟩ := idx_facts t
  funext a; apply Fin.ext
  match a with
  | ⟨0, _⟩ => show win1_5.index t (0 : Fin 2) * 1 + 1 * u.val = u.val; omega
  | ⟨1, _⟩ => show win1_5.index t (1 : Fin 2) * 128 + 1 * q.val = q.val; omega

theorem emb6 (t : Fin cfg1.N) (r : Fin 5000) (k : Fin 128) :
    ((cfg1.win 6).blk t).view.emb (ix2 r k) = ix2 (row t r) k := by
  obtain ⟨-, -, -, -, -, -, -, -, -, -, -, -, e0, e1, -⟩ := idx_facts t
  funext a; apply Fin.ext
  match a with
  | ⟨0, _⟩ => show win1_6.index t (0 : Fin 2) * 5000 + 1 * r.val = t.val * 5000 + r.val; omega
  | ⟨1, _⟩ => show win1_6.index t (1 : Fin 2) * 128 + 1 * k.val = k.val; omega

theorem emb7 (t : Fin cfg1.N) (r : Fin 5000) (k : Fin 128) :
    ((cfg1.win 7).blk t).view.emb (ix2 r k) = ix2 (row t r) k := by
  obtain ⟨-, -, -, -, -, -, -, -, -, -, -, -, -, -, e0, e1⟩ := idx_facts t
  funext a; apply Fin.ext
  match a with
  | ⟨0, _⟩ => show win1_7.index t (0 : Fin 2) * 5000 + 1 * r.val = t.val * 5000 + r.val; omega
  | ⟨1, _⟩ => show win1_7.index t (1 : Fin 2) * 128 + 1 * k.val = k.val; omega

/-- Each input block read at an index is its array read at the index the block's place gives. -/
theorem blk0 (c : Dev nD) (t : Fin cfg1.N) (r : Fin 5000) (k : Fin 128) :
    (iblk1 V c 0 t : Vec Ideal S5000x128 .f32) (ix2 r k) = (V c main_arg0 : S25000x128.Idx → EReal) (ix2 (row t r) k) := by
  show V c main_arg0 (((cfg1.win 0).blk t).view.emb (ix2 r k)) = _
  rw [emb0]
theorem blk1 (c : Dev nD) (t : Fin cfg1.N) (r : Fin 5000) (u : Fin 1) :
    (iblk1 V c 1 t : Vec Ideal S5000x1 .f32) (ix2 r u) = (V c main_v42 : S25000x1.Idx → EReal) (ix2 (row t r) u) := by
  show V c main_v42 (((cfg1.win 1).blk t).view.emb (ix2 r u)) = _
  rw [emb1]
theorem blk2 (c : Dev nD) (t : Fin cfg1.N) (k : Fin 128) (q : Fin 128) :
    (iblk1 V c 2 t : Vec Ideal S128x128 .f32) (ix2 k q) = (V c main_arg10 : S128x128.Idx → EReal) (ix2 k q) := by
  show V c main_arg10 (((cfg1.win 2).blk t).view.emb (ix2 k q)) = _
  rw [emb2]
theorem blk3 (c : Dev nD) (t : Fin cfg1.N) (u : Fin 1) (q : Fin 128) :
    (iblk1 V c 3 t : Vec Ideal S1x128 .f32) (ix2 u q) = (V c main_v123 : S1x128.Idx → EReal) (ix2 u q) := by
  show V c main_v123 (((cfg1.win 3).blk t).view.emb (ix2 u q)) = _
  rw [emb3]
theorem blk4 (c : Dev nD) (t : Fin cfg1.N) (u : Fin 1) (q : Fin 128) :
    (iblk1 V c 4 t : Vec Ideal S1x128 .f32) (ix2 u q) = (V c main_v126 : S1x128.Idx → EReal) (ix2 u q) := by
  show V c main_v126 (((cfg1.win 4).blk t).view.emb (ix2 u q)) = _
  rw [emb4]
theorem blk5 (c : Dev nD) (t : Fin cfg1.N) (u : Fin 1) (q : Fin 128) :
    (iblk1 V c 5 t : Vec Ideal S1x128 .f32) (ix2 u q) = (V c main_v124 : S1x128.Idx → EReal) (ix2 u q) := by
  show V c main_v124 (((cfg1.win 5).blk t).view.emb (ix2 u q)) = _
  rw [emb5]

/-! ## What each point writes back, the cover, and the arrays after the region -/

/-- Point `t` writes block `t` of `G6`. -/
theorem flushed6_eq (c : Dev nD) (t : Fin cfg1.N) :
    (dat1 V c).flushed 6 t = ((cfg1.win 6).blk t).view.read (Elt Ideal) (G6 V c) := by
  show (cfg1.win 6).cut (grid1.coords t) ((dat1 V c).after 6 t) = _
  rw [after1_6]
  funext j
  obtain ⟨p, q, rfl⟩ : ∃ (p : Fin 5000) (q : Fin 128), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
    = G6 V c (((cfg1.win 6).blk t).view.emb (ix2 p q))
  rw [emb6]
  refine (out6_apply (iblk1 V c 0 t) (iblk1 V c 1 t) (iblk1 V c 2 t) (iblk1 V c 3 t) (iblk1 V c 4 t) (iblk1 V c 5 t) p q).trans ?_
  rw [blk0, blk1, blk3, blk4, blk5]
  simp only [blk0, blk2]
  rfl

/-- Point `t` writes block `t` of `G7`. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  funext j
  obtain ⟨p, q, rfl⟩ : ∃ (p : Fin 5000) (q : Fin 128), j = ix2 p q := ⟨j 0, j 1, eq_ix2 j⟩
  show out1_7 (iblk1 V c 0 t) (iblk1 V c 1 t) (iblk1 V c 2 t) (iblk1 V c 3 t) (iblk1 V c 4 t) (iblk1 V c 5 t) (ix2 p q)
    = G7 V c (((cfg1.win 7).blk t).view.emb (ix2 p q))
  rw [emb7]
  refine (out7_apply (iblk1 V c 0 t) (iblk1 V c 1 t) (iblk1 V c 2 t) (iblk1 V c 3 t) (iblk1 V c 4 t) (iblk1 V c 5 t) p q).trans ?_
  rw [blk1]
  rfl

/-- An index of the first output array is in point `t`'s block iff each coordinate is in the block's range. -/
theorem mem_blk6 (t : Fin cfg1.N) (i : S25000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v127_0).slice (win1_6.rect t)).set ↔ _
  rw [View.set_slice_whole, Rect.mem_set_unit]
  exact Iff.rfl

theorem mem_blk7 (t : Fin cfg1.N) (i : S25000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v127_1).slice (win1_7.rect t)).set ↔ _
  rw [View.set_slice_whole, Rect.mem_set_unit]
  exact Iff.rfl

/-- Row `r` of the array lies in block `r / 5000`. -/
theorem cover6 (i : S25000x128.Idx) :
    ∃ t : Fin cfg1.N, (cfg1.win 6).flush t = true ∧ i ∈ ((cfg1.win 6).blk t).view.set := by
  have hi0 : (i 0).val < 25000 := (i 0).isLt
  have hi1 : (i 1).val < 128 := (i 1).isLt
  obtain ⟨t, ht⟩ : ∃ t : Fin cfg1.N, t.val = (i 0).val / 5000 :=
    ⟨⟨(i 0).val / 5000, by rw [show cfg1.N = 5 from N_1]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem cover7 (i : S25000x128.Idx) :
    ∃ t : Fin cfg1.N, (cfg1.win 7).flush t = true ∧ i ∈ ((cfg1.win 7).blk t).view.set := by
  have hi0 : (i 0).val < 25000 := (i 0).isLt
  have hi1 : (i 1).val < 128 := (i 1).isLt
  obtain ⟨t, ht⟩ : ∃ t : Fin cfg1.N, t.val = (i 0).val / 5000 :=
    ⟨⟨(i 0).val / 5000, by rw [show cfg1.N = 5 from N_1]; omega⟩, rfl⟩
  obtain ⟨-, -, -, -, -, -, -, -, -, -, -, -, -, -, e0, e1⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE FIRST OUTPUT ARRAY after the region: the gated update of the region's input arrays. -/
theorem final6 (c : Dev nD) : (dat1 V c).arrAt 6 cfg1.N = G6 V c :=
  (dat1 V c).arrAt_eq_of_cover 6 (G6 V c) (fun t _ => flushed6_eq V c t) cover6

/-- THE SECOND OUTPUT ARRAY after the region: each row's scalar along the row. -/
theorem final7 (c : Dev nD) : (dat1 V c).arrAt 7 cfg1.N = G7 V c :=
  (dat1 V c).arrAt_eq_of_cover 7 (G7 V c) (fun t _ => flushed7_eq V c t) cover7

/-- The first output array at `(p, q)`. -/
theorem final6_apply (c : Dev nD) (p : Fin 25000) (q : Fin 128) :
    (dat1 V c).arrAt 6 cfg1.N (ix2 p q) =
      gated (V c main_arg0) (V c main_v42) (V c main_arg10) (V c main_v123) (V c main_v126) (V c main_v124) p q := by
  rw [final6]; rfl

/-- The second output array at `(p, q)`. -/
theorem final7_apply (c : Dev nD) (p : Fin 25000) (q : Fin 128) :
    (dat1 V c).arrAt 7 cfg1.N (ix2 p q) = (V c main_v42 : S25000x1.Idx → EReal) (ix2 p 0) := by
  rw [final7]; rfl

end Cert.KernelIdeal.GatedValue1

end
-- ==== Proof.GatedValue2.lean ====
/-
  The second gated-update region of the idealized kernel, as whole-array values.

  The region's body reads a block of 4000 rows of `x` and of the column `s`, and the whole of `W`, `b1`, `cs`, `b2`; it
  stores `x + (x · W + b1) * logistic (s * cs + b2)` to its first output and the column `s` repeated along each row to its
  second. Here: both stored values read at an index of the block; each window's block as a part of its array (block `t`
  holds rows `4000 t … 4000 t + 3999`; the small operands are whole); so each grid point writes back block `t` of ONE
  function of the region's input arrays, the five blocks cover the array (row `r` lies in block `r / 4000`), and the
  output arrays after the region are those functions, whatever the buffer contents `V` the region is entered with.
-/
import proofs.«161305_j25314537242668_2_alg».proof.Proof.Gen.KernelIdeal.Frame
import proofs.«161305_j25314537242668_2_alg».proof.Proof.LibMatDot
import proofs.«161305_j25314537242668_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.GatedValue2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The gated update, entry by entry -/

/-- Entry `(p, q)` of the gated update: the input plus its linear image (row `p` of `x` against column `q` of `W`, plus the
    bias) damped by the logistic of the row's scalar times the column weight plus the gate bias. -/
def gated (x : S400000x128.Idx → EReal) (s : S400000x1.Idx → EReal) (W : S128x128.Idx → EReal)
    (b1 cs b2 : S1x128.Idx → EReal) (p : Fin 400000) (q : Fin 128) : EReal :=
  x (ix2 p q) + ((∑ k : Fin 128, x (ix2 p k) * W (ix2 k q)) + b1 (ix2 0 q))
    * Ideal.logistic (s (ix2 p 0) * cs (ix2 0 q) + b2 (ix2 0 q))

/-- The first output array as one function of the region's six input arrays. -/
def G6 (c : Dev nD) : S400000x128.Idx → EReal := fun i =>
  gated (V c main_arg2) (V c main_v71) (V c main_arg12) (V c main_v128) (V c main_v131) (V c main_v129) (i 0) (i 1)

/-- The second output array: the row's scalar repeated along the row. -/
def G7 (c : Dev nD) : S400000x128.Idx → EReal := fun i => (V c main_v71 : S400000x1.Idx → EReal) (ix2 (i 0) (0 : Fin 1))

theorem hz : (![0, 0] : Fin 2 → Nat) = fun _ => 0 := funext fun a => by fin_cases a <;> rfl

/-! ## The body's two stored values at an index -/

/-- The product of a block of rows with the weight matrix, both passed through a change of format (the identity on
    extended reals), into the zero accumulator: the row-by-column sum. -/
theorem lin_apply (x0 : FVec Ideal S4000x128 .f32) (w : FVec Ideal S128x128 .f32) (h1 h2) (p : Fin 4000) (q : Fin 128) :
    (matmul (F := Ideal) dot_S4000x128_S128x128_S4000x128_1_0_0_1_n_n none (truncf .bf16 x0 h1) (truncf .bf16 w h2)
      (constant (F := Ideal) S4000x128 .f32 0x00000000#32) : FVec Ideal S4000x128 .f32) (ix2 p q)
      = ∑ k : Fin 128, x0 (ix2 p k) * w (ix2 k q) :=
  Cert.Lib.matmul_plain_zero_apply dot_S4000x128_S128x128_S4000x128_1_0_0_1_n_n_wf none (truncf .bf16 x0 h1) (truncf .bf16 w h2) p q

/-- The value stored to the first output at `(p, q)` of the block. -/
theorem pay3_apply (x0 : Vec Ideal S4000x128 .f32) (x1 : Vec Ideal S4000x1 .f32) (v5 v10 : Vec Ideal S1x128 .f32)
    (v15 : Vec Ideal S128x128 .f32) (v19 : Vec Ideal S1x128 .f32) (p : Fin 4000) (q : Fin 128) :
    k2_pay3 x0 x1 v5 v10 v15 v19 (ix2 p q) =
      x0 (ix2 p q) + ((∑ k : Fin 128, x0 (ix2 p k) * v15 (ix2 k q)) + v19 (ix2 0 q))
        * Ideal.logistic (x1 (ix2 p 0) * v5 (ix2 0 q) + v10 (ix2 0 q)) := by
  unfold k2_pay3 k2_pay1
  simp only [shapeCast_self]
  show x0 (ix2 p q) + ((matmul (F := Ideal) dot_S4000x128_S128x128_S4000x128_1_0_0_1_n_n none (truncf .bf16 x0 _) (truncf .bf16 v15 _)
        (constant (F := Ideal) S4000x128 .f32 0x00000000#32) : FVec Ideal S4000x128 .f32) (ix2 p q)
      + broadcastTo S4000x128 v19 _ (ix2 p q))
    * Ideal.logistic (broadcastTo S4000x128 x1 _ (ix2 p q) * broadcastTo S4000x128 v5 _ (ix2 p q)
      + broadcastTo S4000x128 v10 _ (ix2 p q)) = _
  rw [lin_apply, broadcastTo_1b_ab_apply, broadcastTo_1b_ab_apply, broadcastTo_1b_ab_apply,
    Cert.Lib.broadcastTo_a1_ab_apply]

/-- The value stored to the second output at `(p, q)` of the block: the row's scalar. -/
theorem pay2_apply (x1 : Vec Ideal S4000x1 .f32) (p : Fin 4000) (q : Fin 128) :
    k2_pay2 x1 (ix2 p q) = x1 (ix2 p 0) := by
  unfold k2_pay2 k2_pay1
  simp only [shapeCast_self]
  exact Cert.Lib.broadcastTo_a1_ab_apply x1 _ p q

/-- What the body leaves in the first output's buffer, at `(p, q)`. -/
theorem out6_apply (x0 : Vec Ideal S4000x128 .f32) (x1 : Vec Ideal S4000x1 .f32) (x2 : Vec Ideal S128x128 .f32)
    (x3 x4 x5 : Vec Ideal S1x128 .f32) (p : Fin 4000) (q : Fin 128) :
    out2_6 x0 x1 x2 x3 x4 x5 (ix2 p q) =
      x0 (ix2 p q) + ((∑ k : Fin 128, x0 (ix2 p k) * x2 (ix2 k q)) + x3 (ix2 0 q))
        * Ideal.logistic (x1 (ix2 p 0) * x4 (ix2 0 q) + x5 (ix2 0 q)) := by
  unfold out2_6
  rw [View.canon_unit_zero hz]
  simp only [View.ld_unit_zero (S := S4000x128) hz, View.ld_unit_zero (S := S4000x1) hz,
    View.ld_unit_zero (S := S1x128) hz, View.ld_unit_zero (S := S128x128) hz]
  exact pay3_apply x0 x1 x4 x5 x2 x3 p q

/-- What the body leaves in the second output's buffer, at `(p, q)`. -/
theorem out7_apply (x0 : Vec Ideal S4000x128 .f32) (x1 : Vec Ideal S4000x1 .f32) (x2 : Vec Ideal S128x128 .f32)
    (x3 x4 x5 : Vec Ideal S1x128 .f32) (p : Fin 4000) (q : Fin 128) :
    out2_7 x0 x1 x2 x3 x4 x5 (ix2 p q) = x1 (ix2 p 0) := by
  unfold out2_7
  rw [View.canon_unit_zero hz]
  simp only [View.ld_unit_zero (S := S4000x1) hz]
  exact pay2_apply x1 p q

/-! ## The windows' blocks as parts of their arrays -/

/-- The printed index maps over the hundred grid points: the row-blocked windows (0, 1, 6, 7) sit at block row `t`, the
    whole-array windows (2 to 5) at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem lt_N (t : Fin cfg2.N) : t.val < 100 := lt_of_lt_of_eq t.isLt N_2

/-- Row `r` of block `t` is row `4000 t + r` of the array. -/
def row (t : Fin cfg2.N) (r : Fin 4000) : Fin 400000 := ⟨t.val * 4000 + r.val, by have := lt_N t; have := r.isLt; omega⟩

theorem emb0 (t : Fin cfg2.N) (r : Fin 4000) (k : Fin 128) :
    ((cfg2.win 0).blk t).view.emb (ix2 r k) = ix2 (row t r) k := by
  obtain ⟨e0, e1, -⟩ := idx_facts t
  funext a; apply Fin.ext
  match a with
  | ⟨0, _⟩ => show win2_0.index t (0 : Fin 2) * 4000 + 1 * r.val = t.val * 4000 + r.val; omega
  | ⟨1, _⟩ => show win2_0.index t (1 : Fin 2) * 128 + 1 * k.val = k.val; omega

theorem emb1 (t : Fin cfg2.N) (r : Fin 4000) (u : Fin 1) :
    ((cfg2.win 1).blk t).view.emb (ix2 r u) = ix2 (row t r) u := by
  obtain ⟨-, -, e0, e1, -⟩ := idx_facts t
  funext a; apply Fin.ext
  match a with
  | ⟨0, _⟩ => show win2_1.index t (0 : Fin 2) * 4000 + 1 * r.val = t.val * 4000 + r.val; omega
  | ⟨1, _⟩ => show win2_1.index t (1 : Fin 2) * 1 + 1 * u.val = u.val; omega

theorem emb2 (t : Fin cfg2.N) (k : Fin 128) (q : Fin 128) :
    ((cfg2.win 2).blk t).view.emb (ix2 k q) = ix2 k q := by
  obtain ⟨-, -, -, -, e0, e1, -⟩ := idx_facts t
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem emb3 (t : Fin cfg2.N) (u : Fin 1) (q : Fin 128) :
    ((cfg2.win 3).blk t).view.emb (ix2 u q) = ix2 u q := by
  obtain ⟨-, -, -, -, -, -, e0, e1, -⟩ := idx_facts t
  funext a; apply Fin.ext
  match a with
  | ⟨0, _⟩ => show win2_3.index t (0 : Fin 2) * 1 + 1 * u.val = u.val; omega
  | ⟨1, _⟩ => show win2_3.index t (1 : Fin 2) * 128 + 1 * q.val = q.val; omega

theorem emb4 (t : Fin cfg2.N) (u : Fin 1) (q : Fin 128) :
    ((cfg2.win 4).blk t).view.emb (ix2 u q) = ix2 u q := by
  obtain ⟨-, -, -, -, -, -, -, -, e0, e1, -⟩ := idx_facts t
  funext a; apply Fin.ext
  match a with
  | ⟨0, _⟩ => show win2_4.index t (0 : Fin 2) * 1 + 1 * u.val = u.val; omega
  | ⟨1, _⟩ => show win2_4.index t (1 : Fin 2) * 128 + 1 * q.val = q.val; omega

theorem emb5 (t : Fin cfg2.N) (u : Fin 1) (q : Fin 128) :
    ((cfg2.win 5).blk t).view.emb (ix2 u q) = ix2 u q := by
  obtain ⟨-, -, -, -, -, -, -, -, -, -, e0, e1, -⟩ := idx_facts t
  funext a; apply Fin.ext
  match a with
  | ⟨0, _⟩ => show win2_5.index t (0 : Fin 2) * 1 + 1 * u.val = u.val; omega
  | ⟨1, _⟩ => show win2_5.index t (1 : Fin 2) * 128 + 1 * q.val = q.val; omega

theorem emb6 (t : Fin cfg2.N) (r : Fin 4000) (k : Fin 128) :
    ((cfg2.win 6).blk t).view.emb (ix2 r k) = ix2 (row t r) k := by
  obtain ⟨-, -, -, -, -, -, -, -, -, -, -, -, e0, e1, -⟩ := idx_facts t
  funext a; apply Fin.ext
  match a with
  | ⟨0, _⟩ => show win2_6.index t (0 : Fin 2) * 4000 + 1 * r.val = t.val * 4000 + r.val; omega
  | ⟨1, _⟩ => show win2_6.index t (1 : Fin 2) * 128 + 1 * k.val = k.val; omega

theorem emb7 (t : Fin cfg2.N) (r : Fin 4000) (k : Fin 128) :
    ((cfg2.win 7).blk t).view.emb (ix2 r k) = ix2 (row t r) k := by
  obtain ⟨-, -, -, -, -, -, -, -, -, -, -, -, -, -, e0, e1⟩ := idx_facts t
  funext a; apply Fin.ext
  match a with
  | ⟨0, _⟩ => show win2_7.index t (0 : Fin 2) * 4000 + 1 * r.val = t.val * 4000 + r.val; omega
  | ⟨1, _⟩ => show win2_7.index t (1 : Fin 2) * 128 + 1 * k.val = k.val; omega

/-- Each input block read at an index is its array read at the index the block's place gives. -/
theorem blk0 (c : Dev nD) (t : Fin cfg2.N) (r : Fin 4000) (k : Fin 128) :
    (iblk2 V c 0 t : Vec Ideal S4000x128 .f32) (ix2 r k) = (V c main_arg2 : S400000x128.Idx → EReal) (ix2 (row t r) k) := by
  show V c main_arg2 (((cfg2.win 0).blk t).view.emb (ix2 r k)) = _
  rw [emb0]
theorem blk1 (c : Dev nD) (t : Fin cfg2.N) (r : Fin 4000) (u : Fin 1) :
    (iblk2 V c 1 t : Vec Ideal S4000x1 .f32) (ix2 r u) = (V c main_v71 : S400000x1.Idx → EReal) (ix2 (row t r) u) := by
  show V c main_v71 (((cfg2.win 1).blk t).view.emb (ix2 r u)) = _
  rw [emb1]
theorem blk2 (c : Dev nD) (t : Fin cfg2.N) (k : Fin 128) (q : Fin 128) :
    (iblk2 V c 2 t : Vec Ideal S128x128 .f32) (ix2 k q) = (V c main_arg12 : S128x128.Idx → EReal) (ix2 k q) := by
  show V c main_arg12 (((cfg2.win 2).blk t).view.emb (ix2 k q)) = _
  rw [emb2]
theorem blk3 (c : Dev nD) (t : Fin cfg2.N) (u : Fin 1) (q : Fin 128) :
    (iblk2 V c 3 t : Vec Ideal S1x128 .f32) (ix2 u q) = (V c main_v128 : S1x128.Idx → EReal) (ix2 u q) := by
  show V c main_v128 (((cfg2.win 3).blk t).view.emb (ix2 u q)) = _
  rw [emb3]
theorem blk4 (c : Dev nD) (t : Fin cfg2.N) (u : Fin 1) (q : Fin 128) :
    (iblk2 V c 4 t : Vec Ideal S1x128 .f32) (ix2 u q) = (V c main_v131 : S1x128.Idx → EReal) (ix2 u q) := by
  show V c main_v131 (((cfg2.win 4).blk t).view.emb (ix2 u q)) = _
  rw [emb4]
theorem blk5 (c : Dev nD) (t : Fin cfg2.N) (u : Fin 1) (q : Fin 128) :
    (iblk2 V c 5 t : Vec Ideal S1x128 .f32) (ix2 u q) = (V c main_v129 : S1x128.Idx → EReal) (ix2 u q) := by
  show V c main_v129 (((cfg2.win 5).blk t).view.emb (ix2 u q)) = _
  rw [emb5]

/-! ## What each point writes back, the cover, and the arrays after the region -/

/-- Point `t` writes block `t` of `G6`. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  funext j
  obtain ⟨p, q, rfl⟩ : ∃ (p : Fin 4000) (q : Fin 128), j = ix2 p q := ⟨j 0, j 1, eq_ix2 j⟩
  show out2_6 (iblk2 V c 0 t) (iblk2 V c 1 t) (iblk2 V c 2 t) (iblk2 V c 3 t) (iblk2 V c 4 t) (iblk2 V c 5 t) (ix2 p q)
    = G6 V c (((cfg2.win 6).blk t).view.emb (ix2 p q))
  rw [emb6]
  refine (out6_apply (iblk2 V c 0 t) (iblk2 V c 1 t) (iblk2 V c 2 t) (iblk2 V c 3 t) (iblk2 V c 4 t) (iblk2 V c 5 t) p q).trans ?_
  rw [blk0, blk1, blk3, blk4, blk5]
  simp only [blk0, blk2]
  rfl

/-- Point `t` writes block `t` of `G7`. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  funext j
  obtain ⟨p, q, rfl⟩ : ∃ (p : Fin 4000) (q : Fin 128), j = ix2 p q := ⟨j 0, j 1, eq_ix2 j⟩
  show out2_7 (iblk2 V c 0 t) (iblk2 V c 1 t) (iblk2 V c 2 t) (iblk2 V c 3 t) (iblk2 V c 4 t) (iblk2 V c 5 t) (ix2 p q)
    = G7 V c (((cfg2.win 7).blk t).view.emb (ix2 p q))
  rw [emb7]
  refine (out7_apply (iblk2 V c 0 t) (iblk2 V c 1 t) (iblk2 V c 2 t) (iblk2 V c 3 t) (iblk2 V c 4 t) (iblk2 V c 5 t) p q).trans ?_
  rw [blk1]
  rfl

/-- An index of the first output array is in point `t`'s block iff each coordinate is in the block's range. -/
theorem mem_blk6 (t : Fin cfg2.N) (i : S400000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v132_0).slice (win2_6.rect t)).set ↔ _
  rw [View.set_slice_whole, Rect.mem_set_unit]
  exact Iff.rfl

theorem mem_blk7 (t : Fin cfg2.N) (i : S400000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v132_1).slice (win2_7.rect t)).set ↔ _
  rw [View.set_slice_whole, Rect.mem_set_unit]
  exact Iff.rfl

/-- Row `r` of the array lies in block `r / 4000`. -/
theorem cover6 (i : S400000x128.Idx) :
    ∃ t : Fin cfg2.N, (cfg2.win 6).flush t = true ∧ i ∈ ((cfg2.win 6).blk t).view.set := by
  have hi0 : (i 0).val < 400000 := (i 0).isLt
  have hi1 : (i 1).val < 128 := (i 1).isLt
  obtain ⟨t, ht⟩ : ∃ t : Fin cfg2.N, t.val = (i 0).val / 4000 :=
    ⟨⟨(i 0).val / 4000, by rw [show cfg2.N = 100 from N_2]; omega⟩, rfl⟩
  obtain ⟨-, -, -, -, -, -, -, -, -, -, -, -, e0, e1, -⟩ := idx_facts t
  refine ⟨t, flush2_6 t, ?_⟩
  rw [mem_blk6]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

theorem cover7 (i : S400000x128.Idx) :
    ∃ t : Fin cfg2.N, (cfg2.win 7).flush t = true ∧ i ∈ ((cfg2.win 7).blk t).view.set := by
  have hi0 : (i 0).val < 400000 := (i 0).isLt
  have hi1 : (i 1).val < 128 := (i 1).isLt
  obtain ⟨t, ht⟩ : ∃ t : Fin cfg2.N, t.val = (i 0).val / 4000 :=
    ⟨⟨(i 0).val / 4000, by rw [show cfg2.N = 100 from N_2]; omega⟩, rfl⟩
  obtain ⟨-, -, -, -, -, -, -, -, -, -, -, -, -, -, e0, e1⟩ := idx_facts t
  refine ⟨t, flush2_7 t, ?_⟩
  rw [mem_blk7]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 128 ≤ (i 1).val ∧ (i 1).val < win2_7.index t (1 : Fin 2) * 128 + 128; omega

/-- THE FIRST OUTPUT ARRAY after the region: the gated update of the region's input arrays. -/
theorem final6 (c : Dev nD) : (dat2 V c).arrAt 6 cfg2.N = G6 V c :=
  (dat2 V c).arrAt_eq_of_cover 6 (G6 V c) (fun t _ => flushed6_eq V c t) cover6

/-- THE SECOND OUTPUT ARRAY after the region: each row's scalar along the row. -/
theorem final7 (c : Dev nD) : (dat2 V c).arrAt 7 cfg2.N = G7 V c :=
  (dat2 V c).arrAt_eq_of_cover 7 (G7 V c) (fun t _ => flushed7_eq V c t) cover7

/-- The first output array at `(p, q)`. -/
theorem final6_apply (c : Dev nD) (p : Fin 400000) (q : Fin 128) :
    (dat2 V c).arrAt 6 cfg2.N (ix2 p q) =
      gated (V c main_arg2) (V c main_v71) (V c main_arg12) (V c main_v128) (V c main_v131) (V c main_v129) p q := by
  rw [final6]; rfl

/-- The second output array at `(p, q)`. -/
theorem final7_apply (c : Dev nD) (p : Fin 400000) (q : Fin 128) :
    (dat2 V c).arrAt 7 cfg2.N (ix2 p q) = (V c main_v71 : S400000x1.Idx → EReal) (ix2 p 0) := by
  rw [final7]; rfl

end Cert.KernelIdeal.GatedValue2

end
-- ==== Proof.RefGated.lean ====
/-
  The reference's gated updates read at an entry.  For a node p and a feature q the updated scalar feature is
  h(p,q) + (Σₖ h(p,k)·W(k,q) + b(q)) · 1 / (1 + exp(−(Σₖ s(p)·Wg(k,q) + bg(q)))), where s(p) is the node's squared
  direction norm spread over the features; the edge features are updated the same way from the dihedral scalar.
  The two spread scalars themselves are results too.
-/
import proofs.«161305_j25314537242668_2_alg».proof.Proof.Gen.ReferenceIdeal.Read
import Idealize.ShloMosaic.Lib.ValueIdx

set_option maxRecDepth 16384

noncomputable section

namespace Cert.ReferenceIdeal.RefAt

open Cert.ReferenceIdeal Cert.ReferenceIdeal.Gen Cert.ReferenceIdeal.Read
open Idealize.ShloMosaic Idealize.ShloMosaic.ValueIdx

/-- The spread squared norm at (p, q) is the column's entry p. -/
theorem ang_info_at (x3 : (⟨S25000x3, .f32⟩ : BufTy).Contents (Elt Ideal)) (x5 : (⟨S2x400000, .i32⟩ : BufTy).Contents (Elt Ideal))
    (p : Fin 25000) (q : Fin 128) :
    val_main_v43 (F := Ideal) x3 x5 (ix2 p q) = val_main_v42 (F := Ideal) x3 x5 (ix2 p 0) := by
  rw [val_main_v43_apply]
  exact congrArg _ (funext fun a => Fin.ext (by match a with | ⟨0, _⟩ => rfl | ⟨1, _⟩ => rfl))

/-- The spread dihedral scalar at (e, q) is the column's entry e. -/
theorem dih_info_at (x3 : (⟨S25000x3, .f32⟩ : BufTy).Contents (Elt Ideal)) (x5 : (⟨S2x400000, .i32⟩ : BufTy).Contents (Elt Ideal))
    (e : Fin 400000) (q : Fin 128) :
    val_main_v73 (F := Ideal) x3 x5 (ix2 e q) = val_main_v72 (F := Ideal) x3 x5 (ix2 e 0) := by
  rw [val_main_v73_apply]
  exact congrArg _ (funext fun a => Fin.ext (by match a with | ⟨0, _⟩ => rfl | ⟨1, _⟩ => rfl))

/-- The updated node feature at (p, q). -/
theorem h_updated_at (x0 : (⟨S25000x128, .f32⟩ : BufTy).Contents (Elt Ideal)) (x3 : (⟨S25000x3, .f32⟩ : BufTy).Contents (Elt Ideal))
    (x5 : (⟨S2x400000, .i32⟩ : BufTy).Contents (Elt Ideal)) (x10 : (⟨S128x128, .f32⟩ : BufTy).Contents (Elt Ideal))
    (x11 : (⟨S128, .f32⟩ : BufTy).Contents (Elt Ideal)) (x14 : (⟨S128x128, .f32⟩ : BufTy).Contents (Elt Ideal))
    (x15 : (⟨S128, .f32⟩ : BufTy).Contents (Elt Ideal)) (p : Fin 25000) (q : Fin 128) :
    val_main_v152 (F := Ideal) x0 x3 x5 x10 x11 x14 x15 (ix2 p q)
      = x0 (ix2 p q) + ((∑ k : Fin 128, x0 (ix2 p k) * x10 (ix2 k q)) + x11 (ix1 q))
          * Ideal.div (Ideal.ofBits .f32 0x3F800000#32) (Ideal.ofBits .f32 0x3F800000#32
              + Ideal.exp (-((∑ k : Fin 128, val_main_v42 (F := Ideal) x3 x5 (ix2 p 0) * x14 (ix2 k q)) + x15 (ix1 q)))) := by
  have e1 : ∀ k : Fin 128, lidx_main_v147 (ix2 p q) k = ix2 p k := fun k =>
    funext fun a => Fin.ext (by match a with | ⟨0, _⟩ => rfl | ⟨1, _⟩ => rfl)
  have e2 : ∀ k : Fin 128, ridx_main_v147 (ix2 p q) k = ix2 k q := fun k =>
    funext fun a => Fin.ext (by match a with | ⟨0, _⟩ => rfl | ⟨1, _⟩ => rfl)
  have e3 : idx_main_v148 (idx_main_v149 (ix2 p q)) = ix1 q :=
    funext fun a => Fin.ext (by match a with | ⟨0, _⟩ => rfl)
  have e4 : ∀ k : Fin 128, idx_main_v43 (lidx_main_v137 (ix2 p q) k) = ix2 p 0 := fun k =>
    funext fun a => Fin.ext (by match a with | ⟨0, _⟩ => rfl | ⟨1, _⟩ => rfl)
  have e5 : ∀ k : Fin 128, ridx_main_v137 (ix2 p q) k = ix2 k q := fun k =>
    funext fun a => Fin.ext (by match a with | ⟨0, _⟩ => rfl | ⟨1, _⟩ => rfl)
  have e6 : idx_main_v138 (idx_main_v139 (ix2 p q)) = ix1 q :=
    funext fun a => Fin.ext (by match a with | ⟨0, _⟩ => rfl)
  rw [val_main_v152_apply, val_main_v151_apply, val_main_v150_apply, val_main_v147_apply, val_main_v149_apply,
    val_main_v148_apply, val_main_v146_apply, val_main_v145_apply, val_main_cst_29_apply, val_main_v144_apply,
    val_main_v143_apply, val_main_cst_28_apply, val_main_v142_apply, val_main_v141_apply, val_main_v140_apply,
    val_main_v137_apply, val_main_v139_apply, val_main_v138_apply]
  simp only [val_main_v43_apply, e1, e2, e3, e4, e5, e6, Ideal.addf_def, Ideal.mulf_def, Ideal.hostDivf_def,
    Ideal.hostNegf_def, Ideal.negf_def, Ideal.hostUnary_exp_def, Ideal.ofBits_def]

/-- The updated edge feature at (p, q): p an edge. -/
theorem f_updated_at (x2 : (⟨S400000x128, .f32⟩ : BufTy).Contents (Elt Ideal)) (x3 : (⟨S25000x3, .f32⟩ : BufTy).Contents (Elt Ideal))
    (x5 : (⟨S2x400000, .i32⟩ : BufTy).Contents (Elt Ideal)) (x12 : (⟨S128x128, .f32⟩ : BufTy).Contents (Elt Ideal))
    (x13 : (⟨S128, .f32⟩ : BufTy).Contents (Elt Ideal)) (x16 : (⟨S128x128, .f32⟩ : BufTy).Contents (Elt Ideal))
    (x17 : (⟨S128, .f32⟩ : BufTy).Contents (Elt Ideal)) (p : Fin 400000) (q : Fin 128) :
    val_main_v168 (F := Ideal) x2 x3 x5 x12 x13 x16 x17 (ix2 p q)
      = x2 (ix2 p q) + ((∑ k : Fin 128, x2 (ix2 p k) * x12 (ix2 k q)) + x13 (ix1 q))
          * Ideal.div (Ideal.ofBits .f32 0x3F800000#32) (Ideal.ofBits .f32 0x3F800000#32
              + Ideal.exp (-((∑ k : Fin 128, val_main_v72 (F := Ideal) x3 x5 (ix2 p 0) * x16 (ix2 k q)) + x17 (ix1 q)))) := by
  have e1 : ∀ k : Fin 128, lidx_main_v163 (ix2 p q) k = ix2 p k := fun k =>
    funext fun a => Fin.ext (by match a with | ⟨0, _⟩ => rfl | ⟨1, _⟩ => rfl)
  have e2 : ∀ k : Fin 128, ridx_main_v163 (ix2 p q) k = ix2 k q := fun k =>
    funext fun a => Fin.ext (by match a with | ⟨0, _⟩ => rfl | ⟨1, _⟩ => rfl)
  have e3 : idx_main_v164 (idx_main_v165 (ix2 p q)) = ix1 q :=
    funext fun a => Fin.ext (by match a with | ⟨0, _⟩ => rfl)
  have e4 : ∀ k : Fin 128, idx_main_v73 (lidx_main_v153 (ix2 p q) k) = ix2 p 0 := fun k =>
    funext fun a => Fin.ext (by match a with | ⟨0, _⟩ => rfl | ⟨1, _⟩ => rfl)
  have e5 : ∀ k : Fin 128, ridx_main_v153 (ix2 p q) k = ix2 k q := fun k =>
    funext fun a => Fin.ext (by match a with | ⟨0, _⟩ => rfl | ⟨1, _⟩ => rfl)
  have e6 : idx_main_v154 (idx_main_v155 (ix2 p q)) = ix1 q :=
    funext fun a => Fin.ext (by match a with | ⟨0, _⟩ => rfl)
  rw [val_main_v168_apply, val_main_v167_apply, val_main_v166_apply, val_main_v163_apply, val_main_v165_apply,
    val_main_v164_apply, val_main_v162_apply, val_main_v161_apply, val_main_cst_31_apply, val_main_v160_apply,
    val_main_v159_apply, val_main_cst_30_apply, val_main_v158_apply, val_main_v157_apply, val_main_v156_apply,
    val_main_v153_apply, val_main_v155_apply, val_main_v154_apply]
  simp only [val_main_v73_apply, e1, e2, e3, e4, e5, e6, Ideal.addf_def, Ideal.mulf_def, Ideal.hostDivf_def,
    Ideal.hostNegf_def, Ideal.negf_def, Ideal.hostUnary_exp_def, Ideal.ofBits_def]

end Cert.ReferenceIdeal.RefAt
end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.GatedLaw.lean ====
/-
  The one law of the extended reals that joins the two forms of the gate's argument: a REAL scalar times a finite sum
  of REALS (taken from zero) is the sum of the products.  At an infinite scalar the law fails (an infinity times a sum
  of mixed signs is not the sum of opposite infinities), which is why the scalar's real-valuedness is needed.  Also:
  the word 0x3F800000 is the number one, and the logistic function is its textbook quotient.
-/
import Idealize.ShloMosaic.PureOps.Ideal.Laws
import proofs.«161305_j25314537242668_2_alg».proof.Proof.LibNodeMean

noncomputable section

namespace Cert.GatedLaw

open Idealize.ShloMosaic

/-- A real scalar distributes over a finite sum of reals on the extended reals. -/
theorem mul_sum_real {ι : Type} (S : Finset ι) (r : ℝ) (w : ι → ℝ) :
    ((r : ℝ) : EReal) * ∑ k ∈ S, ((w k : ℝ) : EReal) = ∑ k ∈ S, ((r : ℝ) : EReal) * ((w k : ℝ) : EReal) := by
  classical
  have key : ∀ T : Finset ι, ∃ t : ℝ, (∑ k ∈ T, ((w k : ℝ) : EReal)) = (t : EReal)
      ∧ ((r : ℝ) : EReal) * (t : EReal) = ∑ k ∈ T, ((r : ℝ) : EReal) * ((w k : ℝ) : EReal) := by
    intro T
    induction T using Finset.induction_on with
    | empty => exact ⟨0, by simp, by simp⟩
    | insert a T ha ih =>
      obtain ⟨t, h1, h2⟩ := ih
      refine ⟨w a + t, ?_, ?_⟩
      · rw [Finset.sum_insert ha, h1, EReal.coe_add]
      · rw [Finset.sum_insert ha, ← h2, ← EReal.coe_mul, ← EReal.coe_mul, ← EReal.coe_mul, ← EReal.coe_add, mul_add]
  obtain ⟨t, h1, h2⟩ := key S
  rw [h1, h2]

/-- The gate's argument in the two forms: the scalar times the column sum taken from zero, and the sum of the
    scalar times each entry. -/
theorem scalar_colsum {ι : Type} [Fintype ι] (s : EReal) (W : ι → EReal) (hs : ∃ r : ℝ, s = (r : EReal))
    (hW : ∀ k, ∃ w : ℝ, W k = (w : EReal)) : s * (0 + ∑ k, W k) = ∑ k, s * W k := by
  obtain ⟨r, rfl⟩ := hs
  choose w hw using hW
  simp only [hw, zero_add]
  exact mul_sum_real Finset.univ r w

/-- The word 0x3F800000 is one. -/
theorem one_word : Ideal.ofBits .f32 0x3F800000#32 = (1 : EReal) := Cert.Lib.one_word_f32

/-- The word 0 is zero. -/
theorem zero_word : Ideal.ofBits .f32 0x00000000#32 = (0 : EReal) := Ideal.ofBits_zero_f32

/-- The logistic function is 1 / (1 + exp(−y)) with the host's quotient. -/
theorem logistic_eq (y : EReal) : Ideal.logistic y = Ideal.div 1 (1 + Ideal.exp (-y)) := rfl

end Cert.GatedLaw
end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.RealGeom.lean ====
/-
  The geometry the reference computes from the positions is real-valued.

  On the extended reals the reference takes, for every edge, the difference of the two end points' positions, divides it
  by its length plus a small positive constant, accumulates the unit vectors (with sign) at the two end points, and from
  the accumulated vectors forms row sums of squares and, per edge, products and sums of projections. Every one of these
  values is a real number as soon as the positions are:
  * a sum, difference, product or negation of reals is a real, and so is a finite sum of reals;
  * a row lookup returns an entry of its operand; an accumulating scatter returns the operand's entry plus a finite sum
    of update entries;
  * a sum of squares of reals is a real that is not negative, so its square root is a real that is not negative (the
    square root of a negative number would be the junk value, which is not a real);
  * the constant added to the length is a positive real, so the denominator is a POSITIVE real, and the quotient of a
    real by a positive real is a real (a quotient by zero would be infinite or junk).
-/
import proofs.«161305_j25314537242668_2_alg».proof.Proof.Gen.ReferenceIdeal.Read
import proofs.«161305_j25314537242668_2_alg».proof.Proof.LibRealEntries
import proofs.«161305_j25314537242668_2_alg».proof.Proof.LibAggLinear

noncomputable section

namespace Cert.ReferenceIdeal.RealGeom

open Cert.ReferenceIdeal Cert.ReferenceIdeal.Gen Idealize.ShloMosaic Cert.Lib
open scoped BigOperators

/-! ## Single values -/

theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem real_neg {a : EReal} (ha : ∃ r : ℝ, a = (r : EReal)) : ∃ r : ℝ, -a = (r : EReal) := by
  obtain ⟨r, rfl⟩ := ha; exact ⟨-r, (EReal.coe_neg r).symm⟩

/-- The f32 zero word is the real number zero. -/
theorem real_zero_word : ∃ r : ℝ, Ideal.ofBits .f32 0x00000000#32 = (r : EReal) :=
  ⟨0, Ideal.ofBits_zero_f32.trans EReal.coe_zero.symm⟩

/-- The square of a real is a real that is not negative. -/
theorem nonneg_mul_self {a : EReal} (ha : ∃ r : ℝ, a = (r : EReal)) : ∃ r : ℝ, 0 ≤ r ∧ a * a = (r : EReal) := by
  obtain ⟨r, rfl⟩ := ha; exact ⟨r * r, mul_self_nonneg r, (EReal.coe_mul r r).symm⟩

/-- A finite sum of reals that are not negative is a real that is not negative. -/
theorem nonneg_sum {α : Type*} (s : Finset α) (f : α → EReal) (hf : ∀ a, ∃ r : ℝ, 0 ≤ r ∧ f a = (r : EReal)) :
    ∃ r : ℝ, 0 ≤ r ∧ ∑ a ∈ s, f a = (r : EReal) := by
  choose g hg using hf
  exact ⟨∑ a ∈ s, g a, Finset.sum_nonneg fun a _ => (hg a).1,
    by rw [ereal_coe_sum]; exact Finset.sum_congr rfl fun a _ => (hg a).2⟩

/-- The square root of a real that is not negative is a real that is not negative. -/
theorem nonneg_sqrt {a : EReal} (ha : ∃ r : ℝ, 0 ≤ r ∧ a = (r : EReal)) :
    ∃ r : ℝ, 0 ≤ r ∧ Ideal.sqrt a = (r : EReal) := by
  obtain ⟨r, hr, rfl⟩ := ha
  exact ⟨Real.sqrt r, Real.sqrt_nonneg r, by rw [Ideal.sqrt_coe, if_neg (not_lt.mpr hr)]⟩

/-- The f32 word `0x322BCC77` (about `1e-8`) is the positive real `11258999 · 2⁻⁵⁰`. -/
theorem eps_word : Ideal.ofBits .f32 0x322BCC77#32 = ((11258999 * (2 ^ 50)⁻¹ : ℝ) : EReal) := by
  simp [Ideal.ofBits, Ideal.ieee]

theorem pos_eps : ∃ r : ℝ, 0 < r ∧ Ideal.ofBits .f32 0x322BCC77#32 = (r : EReal) :=
  ⟨11258999 * (2 ^ 50)⁻¹, by positivity, eps_word⟩

/-- A real that is not negative plus a positive real is a positive real. -/
theorem pos_add {a b : EReal} (ha : ∃ r : ℝ, 0 ≤ r ∧ a = (r : EReal)) (hb : ∃ r : ℝ, 0 < r ∧ b = (r : EReal)) :
    ∃ r : ℝ, 0 < r ∧ a + b = (r : EReal) := by
  obtain ⟨r, hr, rfl⟩ := ha; obtain ⟨s, hs, rfl⟩ := hb
  exact ⟨r + s, by linarith, (EReal.coe_add r s).symm⟩

/-- The quotient of a real by a positive real is a real. -/
theorem real_div_pos {a b : EReal} (ha : ∃ r : ℝ, a = (r : EReal)) (hb : ∃ r : ℝ, 0 < r ∧ b = (r : EReal)) :
    ∃ r : ℝ, Ideal.div a b = (r : EReal) := by
  obtain ⟨r, rfl⟩ := ha; obtain ⟨s, hs, rfl⟩ := hb
  exact ⟨r * (1 / s), by rw [Ideal.div_coe (ne_of_gt hs), ← EReal.coe_mul]⟩

/-! ## Arrays -/

/-- A lookup returns entries of its operand: of an array of reals, reals. -/
theorem real_gather {s si t : Shape} {w : Nat} (d : GatherDims s si t) (x : s.Idx → EReal) (idx : IVec si w)
    (hx : AllReal x) : AllReal (Host.gather d x idx) := fun j => hx (d.operandIdx j idx)

/-- An accumulating scatter's entry is the operand's entry plus a finite sum of update entries: of arrays of reals, a
    real. -/
theorem real_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := fun i =>
  real_add (hx i) (real_sum (Finset.univ.filter (fun j => d.resultIdx? j idx = some i)) upd hu)

/-! ## The stages, in program order -/

section Stages

variable (x3 : (⟨S25000x3, .f32⟩ : BufTy).Contents (Elt Ideal)) (x5 : (⟨S2x400000, .i32⟩ : BufTy).Contents (Elt Ideal))

/-- The rows of the positions at the first index column. -/
theorem real_v10 (h3 : AllReal x3) : AllReal (Read.val_main_v10 (F := Ideal) x3 x5) :=
  real_gather _ x3 _ h3

/-- The rows of the positions at the second index column. -/
theorem real_v17 (h3 : AllReal x3) : AllReal (Read.val_main_v17 (F := Ideal) x3 x5) :=
  real_gather _ x3 _ h3

/-- The edge vectors: differences of positions. -/
theorem real_v18 (h3 : AllReal x3) : AllReal (Read.val_main_v18 (F := Ideal) x3 x5) := fun i => by
  rw [Read.val_main_v18_apply, Ideal.subf_def]
  exact real_sub (real_v10 x3 x5 h3 i) (real_v17 x3 x5 h3 i)

/-- The squared length of an edge vector, a sum of three squares from zero, is a real that is not negative. -/
theorem nonneg_call0_v1 (h3 : AllReal x3) (i : S400000.Idx) :
    ∃ r : ℝ, 0 ≤ r ∧ Read.val_main_call0_v1 (F := Ideal) x3 x5 i = (r : EReal) := by
  rw [Read.val_main_call0_v1_apply, Read.val_main_call0_cst_apply, Ideal.ofBits_def, Ideal.ofBits_zero_f32, zero_add]
  refine nonneg_sum _ _ fun k => ?_
  rw [Read.val_main_call0_v0_apply, Ideal.mulf_def]
  exact nonneg_mul_self (real_v18 x3 x5 h3 _)

theorem nonneg_call0_v2 (h3 : AllReal x3) (i : S400000x1.Idx) :
    ∃ r : ℝ, 0 ≤ r ∧ Read.val_main_call0_v2 (F := Ideal) x3 x5 i = (r : EReal) := by
  rw [Read.val_main_call0_v2_apply]
  exact nonneg_call0_v1 x3 x5 h3 _

/-- The length of an edge vector. -/
theorem nonneg_v19 (h3 : AllReal x3) (i : S400000x1.Idx) :
    ∃ r : ℝ, 0 ≤ r ∧ Read.val_main_v19 (F := Ideal) x3 x5 i = (r : EReal) := by
  rw [Read.val_main_v19_apply, Ideal.hostUnary_sqrt_def]
  exact nonneg_sqrt (nonneg_call0_v2 x3 x5 h3 i)

/-- The splat of the small constant. -/
theorem pos_v20 (i : S400000x1.Idx) : ∃ r : ℝ, 0 < r ∧ Read.val_main_v20 (F := Ideal) i = (r : EReal) := by
  rw [Read.val_main_v20_apply, Read.val_main_cst_apply, Ideal.ofBits_def]
  exact pos_eps

/-- The denominator, length plus the constant, is a positive real. -/
theorem pos_v21 (h3 : AllReal x3) (i : S400000x1.Idx) :
    ∃ r : ℝ, 0 < r ∧ Read.val_main_v21 (F := Ideal) x3 x5 i = (r : EReal) := by
  rw [Read.val_main_v21_apply, Ideal.addf_def]
  exact pos_add (nonneg_v19 x3 x5 h3 i) (pos_v20 i)

theorem pos_v22 (h3 : AllReal x3) (i : S400000x3.Idx) :
    ∃ r : ℝ, 0 < r ∧ Read.val_main_v22 (F := Ideal) x3 x5 i = (r : EReal) := by
  rw [Read.val_main_v22_apply]
  exact pos_v21 x3 x5 h3 _

/-- The unit edge vectors. -/
theorem real_v23 (h3 : AllReal x3) : AllReal (Read.val_main_v23 (F := Ideal) x3 x5) := fun i => by
  rw [Read.val_main_v23_apply, Ideal.hostDivf_def]
  exact real_div_pos (real_v18 x3 x5 h3 i) (pos_v22 x3 x5 h3 i)

/-- The zero accumulator. -/
theorem real_v24 : AllReal (Read.val_main_v24 (F := Ideal)) := fun i => by
  rw [Read.val_main_v24_apply, Read.val_main_cst_3_apply, Ideal.ofBits_def]
  exact real_zero_word

/-- The unit vectors accumulated at the first end points. -/
theorem real_v31 (h3 : AllReal x3) : AllReal (Read.val_main_v31 (F := Ideal) x3 x5) :=
  real_scatterAdd _ _ _ _ real_v24 (real_v23 x3 x5 h3)

theorem real_v32 (h3 : AllReal x3) : AllReal (Read.val_main_v32 (F := Ideal) x3 x5) := fun i => by
  rw [Read.val_main_v32_apply, Ideal.hostNegf_def, Ideal.negf_def]
  exact real_neg (real_v23 x3 x5 h3 i)

/-- The accumulated vectors: the unit vectors at the first end points minus those at the second. -/
theorem real_v39 (h3 : AllReal x3) : AllReal (Read.val_main_v39 (F := Ideal) x3 x5) :=
  real_scatterAdd _ _ _ _ (real_v31 x3 x5 h3) (real_v32 x3 x5 h3)

theorem real_v40 (h3 : AllReal x3) : AllReal (Read.val_main_v40 (F := Ideal) x3 x5) := fun i => by
  rw [Read.val_main_v40_apply, Ideal.mulf_def]
  exact real_mul (real_v39 x3 x5 h3 i) (real_v39 x3 x5 h3 i)

theorem real_v41 (h3 : AllReal x3) : AllReal (Read.val_main_v41 (F := Ideal) x3 x5) := fun i => by
  rw [Read.val_main_v41_apply, Read.val_main_cst_8_apply, Ideal.ofBits_def]
  exact real_add real_zero_word (real_sum _ _ fun k => real_v40 x3 x5 h3 _)

/-- The squared norms of the accumulated vectors, as a column. -/
theorem ang_real (h3 : AllReal x3) : AllReal (Read.val_main_v42 (F := Ideal) x3 x5) := fun i => by
  rw [Read.val_main_v42_apply]
  exact real_v41 x3 x5 h3 _

/-- The accumulated vectors at the first end points of the edges. -/
theorem real_v50 (h3 : AllReal x3) : AllReal (Read.val_main_v50 (F := Ideal) x3 x5) :=
  real_gather _ _ _ (real_v39 x3 x5 h3)

/-- The accumulated vectors at the second end points of the edges. -/
theorem real_v57 (h3 : AllReal x3) : AllReal (Read.val_main_v57 (F := Ideal) x3 x5) :=
  real_gather _ _ _ (real_v39 x3 x5 h3)

theorem real_v58 (h3 : AllReal x3) : AllReal (Read.val_main_v58 (F := Ideal) x3 x5) := fun i => by
  rw [Read.val_main_v58_apply, Ideal.mulf_def]
  exact real_mul (real_v50 x3 x5 h3 i) (real_v23 x3 x5 h3 i)

/-- The projection of the first accumulated vector on the edge's unit vector. -/
theorem real_v59 (h3 : AllReal x3) : AllReal (Read.val_main_v59 (F := Ideal) x3 x5) := fun i => by
  rw [Read.val_main_v59_apply, Read.val_main_cst_13_apply, Ideal.ofBits_def]
  exact real_add real_zero_word (real_sum _ _ fun k => real_v58 x3 x5 h3 _)

theorem real_v60 (h3 : AllReal x3) : AllReal (Read.val_main_v60 (F := Ideal) x3 x5) := fun i => by
  rw [Read.val_main_v60_apply]
  exact real_v59 x3 x5 h3 _

theorem real_v61 (h3 : AllReal x3) : AllReal (Read.val_main_v61 (F := Ideal) x3 x5) := fun i => by
  rw [Read.val_main_v61_apply, Ideal.mulf_def]
  exact real_mul (real_v57 x3 x5 h3 i) (real_v23 x3 x5 h3 i)

/-- The projection of the second accumulated vector on the edge's unit vector. -/
theorem real_v62 (h3 : AllReal x3) : AllReal (Read.val_main_v62 (F := Ideal) x3 x5) := fun i => by
  rw [Read.val_main_v62_apply, Read.val_main_cst_14_apply, Ideal.ofBits_def]
  exact real_add real_zero_word (real_sum _ _ fun k => real_v61 x3 x5 h3 _)

theorem real_v63 (h3 : AllReal x3) : AllReal (Read.val_main_v63 (F := Ideal) x3 x5) := fun i => by
  rw [Read.val_main_v63_apply]
  exact real_v62 x3 x5 h3 _

theorem real_v64 (h3 : AllReal x3) : AllReal (Read.val_main_v64 (F := Ideal) x3 x5) := fun i => by
  rw [Read.val_main_v64_apply]
  exact real_v60 x3 x5 h3 _

theorem real_v65 (h3 : AllReal x3) : AllReal (Read.val_main_v65 (F := Ideal) x3 x5) := fun i => by
  rw [Read.val_main_v65_apply, Ideal.mulf_def]
  exact real_mul (real_v64 x3 x5 h3 i) (real_v23 x3 x5 h3 i)

/-- The first accumulated vector minus its component along the edge. -/
theorem real_v66 (h3 : AllReal x3) : AllReal (Read.val_main_v66 (F := Ideal) x3 x5) := fun i => by
  rw [Read.val_main_v66_apply, Ideal.subf_def]
  exact real_sub (real_v50 x3 x5 h3 i) (real_v65 x3 x5 h3 i)

theorem real_v67 (h3 : AllReal x3) : AllReal (Read.val_main_v67 (F := Ideal) x3 x5) := fun i => by
  rw [Read.val_main_v67_apply]
  exact real_v63 x3 x5 h3 _

theorem real_v68 (h3 : AllReal x3) : AllReal (Read.val_main_v68 (F := Ideal) x3 x5) := fun i => by
  rw [Read.val_main_v68_apply, Ideal.mulf_def]
  exact real_mul (real_v67 x3 x5 h3 i) (real_v23 x3 x5 h3 i)

/-- The second accumulated vector minus its component along the edge. -/
theorem real_v69 (h3 : AllReal x3) : AllReal (Read.val_main_v69 (F := Ideal) x3 x5) := fun i => by
  rw [Read.val_main_v69_apply, Ideal.subf_def]
  exact real_sub (real_v57 x3 x5 h3 i) (real_v68 x3 x5 h3 i)

theorem real_v70 (h3 : AllReal x3) : AllReal (Read.val_main_v70 (F := Ideal) x3 x5) := fun i => by
  rw [Read.val_main_v70_apply, Ideal.mulf_def]
  exact real_mul (real_v66 x3 x5 h3 i) (real_v69 x3 x5 h3 i)

/-- The inner product of the two rejected vectors. -/
theorem real_v71 (h3 : AllReal x3) : AllReal (Read.val_main_v71 (F := Ideal) x3 x5) := fun i => by
  rw [Read.val_main_v71_apply, Read.val_main_cst_15_apply, Ideal.ofBits_def]
  exact real_add real_zero_word (real_sum _ _ fun k => real_v70 x3 x5 h3 _)

/-- The inner products of the rejected vectors, as a column. -/
theorem dih_real (h3 : AllReal x3) : AllReal (Read.val_main_v72 (F := Ideal) x3 x5) := fun i => by
  rw [Read.val_main_v72_apply]
  exact real_v71 x3 x5 h3 _

end Stages

end Cert.ReferenceIdeal.RealGeom

end
-- ==== Proof.GatedBridge.lean ====
/-
  The four results of the two gated-update regions are the reference's.

  Each region stores `x + (x · W + b) * logistic (s * colsum + bg)` and the row scalar `s` spread along the row, where the
  host laid out `b` and `bg` as one-row matrices and `colsum` as the column sums (taken from zero) of the gate weights
  `Wg`. The reference computes `x + (x · W + b) * 1 / (1 + exp (−(Σₖ s · Wg(k, q) + bg)))`. The two agree entry by entry:
  the operands the regions read are the argument arrays and the geometric scalars the reference computes from the same
  arguments; for a REAL scalar `s` and REAL gate weights `s * (0 + Σₖ Wg(k, q)) = Σₖ s * Wg(k, q)`; the word `0x3F800000` is
  one and the logistic function is that quotient. The scalar is real because the positions are.
-/
import proofs.«161305_j25314537242668_2_alg».proof.Proof.HostVals
import proofs.«161305_j25314537242668_2_alg».proof.Proof.HostVals3
import proofs.«161305_j25314537242668_2_alg».proof.Proof.HostVals4
import proofs.«161305_j25314537242668_2_alg».proof.Proof.HostArgsA
import proofs.«161305_j25314537242668_2_alg».proof.Proof.HostArgsB
import proofs.«161305_j25314537242668_2_alg».proof.Proof.GatedValue1
import proofs.«161305_j25314537242668_2_alg».proof.Proof.GatedValue2
import proofs.«161305_j25314537242668_2_alg».proof.Proof.RefGated
import proofs.«161305_j25314537242668_2_alg».proof.Proof.GatedLaw
import proofs.«161305_j25314537242668_2_alg».proof.Proof.RealGeom
import Idealize.ShloMosaic.Lib.Pipeline.Value
import Idealize.ShloMosaic.Lib.ValueLayout
import Idealize.ShloMosaic.Lib.ValueIdx
import Idealize.ShloMosaic.PureOps.Ideal.Laws

noncomputable section

namespace Cert.GatedBridge

open Cert.KernelIdeal Cert.KernelIdeal.Gen
open Idealize.ShloMosaic Idealize.ShloMosaic.TcCoe Idealize.SL.Sem Idealize.ShloMosaic.ValueIdx
open Cert.Lib
open scoped BigOperators

/-! ## Operand layouts read at an entry -/

/-- A vector of 128 entries reshaped to one row reads, at `(0, q)`, the vector's entry `q`. -/
theorem row_at (v : S128.Idx → EReal) (h : S128.ShapeCasts S1x128) (q : Fin 128) :
    shapeCast S1x128 v h (ix2 (0 : Fin 1) q) = v (ix1 q) := shapeCast_a_1a_apply v h 0 q

/-- The column sums, taken from zero, of a `[128, 128]` matrix laid as one row: entry `(0, q)` is zero plus the sum of
    column `q`. -/
theorem colsum_at (W : S128x128.Idx → EReal) (hb : S128.BroadcastsInDim S1x128 (![1] : Fin 1 → Fin S1x128.rank))
    (hr : S128x128.ReducesTo [0] S128) (hu : 0 < S_.numel) (q : Fin 128) :
    broadcastInDim S1x128 ![1] hb
        (Host.reduceAdd (F := Ideal) (φ := .f32) W (constant (F := Ideal) S_ .f32 0x00000000#32) hr hu) (ix2 (0 : Fin 1) q)
      = (0 : EReal) + ∑ k : Fin 128, W (ix2 k q) := by
  refine (broadcastInDim_apply _ _ _ _ (ix1 q) (fun b => match b with
    | ⟨0, _⟩ => by show q.val = if (128 : Nat) = 1 then 0 else q.val; rw [if_neg (by decide)])).trans ?_
  simp only [Host.reduceAdd, Ideal.hostReduceAdd_def]
  rw [Ideal.hostReduceAdd_single hr (by decide)]
  refine congrArg₂ (· + ·) ?_ (Finset.sum_congr rfl fun k _ => ?_)
  · exact Ideal.ofBits_zero_f32
  · exact congrArg W (funext fun b => Fin.ext (by match b with | ⟨0, _⟩ => rfl | ⟨1, _⟩ => rfl))

/-! ## The gate in its two forms -/

/-- The kernel multiplies the row's scalar by the column sum of the gate weights (taken from zero) and applies the
    logistic function; the reference sums the scalar times each gate weight and applies `1 / (1 + exp(−·))`. For a REAL
    scalar and REAL gate weights the two arguments are equal (a real distributes over a finite sum of reals), the word
    `0x3F800000` is one, and the logistic function is that quotient. -/
theorem gate_law (x0 lin b1 s bg : EReal) (Wg : Fin 128 → EReal) (hs : ∃ r : ℝ, s = (r : EReal))
    (hW : ∀ k, ∃ w : ℝ, Wg k = (w : EReal)) :
    x0 + (lin + b1) * Ideal.logistic (s * ((0 : EReal) + ∑ k, Wg k) + bg)
      = x0 + (lin + b1) * Ideal.div (Ideal.ofBits .f32 0x3F800000#32) (Ideal.ofBits .f32 0x3F800000#32
          + Ideal.exp (-((∑ k, s * Wg k) + bg))) := by
  rw [Cert.GatedLaw.one_word, Cert.GatedLaw.logistic_eq, Cert.GatedLaw.scalar_colsum s Wg hs hW]

/-- The node update at `(p, q)`: the kernel's form, with its operands named by what the host laid out, is the reference's form. -/
theorem gated1_eq (x' x : S25000x128.Idx → EReal) (s' s : S25000x1.Idx → EReal) (W' W : S128x128.Idx → EReal)
    (b1' cs' b2' : S1x128.Idx → EReal) (b1'' b1 b2'' b2 : S128.Idx → EReal) (Wg'' Wg : S128x128.Idx → EReal)
    (h1 : S128.ShapeCasts S1x128) (hb : S128.BroadcastsInDim S1x128 (![1] : Fin 1 → Fin S1x128.rank))
    (hr : S128x128.ReducesTo [0] S128) (hu : 0 < S_.numel)
    (ex : x' = x) (es : s' = s) (eW : W' = W)
    (eb1 : b1' = shapeCast S1x128 b1'' h1) (eb1' : b1'' = b1)
    (ecs : cs' = broadcastInDim S1x128 ![1] hb
      (Host.reduceAdd (F := Ideal) (φ := .f32) Wg'' (constant (F := Ideal) S_ .f32 0x00000000#32) hr hu)) (eWg : Wg'' = Wg)
    (eb2 : b2' = shapeCast S1x128 b2'' h1) (eb2' : b2'' = b2) (p : Fin 25000) (q : Fin 128)
    (hs : ∃ r : ℝ, s (ix2 p 0) = (r : EReal)) (hW : AllReal Wg) :
    GatedValue1.gated x' s' W' b1' cs' b2' p q
      = x (ix2 p q) + ((∑ k : Fin 128, x (ix2 p k) * W (ix2 k q)) + b1 (ix1 q))
          * Ideal.div (Ideal.ofBits .f32 0x3F800000#32) (Ideal.ofBits .f32 0x3F800000#32
              + Ideal.exp (-((∑ k : Fin 128, s (ix2 p 0) * Wg (ix2 k q)) + b2 (ix1 q)))) := by
  subst ex es eW eb1' eWg eb2' eb1 ecs eb2
  unfold GatedValue1.gated
  rw [row_at, row_at, colsum_at]
  exact gate_law _ _ _ _ _ (fun k => Wg'' (ix2 k q)) hs (fun k => hW _)

/-- The edge update at `(p, q)`, likewise. -/
theorem gated2_eq (x' x : S400000x128.Idx → EReal) (s' s : S400000x1.Idx → EReal) (W' W : S128x128.Idx → EReal)
    (b1' cs' b2' : S1x128.Idx → EReal) (b1'' b1 b2'' b2 : S128.Idx → EReal) (Wg'' Wg : S128x128.Idx → EReal)
    (h1 : S128.ShapeCasts S1x128) (hb : S128.BroadcastsInDim S1x128 (![1] : Fin 1 → Fin S1x128.rank))
    (hr : S128x128.ReducesTo [0] S128) (hu : 0 < S_.numel)
    (ex : x' = x) (es : s' = s) (eW : W' = W)
    (eb1 : b1' = shapeCast S1x128 b1'' h1) (eb1' : b1'' = b1)
    (ecs : cs' = broadcastInDim S1x128 ![1] hb
      (Host.reduceAdd (F := Ideal) (φ := .f32) Wg'' (constant (F := Ideal) S_ .f32 0x00000000#32) hr hu)) (eWg : Wg'' = Wg)
    (eb2 : b2' = shapeCast S1x128 b2'' h1) (eb2' : b2'' = b2) (p : Fin 400000) (q : Fin 128)
    (hs : ∃ r : ℝ, s (ix2 p 0) = (r : EReal)) (hW : AllReal Wg) :
    GatedValue2.gated x' s' W' b1' cs' b2' p q
      = x (ix2 p q) + ((∑ k : Fin 128, x (ix2 p k) * W (ix2 k q)) + b1 (ix1 q))
          * Ideal.div (Ideal.ofBits .f32 0x3F800000#32) (Ideal.ofBits .f32 0x3F800000#32
              + Ideal.exp (-((∑ k : Fin 128, s (ix2 p 0) * Wg (ix2 k q)) + b2 (ix1 q)))) := by
  subst ex es eW eb1' eWg eb2' eb1 ecs eb2
  unfold GatedValue2.gated
  rw [row_at, row_at, colsum_at]
  exact gate_law _ _ _ _ _ (fun k => Wg'' (ix2 k q)) hs (fun k => hW _)

/-! ## The four results -/

variable (m : (ℓ : Loc nD τ sig) → Buf (Elt Ideal) ℓ) (ρ : Dev nD → PrngReg) (c : Dev nD)

/-- The spread squared norms: the kernel's second node output is the reference's. -/
theorem ang_info_eq :
    W8 m ρ c (Proc.devRef .tc main_v127_1)
      = Cert.ReferenceIdeal.Read.val_main_v43 (F := Ideal) (m ((c.tc : Thread nD τ).loc main_arg3)) (m ((c.tc : Thread nD τ).loc main_arg5)) := by
  rw [HostVals4.W8_v127_1]
  funext i
  obtain ⟨p, q, rfl⟩ : ∃ (p : Fin 25000) (q : Fin 128), i = ix2 p q := ⟨i 0, i 1, eq_ix2 i⟩
  rw [GatedValue1.final7_apply, Cert.ReferenceIdeal.RefAt.ang_info_at]
  exact congrFun ((HostVals3.W5_v42 m ρ c).trans (HostVals.W3_v42 m ρ c)) (ix2 p 0)

/-- The spread dihedral scalars: the kernel's second edge output is the reference's. -/
theorem dih_info_eq :
    W8 m ρ c (Proc.devRef .tc main_v132_1)
      = Cert.ReferenceIdeal.Read.val_main_v73 (F := Ideal) (m ((c.tc : Thread nD τ).loc main_arg3)) (m ((c.tc : Thread nD τ).loc main_arg5)) := by
  rw [HostVals4.W8_v132_1]
  funext i
  obtain ⟨p, q, rfl⟩ : ∃ (p : Fin 400000) (q : Fin 128), i = ix2 p q := ⟨i 0, i 1, eq_ix2 i⟩
  rw [GatedValue2.final7_apply, Cert.ReferenceIdeal.RefAt.dih_info_at]
  exact congrFun ((HostVals4.W7_v71 m ρ c).trans (HostVals.W3_v71 m ρ c)) (ix2 p 0)

/-- The updated node features: for real positions and real gate weights the kernel's first node output is the
    reference's. -/
theorem h_updated_eq (h3 : AllReal (ι := S25000x3.Idx) (m ((c.tc : Thread nD τ).loc main_arg3))) (h14 : AllReal (ι := S128x128.Idx) (m ((c.tc : Thread nD τ).loc main_arg14))) :
    W8 m ρ c (Proc.devRef .tc main_v127_0)
      = Cert.ReferenceIdeal.Read.val_main_v152 (F := Ideal) (m ((c.tc : Thread nD τ).loc main_arg0)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg14)) (m ((c.tc : Thread nD τ).loc main_arg15)) := by
  rw [HostVals4.W8_v127_0]
  funext i
  obtain ⟨p, q, rfl⟩ : ∃ (p : Fin 25000) (q : Fin 128), i = ix2 p q := ⟨i 0, i 1, eq_ix2 i⟩
  rw [GatedValue1.final6_apply, Cert.ReferenceIdeal.RefAt.h_updated_at]
  exact gated1_eq _ (m ((c.tc : Thread nD τ).loc main_arg0)) _ (Cert.ReferenceIdeal.Read.val_main_v42 (F := Ideal) (m ((c.tc : Thread nD τ).loc main_arg3)) (m ((c.tc : Thread nD τ).loc main_arg5))) _ (m ((c.tc : Thread nD τ).loc main_arg10))
    _ _ _ _ (m ((c.tc : Thread nD τ).loc main_arg11)) _ (m ((c.tc : Thread nD τ).loc main_arg15)) _ (m ((c.tc : Thread nD τ).loc main_arg14)) _ _ _ _
    ((HostVals3.W5_arg0 m ρ c).trans (HostArgsA.W3_arg0 m ρ c))
    ((HostVals3.W5_v42 m ρ c).trans (HostVals.W3_v42 m ρ c))
    ((HostVals3.W5_arg10 m ρ c).trans (HostArgsA.W3_arg10 m ρ c))
    (HostVals3.W5_v123 m ρ c) (HostArgsA.W3_arg11 m ρ c)
    (HostVals3.W5_v126 m ρ c) (HostArgsA.W3_arg14 m ρ c)
    (HostVals3.W5_v124 m ρ c) (HostArgsA.W3_arg15 m ρ c)
    p q (Cert.ReferenceIdeal.RealGeom.ang_real _ _ h3 (ix2 p 0)) h14

/-- The updated edge features: for real positions and real gate weights the kernel's first edge output is the
    reference's. -/
theorem f_updated_eq (h3 : AllReal (ι := S25000x3.Idx) (m ((c.tc : Thread nD τ).loc main_arg3))) (h16 : AllReal (ι := S128x128.Idx) (m ((c.tc : Thread nD τ).loc main_arg16))) :
    W8 m ρ c (Proc.devRef .tc main_v132_0)
      = Cert.ReferenceIdeal.Read.val_main_v168 (F := Ideal) (m ((c.tc : Thread nD τ).loc main_arg2)) (m ((c.tc : Thread nD τ).loc main_arg3)) (m ((c.tc : Thread nD τ).loc main_arg5)) (m ((c.tc : Thread nD τ).loc main_arg12)) (m ((c.tc : Thread nD τ).loc main_arg13)) (m ((c.tc : Thread nD τ).loc main_arg16)) (m ((c.tc : Thread nD τ).loc main_arg17)) := by
  rw [HostVals4.W8_v132_0]
  funext i
  obtain ⟨p, q, rfl⟩ : ∃ (p : Fin 400000) (q : Fin 128), i = ix2 p q := ⟨i 0, i 1, eq_ix2 i⟩
  rw [GatedValue2.final6_apply, Cert.ReferenceIdeal.RefAt.f_updated_at]
  exact gated2_eq _ (m ((c.tc : Thread nD τ).loc main_arg2)) _ (Cert.ReferenceIdeal.Read.val_main_v72 (F := Ideal) (m ((c.tc : Thread nD τ).loc main_arg3)) (m ((c.tc : Thread nD τ).loc main_arg5))) _ (m ((c.tc : Thread nD τ).loc main_arg12))
    _ _ _ _ (m ((c.tc : Thread nD τ).loc main_arg13)) _ (m ((c.tc : Thread nD τ).loc main_arg17)) _ (m ((c.tc : Thread nD τ).loc main_arg16)) _ _ _ _
    ((HostVals4.W7_arg2 m ρ c).trans (HostArgsB.W3_arg2 m ρ c))
    ((HostVals4.W7_v71 m ρ c).trans (HostVals.W3_v71 m ρ c))
    ((HostVals4.W7_arg12 m ρ c).trans (HostArgsB.W3_arg12 m ρ c))
    (HostVals4.W7_v128 m ρ c) ((HostVals4.W6_arg13' m ρ c).trans (HostArgsB.W3_arg13 m ρ c))
    (HostVals4.W7_v131 m ρ c) ((HostVals4.W6_arg16' m ρ c).trans (HostArgsB.W3_arg16 m ρ c))
    (HostVals4.W7_v129 m ρ c) ((HostVals4.W6_arg17' m ρ c).trans (HostArgsB.W3_arg17 m ρ c))
    p q (Cert.ReferenceIdeal.RealGeom.dih_real _ _ h3 (ix2 p 0)) h16

end Cert.GatedBridge

end
-- ==== Proof.EdgeValuePayload.lean ====
/-
  The edge-message body's values on one block of 2000 edges, read at an index on the extended reals.

  The body forms, for each edge of the block, the scalar message `h_col · Wm0 + h_row · Wm1 + rbf · Wm2 + bmsg` (three
  products into zero accumulators, added in that order, then the bias row broadcast over the rows), then the second
  layer `smsg · Wvec + bvec` of 256 columns, cut into its first and last 128 columns.  Each of the three stored values is
  `(lo · d + hi · v) · w`, with `d` one of the first three columns of the packed quadruple spread over 128 columns, `v`
  the matching run of 128 columns of the vector features, and `w` the quadruple's fourth column.  On the extended
  reals a change of float format is the identity and a product into the zero accumulator is the plain row-by-column
  sum, so each value at `(r, k)` is the textbook expression in the block's entries.
-/
import proofs.«161305_j25314537242668_2_alg».proof.Proof.Gen.KernelIdeal.Skeleton
import proofs.«161305_j25314537242668_2_alg».proof.Proof.LibMatDot
import proofs.«161305_j25314537242668_2_alg».proof.Proof.LibColumn
import Idealize.ShloMosaic.Lib.ValueIdx
import Idealize.ShloMosaic.Lib.ValueLayout
import Idealize.ShloMosaic.Lib.Pipeline.Value

noncomputable section

namespace Cert.KernelIdeal.EdgeValue

open Cert.KernelIdeal Cert.KernelIdeal.Gen
open Idealize.ShloMosaic Idealize.ShloMosaic.ValueIdx
open scoped BigOperators

/-! ## The three products of the body, each into the zero accumulator, at an index -/

/-- Rows of 128 against a 128 × 128 matrix. -/
theorem mm128_apply {φ₁ φ₂ : FTy} (l : FVec Ideal S2000x128 φ₁) (w : FVec Ideal S128x128 φ₂) (r : Fin 2000) (q : Fin 128) :
    matmul dot_S2000x128_S128x128_S2000x128_1_0_0_1_n_n none l w (constant S2000x128 .f32 0x00000000#32) (ix2 r q)
      = ∑ a : Fin 128, l (ix2 r a) * w (ix2 a q) :=
  Cert.Lib.matmul_plain_zero_apply dot_S2000x128_S128x128_S2000x128_1_0_0_1_n_n_wf none l w r q

/-- Rows of 50 against a 50 × 128 matrix. -/
theorem mm50_apply {φ₁ φ₂ : FTy} (l : FVec Ideal S2000x50 φ₁) (w : FVec Ideal S50x128 φ₂) (r : Fin 2000) (q : Fin 128) :
    matmul dot_S2000x50_S50x128_S2000x128_1_0_0_1_n_n none l w (constant S2000x128 .f32 0x00000000#32) (ix2 r q)
      = ∑ a : Fin 50, l (ix2 r a) * w (ix2 a q) :=
  Cert.Lib.matmul_plain_zero_apply dot_S2000x50_S50x128_S2000x128_1_0_0_1_n_n_wf none l w r q

/-- Rows of 128 against a 128 × 256 matrix. -/
theorem mm256_apply {φ₁ φ₂ : FTy} (l : FVec Ideal S2000x128 φ₁) (w : FVec Ideal S128x256 φ₂) (r : Fin 2000) (q : Fin 256) :
    matmul dot_S2000x128_S128x256_S2000x256_1_0_0_1_n_n none l w (constant S2000x256 .f32 0x00000000#32) (ix2 r q)
      = ∑ a : Fin 128, l (ix2 r a) * w (ix2 a q) :=
  Cert.Lib.matmul_plain_zero_apply dot_S2000x128_S128x256_S2000x256_1_0_0_1_n_n_wf none l w r q

/-! ## The body's values on one block of 2000 edges -/

section Body

variable (x0 x1 : FVec Ideal S2000x128 .bf16) (x2 : FVec Ideal S2000x50 .f32)
  (x5 x6 : FVec Ideal S128x128 .f32) (x7 : FVec Ideal S50x128 .f32) (x8 : FVec Ideal S1x128 .f32)
  (x9 : FVec Ideal S128x256 .f32) (x10 : FVec Ideal S1x256 .f32)

/-- The scalar message of the block's row `r` at feature `k'`. -/
def smsgB (r : Fin 2000) (k' : Fin 128) : EReal :=
  (((∑ a : Fin 128, x0 (ix2 r a) * x5 (ix2 a k')) + (∑ a : Fin 128, x1 (ix2 r a) * x6 (ix2 a k')))
      + (∑ a : Fin 50, x2 (ix2 r a) * x7 (ix2 a k')))
    + x8 (ix2 (0 : Fin 1) k')

/-- The second layer of the block's row `r` at column `j` of 256. -/
def vwB (r : Fin 2000) (j : Fin 256) : EReal :=
  (∑ k' : Fin 128, smsgB x0 x1 x2 x5 x6 x7 x8 r k' * x9 (ix2 k' j)) + x10 (ix2 (0 : Fin 1) j)

/-- The second layer of the block, before it is cut in two: at `(r, j)` it is `vwB`. -/
theorem pay7_apply (r : Fin 2000) (j : Fin 256) :
    k0_pay7 (F := Ideal) x0 x1 x2 x5 x6 x7 x8 x9 x10 (ix2 r j) = vwB x0 x1 x2 x5 x6 x7 x8 x9 x10 r j := by
  unfold k0_pay7
  simp only [shapeCast_self]
  unfold vwB
  refine (addf_apply _ _ _).trans ?_
  refine congrArg₂ (· + ·) ?_ (broadcastTo_1b_ab_apply x10 _ r j)
  refine (mm256_apply _ _ r j).trans (Finset.sum_congr rfl fun k' _ => ?_)
  refine congrArg (· * x9 (ix2 k' j)) ?_
  unfold smsgB
  refine (addf_apply _ _ _).trans ?_
  refine congrArg₂ (· + ·) ?_ (broadcastTo_1b_ab_apply x8 _ r k')
  refine (addf_apply _ _ _).trans ?_
  refine congrArg₂ (· + ·) ?_ (mm50_apply _ _ r k')
  refine (addf_apply _ _ _).trans ?_
  exact congrArg₂ (· + ·) (mm128_apply x0 _ r k') (mm128_apply x1 _ r k')

/-- Its first 128 columns -/
theorem pay8_apply (r : Fin 2000) (k : Fin 128) :
    k0_pay8 (F := Ideal) x0 x1 x2 x5 x6 x7 x8 x9 x10 (ix2 r k)
      = vwB x0 x1 x2 x5 x6 x7 x8 x9 x10 r ⟨k.val, by have := k.isLt; omega⟩ := by
  unfold k0_pay8
  exact (slice2_axis1_apply 0 (k0_pay7 (F := Ideal) x0 x1 x2 x5 x6 x7 x8 x9 x10) _ r k ⟨k.val, by have := k.isLt; omega⟩ (Nat.zero_add _).symm).trans
    (pay7_apply x0 x1 x2 x5 x6 x7 x8 x9 x10 r _)

/-- and its last 128. -/
theorem pay9_apply (r : Fin 2000) (k : Fin 128) :
    k0_pay9 (F := Ideal) x0 x1 x2 x5 x6 x7 x8 x9 x10 (ix2 r k)
      = vwB x0 x1 x2 x5 x6 x7 x8 x9 x10 r ⟨128 + k.val, by have := k.isLt; omega⟩ := by
  unfold k0_pay9
  exact (slice2_axis1_apply 128 (k0_pay7 (F := Ideal) x0 x1 x2 x5 x6 x7 x8 x9 x10) _ r k ⟨128 + k.val, by have := k.isLt; omega⟩ rfl).trans
    (pay7_apply x0 x1 x2 x5 x6 x7 x8 x9 x10 r _)

end Body

/-! ## The three stored values -/

/-- One column of the packed quadruple, spread over 128 columns, at `(r, k)`: the quadruple's entry `q` of row `r`. -/
theorem dirCol_apply (o : Nat) (v34 : FVec Ideal S2000x4 .f32) (h1 : S2000x4.Slices ![0, o] S2000x1)
    (h2 : S2000x1.Broadcasts S2000x128) (r : Fin 2000) (k : Fin 128) (q : Fin 4) (hq : q.val = o) :
    broadcastTo S2000x128 (extractStridedSlice S2000x1 ![0, o] v34 h1) h2 (ix2 r k) = v34 (ix2 r q) :=
  (Cert.Lib.broadcastTo_a1_ab_apply _ h2 r k).trans
    (slice2_axis1_apply o v34 h1 r (0 : Fin 1) q (by rw [hq]; rfl))

/-- The stored value of column block `cc` at `(r, k)`, from the two halves of the second layer, the packed quadruple
    and the vector features: `(lo · dir_cc + hi · v_row[cc]) · cutoff`. -/
theorem store_apply (o : Nat) (w : Nat) (v32 v33 : FVec Ideal S2000x128 .f32) (v34 : FVec Ideal S2000x4 .f32)
    (v40 : FVec Ideal S2000x384 .f32) (h1 : S2000x4.Slices ![0, o] S2000x1) (h3 : S2000x4.Slices ![0, 3] S2000x1)
    (h2 : S2000x1.Broadcasts S2000x128) (hs : S2000x384.Slices ![0, w] S2000x128)
    (r : Fin 2000) (k : Fin 128) (q : Fin 4) (hq : q.val = o) (p : Fin 384) (hp : p.val = w + k.val) :
    mulf (addf (mulf v32 (broadcastTo S2000x128 (extractStridedSlice S2000x1 ![0, o] v34 h1) h2))
        (mulf v33 (extractStridedSlice S2000x128 ![0, w] v40 hs)))
      (broadcastTo S2000x128 (extractStridedSlice S2000x1 ![0, 3] v34 h3) h2) (ix2 r k)
      = (v32 (ix2 r k) * v34 (ix2 r q) + v33 (ix2 r k) * v40 (ix2 r p)) * v34 (ix2 r (3 : Fin 4)) := by
  refine (mulf_apply _ _ _).trans ?_
  refine congrArg₂ (· * ·) ?_ (dirCol_apply 3 v34 h3 h2 r k 3 rfl)
  refine (addf_apply _ _ _).trans ?_
  refine congrArg₂ (· + ·) ((mulf_apply _ _ _).trans ?_) ((mulf_apply _ _ _).trans ?_)
  · exact congrArg (v32 (ix2 r k) * ·) (dirCol_apply o v34 h1 h2 r k q hq)
  · exact congrArg (v33 (ix2 r k) * ·) (slice2_axis1_apply w v40 hs r k p hp)

theorem pay4_apply (v32 v33 : FVec Ideal S2000x128 .f32) (v34 : FVec Ideal S2000x4 .f32) (v40 : FVec Ideal S2000x384 .f32)
    (r : Fin 2000) (k : Fin 128) :
    k0_pay4 (F := Ideal) v32 v33 v34 v40 (ix2 r k)
      = (v32 (ix2 r k) * v34 (ix2 r (0 : Fin 4)) + v33 (ix2 r k) * v40 (ix2 r ⟨0 + k.val, by have := k.isLt; omega⟩))
        * v34 (ix2 r (3 : Fin 4)) := by
  unfold k0_pay4 k0_pay2 k0_pay3 k0_pay1
  simp only [shapeCast_self]
  exact store_apply 0 0 v32 v33 v34 v40 _ _ _ _ r k 0 rfl ⟨0 + k.val, by have := k.isLt; omega⟩ rfl

theorem pay5_apply (v32 v33 : FVec Ideal S2000x128 .f32) (v34 : FVec Ideal S2000x4 .f32) (v40 : FVec Ideal S2000x384 .f32)
    (r : Fin 2000) (k : Fin 128) :
    k0_pay5 (F := Ideal) v32 v33 v34 v40 (ix2 r k)
      = (v32 (ix2 r k) * v34 (ix2 r (1 : Fin 4)) + v33 (ix2 r k) * v40 (ix2 r ⟨128 + k.val, by have := k.isLt; omega⟩))
        * v34 (ix2 r (3 : Fin 4)) := by
  unfold k0_pay5 k0_pay2 k0_pay3 k0_pay1
  simp only [shapeCast_self]
  exact store_apply 1 128 v32 v33 v34 v40 _ _ _ _ r k 1 rfl ⟨128 + k.val, by have := k.isLt; omega⟩ rfl

theorem pay6_apply (v32 v33 : FVec Ideal S2000x128 .f32) (v34 : FVec Ideal S2000x4 .f32) (v40 : FVec Ideal S2000x384 .f32)
    (r : Fin 2000) (k : Fin 128) :
    k0_pay6 (F := Ideal) v32 v33 v34 v40 (ix2 r k)
      = (v32 (ix2 r k) * v34 (ix2 r (2 : Fin 4)) + v33 (ix2 r k) * v40 (ix2 r ⟨256 + k.val, by have := k.isLt; omega⟩))
        * v34 (ix2 r (3 : Fin 4)) := by
  unfold k0_pay6 k0_pay2 k0_pay3 k0_pay1
  simp only [shapeCast_self]
  exact store_apply 2 256 v32 v33 v34 v40 _ _ _ _ r k 2 rfl ⟨256 + k.val, by have := k.isLt; omega⟩ rfl

end Cert.KernelIdeal.EdgeValue

end
-- ==== Proof.EdgeValue.lean ====
/-
  The edge-message region's output array as a whole-array value, on the extended reals.

  The region runs over 200 points; point `t` reads rows `2000 t … 2000 t + 1999` of the five per-edge arrays (the two
  gathered node features, the radial basis values, the packed direction-and-cutoff quadruple, the gathered vector
  features) and the whole of the six resident ones (three slices of the message weights and their bias, the second
  layer's weights and bias), and writes the same rows of the output, 384 columns in three runs of 128.  For edge `e`,

    smsg e k' = (h_col e · Wm0 + h_row e · Wm1 + rbf e · Wm2) k' + bmsg k'
    vw e j    = (smsg e · Wvec) j + bvec j                                  (256 columns)
    out e (128 cc + k) = (vw e k · dir e cc + vw e (128 + k) · v_row e (128 cc + k)) · cutoff e     (cc < 3, k < 128)

  with every sum in the order the body forms it.  The proof reads each input block as rows of its array (the windows'
  index maps are decided once over the 200 points), reads the block the body leaves at an index through its three
  stores, and covers the array by the blocks: row `e` is in the block of point `e / 2000`, and every point writes back.
-/
import proofs.«161305_j25314537242668_2_alg».proof.Proof.Gen.KernelIdeal.Frame
import proofs.«161305_j25314537242668_2_alg».proof.Proof.EdgeValuePayload
import Idealize.ShloMosaic.Lib.ValueIdx
import Idealize.ShloMosaic.Lib.Pipeline.Value

set_option maxRecDepth 16384

noncomputable section

namespace Cert.KernelIdeal.EdgeValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

/-! ## The region's arrays as it finds them, each at its literal shape -/

/-- `h_col`: the gathered column-node features, one row per edge. -/
abbrev aHcol : S400000x128.Idx → EReal := V c main_v94
/-- `h_row`: the gathered row-node features. -/
abbrev aHrow : S400000x128.Idx → EReal := V c main_v101
/-- The radial basis values of each edge. -/
abbrev aRbf : S400000x50.Idx → EReal := V c main_arg4
/-- The packed per-edge quadruple: three direction components and a cutoff weight. -/
abbrev aDir : S400000x4.Idx → EReal := V c main_v111
/-- `v_row`: the gathered row-node vector features, three blocks of 128 columns. -/
abbrev aVrow : S400000x384.Idx → EReal := V c main_v109
/-- The message weights' slice applied to `h_col`, -/
abbrev aWm0 : S128x128.Idx → EReal := V c main_v112
/-- to `h_row`, -/
abbrev aWm1 : S128x128.Idx → EReal := V c main_v113
/-- and to the radial basis. -/
abbrev aWm2 : S50x128.Idx → EReal := V c main_v114
/-- The message bias. -/
abbrev aBmsg : S1x128.Idx → EReal := V c main_v115
/-- The second layer's weights -/
abbrev aWvec : S128x256.Idx → EReal := V c main_arg8
/-- and bias. -/
abbrev aBvec : S1x256.Idx → EReal := V c main_v116

/-- The scalar message of edge `e` at feature `k'`: the three products summed in the order the body adds them, plus the bias. -/
def smsg (e : Fin 400000) (k' : Fin 128) : EReal :=
  (((∑ a : Fin 128, aHcol V c (ix2 e a) * aWm0 V c (ix2 a k'))
      + (∑ a : Fin 128, aHrow V c (ix2 e a) * aWm1 V c (ix2 a k')))
      + (∑ a : Fin 50, aRbf V c (ix2 e a) * aWm2 V c (ix2 a k')))
    + aBmsg V c (ix2 (0 : Fin 1) k')

/-- The second layer at edge `e`, column `j` of 256: the scalar message times the weights, plus the bias. -/
def vw (e : Fin 400000) (j : Fin 256) : EReal :=
  (∑ k' : Fin 128, smsg V c e k' * aWvec V c (ix2 k' j)) + aBvec V c (ix2 (0 : Fin 1) j)

/-! ## The windows' index maps, decided once over the 200 points -/

/-- The row-blocked windows (the five per-edge inputs and the output) sit at block `(t, 0)` at point `t`; the six
    resident windows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## Each input block read as rows of its array

A block's element sits in the array, on each axis, at the block index times the block's extent plus its own coordinate:
the per-edge windows' block `t` is rows `2000 t … 2000 t + 1999`, a resident window's block is its whole array. -/

/-- Block `t` of `h_col`. -/
theorem iblk0_0_apply (t : Fin cfg0.N) (r : Fin 2000) (a : Fin 128) (e : Fin 400000) (he : e.val = 2000 * t.val + r.val) :
    iblk0 V c 0 t (ix2 r a) = aHcol V c (ix2 e a) := by
  have h := idx_facts t
  have h0 : win0_0.index t (0 : Fin 2) = t.val := by tauto
  have h1 : win0_0.index t (1 : Fin 2) = 0 := by tauto
  unfold iblk0
  rw [View.read_apply]
  show V c main_v94 _ = V c main_v94 _
  refine congrArg (V c main_v94) (funext fun ax => Fin.ext ?_)
  match ax with
  | ⟨0, _⟩ => show win0_0.index t (0 : Fin 2) * 2000 + 1 * r.val = e.val; rw [h0, he]; omega
  | ⟨1, _⟩ => show win0_0.index t (1 : Fin 2) * 128 + 1 * a.val = a.val; rw [h1]; omega

/-- Block `t` of `h_row`. -/
theorem iblk0_1_apply (t : Fin cfg0.N) (r : Fin 2000) (a : Fin 128) (e : Fin 400000) (he : e.val = 2000 * t.val + r.val) :
    iblk0 V c 1 t (ix2 r a) = aHrow V c (ix2 e a) := by
  have h := idx_facts t
  have h0 : win0_1.index t (0 : Fin 2) = t.val := by tauto
  have h1 : win0_1.index t (1 : Fin 2) = 0 := by tauto
  unfold iblk0
  rw [View.read_apply]
  show V c main_v101 _ = V c main_v101 _
  refine congrArg (V c main_v101) (funext fun ax => Fin.ext ?_)
  match ax with
  | ⟨0, _⟩ => show win0_1.index t (0 : Fin 2) * 2000 + 1 * r.val = e.val; rw [h0, he]; omega
  | ⟨1, _⟩ => show win0_1.index t (1 : Fin 2) * 128 + 1 * a.val = a.val; rw [h1]; omega

/-- Block `t` of the radial basis values. -/
theorem iblk0_2_apply (t : Fin cfg0.N) (r : Fin 2000) (a : Fin 50) (e : Fin 400000) (he : e.val = 2000 * t.val + r.val) :
    iblk0 V c 2 t (ix2 r a) = aRbf V c (ix2 e a) := by
  have h := idx_facts t
  have h0 : win0_2.index t (0 : Fin 2) = t.val := by tauto
  have h1 : win0_2.index t (1 : Fin 2) = 0 := by tauto
  unfold iblk0
  rw [View.read_apply]
  show V c main_arg4 _ = V c main_arg4 _
  refine congrArg (V c main_arg4) (funext fun ax => Fin.ext ?_)
  match ax with
  | ⟨0, _⟩ => show win0_2.index t (0 : Fin 2) * 2000 + 1 * r.val = e.val; rw [h0, he]; omega
  | ⟨1, _⟩ => show win0_2.index t (1 : Fin 2) * 50 + 1 * a.val = a.val; rw [h1]; omega

/-- Block `t` of the packed quadruples. -/
theorem iblk0_3_apply (t : Fin cfg0.N) (r : Fin 2000) (a : Fin 4) (e : Fin 400000) (he : e.val = 2000 * t.val + r.val) :
    iblk0 V c 3 t (ix2 r a) = aDir V c (ix2 e a) := by
  have h := idx_facts t
  have h0 : win0_3.index t (0 : Fin 2) = t.val := by tauto
  have h1 : win0_3.index t (1 : Fin 2) = 0 := by tauto
  unfold iblk0
  rw [View.read_apply]
  show V c main_v111 _ = V c main_v111 _
  refine congrArg (V c main_v111) (funext fun ax => Fin.ext ?_)
  match ax with
  | ⟨0, _⟩ => show win0_3.index t (0 : Fin 2) * 2000 + 1 * r.val = e.val; rw [h0, he]; omega
  | ⟨1, _⟩ => show win0_3.index t (1 : Fin 2) * 4 + 1 * a.val = a.val; rw [h1]; omega

/-- Block `t` of `v_row`. -/
theorem iblk0_4_apply (t : Fin cfg0.N) (r : Fin 2000) (a : Fin 384) (e : Fin 400000) (he : e.val = 2000 * t.val + r.val) :
    iblk0 V c 4 t (ix2 r a) = aVrow V c (ix2 e a) := by
  have h := idx_facts t
  have h0 : win0_4.index t (0 : Fin 2) = t.val := by tauto
  have h1 : win0_4.index t (1 : Fin 2) = 0 := by tauto
  unfold iblk0
  rw [View.read_apply]
  show V c main_v109 _ = V c main_v109 _
  refine congrArg (V c main_v109) (funext fun ax => Fin.ext ?_)
  match ax with
  | ⟨0, _⟩ => show win0_4.index t (0 : Fin 2) * 2000 + 1 * r.val = e.val; rw [h0, he]; omega
  | ⟨1, _⟩ => show win0_4.index t (1 : Fin 2) * 384 + 1 * a.val = a.val; rw [h1]; omega

/-- The resident weights applied to `h_col`. -/
theorem iblk0_5_apply (t : Fin cfg0.N) (a : Fin 128) (b : Fin 128) :
    iblk0 V c 5 t (ix2 a b) = aWm0 V c (ix2 a b) := by
  have h := idx_facts t
  have h0 : win0_5.index t (0 : Fin 2) = 0 := by tauto
  have h1 : win0_5.index t (1 : Fin 2) = 0 := by tauto
  unfold iblk0
  rw [View.read_apply]
  show V c main_v112 _ = V c main_v112 _
  refine congrArg (V c main_v112) (funext fun ax => Fin.ext ?_)
  match ax with
  | ⟨0, _⟩ => show win0_5.index t (0 : Fin 2) * 128 + 1 * a.val = a.val; rw [h0]; omega
  | ⟨1, _⟩ => show win0_5.index t (1 : Fin 2) * 128 + 1 * b.val = b.val; rw [h1]; omega

/-- The resident weights applied to `h_row`. -/
theorem iblk0_6_apply (t : Fin cfg0.N) (a : Fin 128) (b : Fin 128) :
    iblk0 V c 6 t (ix2 a b) = aWm1 V c (ix2 a b) := by
  have h := idx_facts t
  have h0 : win0_6.index t (0 : Fin 2) = 0 := by tauto
  have h1 : win0_6.index t (1 : Fin 2) = 0 := by tauto
  unfold iblk0
  rw [View.read_apply]
  show V c main_v113 _ = V c main_v113 _
  refine congrArg (V c main_v113) (funext fun ax => Fin.ext ?_)
  match ax with
  | ⟨0, _⟩ => show win0_6.index t (0 : Fin 2) * 128 + 1 * a.val = a.val; rw [h0]; omega
  | ⟨1, _⟩ => show win0_6.index t (1 : Fin 2) * 128 + 1 * b.val = b.val; rw [h1]; omega

/-- The resident weights applied to the radial basis. -/
theorem iblk0_7_apply (t : Fin cfg0.N) (a : Fin 50) (b : Fin 128) :
    iblk0 V c 7 t (ix2 a b) = aWm2 V c (ix2 a b) := by
  have h := idx_facts t
  have h0 : win0_7.index t (0 : Fin 2) = 0 := by tauto
  have h1 : win0_7.index t (1 : Fin 2) = 0 := by tauto
  unfold iblk0
  rw [View.read_apply]
  show V c main_v114 _ = V c main_v114 _
  refine congrArg (V c main_v114) (funext fun ax => Fin.ext ?_)
  match ax with
  | ⟨0, _⟩ => show win0_7.index t (0 : Fin 2) * 50 + 1 * a.val = a.val; rw [h0]; omega
  | ⟨1, _⟩ => show win0_7.index t (1 : Fin 2) * 128 + 1 * b.val = b.val; rw [h1]; omega

/-- The resident message bias. -/
theorem iblk0_8_apply (t : Fin cfg0.N) (a : Fin 1) (b : Fin 128) :
    iblk0 V c 8 t (ix2 a b) = aBmsg V c (ix2 a b) := by
  have h := idx_facts t
  have h0 : win0_8.index t (0 : Fin 2) = 0 := by tauto
  have h1 : win0_8.index t (1 : Fin 2) = 0 := by tauto
  unfold iblk0
  rw [View.read_apply]
  show V c main_v115 _ = V c main_v115 _
  refine congrArg (V c main_v115) (funext fun ax => Fin.ext ?_)
  match ax with
  | ⟨0, _⟩ => show win0_8.index t (0 : Fin 2) * 1 + 1 * a.val = a.val; rw [h0]; omega
  | ⟨1, _⟩ => show win0_8.index t (1 : Fin 2) * 128 + 1 * b.val = b.val; rw [h1]; omega

/-- The resident second-layer weights. -/
theorem iblk0_9_apply (t : Fin cfg0.N) (a : Fin 128) (b : Fin 256) :
    iblk0 V c 9 t (ix2 a b) = aWvec V c (ix2 a b) := by
  have h := idx_facts t
  have h0 : win0_9.index t (0 : Fin 2) = 0 := by tauto
  have h1 : win0_9.index t (1 : Fin 2) = 0 := by tauto
  unfold iblk0
  rw [View.read_apply]
  show V c main_arg8 _ = V c main_arg8 _
  refine congrArg (V c main_arg8) (funext fun ax => Fin.ext ?_)
  match ax with
  | ⟨0, _⟩ => show win0_9.index t (0 : Fin 2) * 128 + 1 * a.val = a.val; rw [h0]; omega
  | ⟨1, _⟩ => show win0_9.index t (1 : Fin 2) * 256 + 1 * b.val = b.val; rw [h1]; omega

/-- The resident second-layer bias. -/
theorem iblk0_10_apply (t : Fin cfg0.N) (a : Fin 1) (b : Fin 256) :
    iblk0 V c 10 t (ix2 a b) = aBvec V c (ix2 a b) := by
  have h := idx_facts t
  have h0 : win0_10.index t (0 : Fin 2) = 0 := by tauto
  have h1 : win0_10.index t (1 : Fin 2) = 0 := by tauto
  unfold iblk0
  rw [View.read_apply]
  show V c main_v116 _ = V c main_v116 _
  refine congrArg (V c main_v116) (funext fun ax => Fin.ext ?_)
  match ax with
  | ⟨0, _⟩ => show win0_10.index t (0 : Fin 2) * 1 + 1 * a.val = a.val; rw [h0]; omega
  | ⟨1, _⟩ => show win0_10.index t (1 : Fin 2) * 256 + 1 * b.val = b.val; rw [h1]; omega

/-! ## The block's second layer is the array's -/

/-- On the blocks at point `t`, row `r` of the block is edge `e = 2000 t + r`. -/
theorem vwB_eq (t : Fin cfg0.N) (r : Fin 2000) (e : Fin 400000) (he : e.val = 2000 * t.val + r.val) (j : Fin 256) :
    vwB (iblk0 V c 0 t) (iblk0 V c 1 t) (iblk0 V c 2 t) (iblk0 V c 5 t) (iblk0 V c 6 t) (iblk0 V c 7 t) (iblk0 V c 8 t)
        (iblk0 V c 9 t) (iblk0 V c 10 t) r j = vw V c e j := by
  unfold vwB vw
  refine congrArg₂ (· + ·) (Finset.sum_congr rfl fun k' _ => congrArg₂ (· * ·) ?_ (iblk0_9_apply V c t k' j))
    (iblk0_10_apply V c t 0 j)
  unfold smsgB smsg
  refine congrArg₂ (· + ·) (congrArg₂ (· + ·) (congrArg₂ (· + ·) ?_ ?_) ?_) (iblk0_8_apply V c t 0 k')
  · exact Finset.sum_congr rfl fun a _ => congrArg₂ (· * ·) (iblk0_0_apply V c t r a e he) (iblk0_5_apply V c t a k')
  · exact Finset.sum_congr rfl fun a _ => congrArg₂ (· * ·) (iblk0_1_apply V c t r a e he) (iblk0_6_apply V c t a k')
  · exact Finset.sum_congr rfl fun a _ => congrArg₂ (· * ·) (iblk0_2_apply V c t r a e he) (iblk0_7_apply V c t a k')

/-! ## The output block after the body, at an index

The body's three stores tile the block's 384 columns in three runs of 128; column `128 cc + k` lies in run `cc`
alone, and reads that store's value at `(r, k)`. -/

theorem hz : (![0, 0] : Fin 2 → Nat) = fun _ => 0 := funext fun a => by fin_cases a <;> rfl

section Block

variable (x0 x1 : FVec Ideal S2000x128 .bf16) (x2 : FVec Ideal S2000x50 .f32) (x3 : FVec Ideal S2000x4 .f32)
  (x4 : FVec Ideal S2000x384 .f32) (x5 x6 : FVec Ideal S128x128 .f32) (x7 : FVec Ideal S50x128 .f32)
  (x8 : FVec Ideal S1x128 .f32) (x9 : FVec Ideal S128x256 .f32) (x10 : FVec Ideal S1x256 .f32)

/-- A column outside a run of 128 columns is outside that store's rectangle. -/
theorem not_mem_run (o : Nat) (inb : ∀ a, (![0, o] : Fin 2 → Nat) a + S2000x128.size a ≤ S2000x384.size a)
    (r : Fin 2000) (q : Fin 384) (hq : q.val < o ∨ o + 128 ≤ q.val) :
    (ix2 r q : S2000x384.Idx) ∉ (Rect.unit (s := S2000x384) ![0, o] S2000x128.size inb).set := by
  rw [Rect.mem_set_unit]
  intro hm
  have h1 := hm 1
  have e1 : ((ix2 r q : S2000x384.Idx) 1).val = q.val := rfl
  have e2 : (![0, o] : Fin 2 → Nat) 1 = o := rfl
  have e3 : S2000x128.size 1 = 128 := rfl
  omega

/-- A column inside a run is the image of its offset in the run. -/
theorem emb_run (o : Nat) (inb : ∀ a, (![0, o] : Fin 2 → Nat) a + S2000x128.size a ≤ S2000x384.size a)
    (r : Fin 2000) (k : Fin 128) (q : Fin 384) (hq : q.val = o + k.val) :
    (Rect.unit (s := S2000x384) ![0, o] S2000x128.size inb).emb (ix2 r k) = (ix2 r q : S2000x384.Idx) :=
  funext fun ax => Fin.ext (by
    match ax with
    | ⟨0, _⟩ => show 0 + 1 * r.val = r.val; omega
    | ⟨1, _⟩ => show o + 1 * k.val = q.val; omega)

/-- A run of 128 columns stored last: a column of the run reads the stored value at its offset in the run; -/
theorem canon_run_in (o : Nat) (inb : ∀ a, (![0, o] : Fin 2 → Nat) a + S2000x128.size a ≤ S2000x384.size a)
    (p : FVec Ideal S2000x128 .f32) (L : List (View.Piece (Elt Ideal) S2000x384 .f32)) (r : Fin 2000) (k : Fin 128)
    (q : Fin 384) (hq : q.val = o + k.val) :
    View.canon ((⟨Rect.unit (s := S2000x384) ![0, o] S2000x128.size inb, p⟩ : View.Piece (Elt Ideal) S2000x384 .f32) :: L)
      (ix2 r q) = p (ix2 r k) :=
  (congrArg (View.canon ((⟨Rect.unit (s := S2000x384) ![0, o] S2000x128.size inb, p⟩ : View.Piece (Elt Ideal) S2000x384 .f32) :: L))
    (emb_run o inb r k q hq).symm).trans
    (View.canon_cons_emb (Val := Elt Ideal) (e := .f32) (Rect.unit (s := S2000x384) ![0, o] S2000x128.size inb) p L (ix2 r k))

/-- a column outside it reads what the earlier stores left. -/
theorem canon_run_out (o : Nat) (inb : ∀ a, (![0, o] : Fin 2 → Nat) a + S2000x128.size a ≤ S2000x384.size a)
    (p : FVec Ideal S2000x128 .f32) (L : List (View.Piece (Elt Ideal) S2000x384 .f32)) (r : Fin 2000)
    (q : Fin 384) (hq : q.val < o ∨ o + 128 ≤ q.val) :
    View.canon ((⟨Rect.unit (s := S2000x384) ![0, o] S2000x128.size inb, p⟩ : View.Piece (Elt Ideal) S2000x384 .f32) :: L)
      (ix2 r q) = View.canon L (ix2 r q) :=
  View.canon_cons_of_not_mem (Val := Elt Ideal) (e := .f32)
    (⟨Rect.unit (s := S2000x384) ![0, o] S2000x128.size inb, p⟩ : View.Piece (Elt Ideal) S2000x384 .f32) L (not_mem_run o inb r q hq)

/-- The block's row `r`, column `128 cc + k` after the body. -/
theorem out11_apply (r : Fin 2000) (cc : Fin 3) (k : Fin 128) :
    out0_11 (F := Ideal) x0 x1 x2 x3 x4 x5 x6 x7 x8 x9 x10
        (ix2 r (⟨128 * cc.val + k.val, by have := cc.isLt; have := k.isLt; omega⟩ : Fin 384))
      = (vwB x0 x1 x2 x5 x6 x7 x8 x9 x10 r ⟨k.val, by have := k.isLt; omega⟩
            * x3 (ix2 r (⟨cc.val, by have := cc.isLt; omega⟩ : Fin 4))
          + vwB x0 x1 x2 x5 x6 x7 x8 x9 x10 r ⟨128 + k.val, by have := k.isLt; omega⟩
            * x4 (ix2 r (⟨128 * cc.val + k.val, by have := cc.isLt; have := k.isLt; omega⟩ : Fin 384)))
        * x3 (ix2 r (3 : Fin 4)) := by
  unfold out0_11
  simp only [View.ld_unit_zero (S := S2000x128) hz, View.ld_unit_zero (S := S2000x50) hz,
    View.ld_unit_zero (S := S128x128) hz, View.ld_unit_zero (S := S50x128) hz, View.ld_unit_zero (S := S1x128) hz,
    View.ld_unit_zero (S := S128x256) hz, View.ld_unit_zero (S := S1x256) hz, View.ld_unit_zero (S := S2000x4) hz,
    View.ld_unit_zero (S := S2000x384) hz]
  have hk := k.isLt
  have h8 := pay8_apply x0 x1 x2 x5 x6 x7 x8 x9 x10 r k
  have h9 := pay9_apply x0 x1 x2 x5 x6 x7 x8 x9 x10 r k
  match cc with
  | ⟨0, _⟩ =>
    refine (canon_run_out 256 _ _ _ r _ (Or.inl (by show 128 * 0 + k.val < 256; omega))).trans ?_
    refine (canon_run_out 128 _ _ _ r _ (Or.inl (by show 128 * 0 + k.val < 128; omega))).trans ?_
    refine (canon_run_in 0 _ _ _ r k _ (by show 128 * 0 + k.val = 0 + k.val; omega)).trans ?_
    refine (pay4_apply _ _ x3 x4 r k).trans ?_
    rw [h8, h9]
    rfl
  | ⟨1, _⟩ =>
    refine (canon_run_out 256 _ _ _ r _ (Or.inl (by show 128 * 1 + k.val < 256; omega))).trans ?_
    refine (canon_run_in 128 _ _ _ r k _ (by show 128 * 1 + k.val = 128 + k.val; omega)).trans ?_
    refine (pay5_apply _ _ x3 x4 r k).trans ?_
    rw [h8, h9]
    rfl
  | ⟨2, _⟩ =>
    refine (canon_run_in 256 _ _ _ r k _ (by show 128 * 2 + k.val = 256 + k.val; omega)).trans ?_
    refine (pay6_apply _ _ x3 x4 r k).trans ?_
    rw [h8, h9]
    rfl

end Block

/-! ## The output array as one function of the region's arrays -/

/-- Entry `i = (e, q)` of the output array: column `q` lies in run `q / 128` at offset `q % 128`. -/
def G (i : S400000x384.Idx) : EReal :=
  (vw V c ⟨(i 0).val, idx2_lt0 i⟩ ⟨(i 1).val % 128, by omega⟩
        * aDir V c (ix2 (⟨(i 0).val, idx2_lt0 i⟩ : Fin 400000) (⟨(i 1).val / 128, by have := idx2_lt1 i; omega⟩ : Fin 4))
      + vw V c ⟨(i 0).val, idx2_lt0 i⟩ ⟨128 + (i 1).val % 128, by omega⟩
        * aVrow V c (ix2 (⟨(i 0).val, idx2_lt0 i⟩ : Fin 400000) (⟨(i 1).val, idx2_lt1 i⟩ : Fin 384)))
    * aDir V c (ix2 (⟨(i 0).val, idx2_lt0 i⟩ : Fin 400000) (3 : Fin 4))

/-- `G` at an index whose row is edge `e` and whose column is `128 cc + k`. -/
theorem G_eq (i : S400000x384.Idx) (e : Fin 400000) (cc : Fin 3) (k : Fin 128) (he : (i 0).val = e.val)
    (hq : (i 1).val = 128 * cc.val + k.val) :
    G V c i
      = (vw V c e ⟨k.val, by have := k.isLt; omega⟩ * aDir V c (ix2 e (⟨cc.val, by have := cc.isLt; omega⟩ : Fin 4))
          + vw V c e ⟨128 + k.val, by have := k.isLt; omega⟩
            * aVrow V c (ix2 e (⟨128 * cc.val + k.val, by have := cc.isLt; have := k.isLt; omega⟩ : Fin 384)))
        * aDir V c (ix2 e (3 : Fin 4)) := by
  have hc := cc.isLt
  have hk := k.isLt
  have E : (⟨(i 0).val, idx2_lt0 i⟩ : Fin 400000) = e := Fin.ext he
  have K : (⟨(i 1).val % 128, by omega⟩ : Fin 256) = ⟨k.val, by omega⟩ :=
    Fin.ext (by show (i 1).val % 128 = k.val; omega)
  have K2 : (⟨128 + (i 1).val % 128, by omega⟩ : Fin 256) = ⟨128 + k.val, by omega⟩ :=
    Fin.ext (by show 128 + (i 1).val % 128 = 128 + k.val; omega)
  have C : (⟨(i 1).val / 128, by have := idx2_lt1 i; omega⟩ : Fin 4) = ⟨cc.val, by omega⟩ :=
    Fin.ext (by show (i 1).val / 128 = cc.val; omega)
  have Q : (⟨(i 1).val, idx2_lt1 i⟩ : Fin 384) = ⟨128 * cc.val + k.val, by omega⟩ := Fin.ext hq
  unfold G
  rw [E, K, K2, C, Q]

/-- Every index of a block of 2000 × 384 is a row and a column `128 cc + k`. -/
theorem split_col (y : S2000x384.Idx) : ∃ (r : Fin 2000) (cc : Fin 3) (k : Fin 128),
    y = ix2 r (⟨128 * cc.val + k.val, by have := cc.isLt; have := k.isLt; omega⟩ : Fin 384) :=
  ⟨⟨(y 0).val, idx2_lt0 y⟩, ⟨(y 1).val / 128, by have := idx2_lt1 y; omega⟩, ⟨(y 1).val % 128, by omega⟩,
    funext fun ax => Fin.ext (by
      match ax with
      | ⟨0, _⟩ => rfl
      | ⟨1, _⟩ => show (y 1).val = 128 * ((y 1).val / 128) + (y 1).val % 128; omega)⟩

/-- What point `t` writes back is block `t` of `G`. -/
theorem flushed11_eq (t : Fin cfg0.N) :
    (dat0 (F := Ideal) V c).flushed 11 t = ((cfg0.win 11).blk t).view.read (Elt Ideal) (G V c) := by
  have hN : cfg0.N = 200 := N_0
  have ht := t.isLt
  have h := idx_facts t
  have h0 : win0_11.index t (0 : Fin 2) = t.val := by tauto
  have h1 : win0_11.index t (1 : Fin 2) = 0 := by tauto
  show (cfg0.win 11).cut (grid0.coords t) ((dat0 V c).after 11 t) = _
  rw [after0_11]
  funext y
  obtain ⟨r, cc, k, rfl⟩ := split_col y
  have hr := r.isLt
  have hc := cc.isLt
  have hk := k.isLt
  obtain ⟨e, he⟩ : ∃ e : Fin 400000, e.val = 2000 * t.val + r.val := ⟨⟨2000 * t.val + r.val, by omega⟩, rfl⟩
  show out0_11 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t)
      (ix2 r (⟨128 * cc.val + k.val, by omega⟩ : Fin 384))
    = G V c (((cfg0.win 11).blk t).view.emb (ix2 r (⟨128 * cc.val + k.val, by omega⟩ : Fin 384)))
  refine (out11_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) r cc k).trans ?_
  refine Eq.trans (congrArg₂ (· * ·) (congrArg₂ (· + ·)
      (congrArg₂ (· * ·) (vwB_eq V c t r e he _) (iblk0_3_apply V c t r _ e he))
      (congrArg₂ (· * ·) (vwB_eq V c t r e he _) (iblk0_4_apply V c t r _ e he)))
      (iblk0_3_apply V c t r 3 e he)) (G_eq V c _ e cc k ?_ ?_).symm
  · show win0_11.index t (0 : Fin 2) * 2000 + 1 * r.val = e.val
    rw [h0, he]; omega
  · show win0_11.index t (1 : Fin 2) * 384 + 1 * (128 * cc.val + k.val) = 128 * cc.val + k.val
    rw [h1]; omega

/-- An index of the output array is in point `t`'s block iff each coordinate is in the block's range on its axis. -/
theorem mem_blk11 (t : Fin cfg0.N) (i : S400000x384.Idx) :
    i ∈ ((cfg0.win 11).blk t).view.set ↔ ∀ a : Fin 2, win0_11.index t a * S2000x384.size a ≤ (i a).val
      ∧ (i a).val < win0_11.index t a * S2000x384.size a + S2000x384.size a := by
  show i ∈ ((View.whole main_v117).slice (win0_11.rect t)).set ↔ _
  rw [View.set_slice_whole, Rect.mem_set_unit]
  exact Iff.rfl

/-- Row `e` is in the block of point `e / 2000`, and every point writes back: the blocks cover the array. -/
theorem cover11 (i : S400000x384.Idx) :
    ∃ t : Fin cfg0.N, (cfg0.win 11).flush t = true ∧ i ∈ ((cfg0.win 11).blk t).view.set := by
  have hN : cfg0.N = 200 := N_0
  have hi0 := idx2_lt0 i
  have hi1 := idx2_lt1 i
  obtain ⟨t, ht⟩ : ∃ t : Fin cfg0.N, t.val = (i 0).val / 2000 := ⟨⟨(i 0).val / 2000, by omega⟩, rfl⟩
  have h := idx_facts t
  have h0 : win0_11.index t (0 : Fin 2) = t.val := by tauto
  have h1 : win0_11.index t (1 : Fin 2) = 0 := by tauto
  refine ⟨t, flush0_11 t, ?_⟩
  rw [mem_blk11]
  intro a
  match a with
  | ⟨0, _⟩ =>
    show win0_11.index t (0 : Fin 2) * 2000 ≤ (i 0).val ∧ (i 0).val < win0_11.index t (0 : Fin 2) * 2000 + 2000
    rw [h0, ht]; omega
  | ⟨1, _⟩ =>
    show win0_11.index t (1 : Fin 2) * 384 ≤ (i 1).val ∧ (i 1).val < win0_11.index t (1 : Fin 2) * 384 + 384
    rw [h1]; omega

/-- The output array after the region is `G` of the arrays the region found. -/
theorem final11 : ((dat0 (F := Ideal) V c).arrAt 11 cfg0.N : S400000x384.Idx → EReal) = G V c :=
  (dat0 (F := Ideal) V c).arrAt_eq_of_cover 11 (G V c) (fun t _ => flushed11_eq V c t) (cover11)

theorem final11_apply (e : Fin 400000) (cc : Fin 3) (k : Fin 128) :
    ((dat0 (F := Ideal) V c).arrAt 11 cfg0.N : S400000x384.Idx → EReal)
        (ix2 e (⟨128 * cc.val + k.val, by have := cc.isLt; have := k.isLt; omega⟩ : Fin 384))
      = (vw V c e ⟨k.val, by have := k.isLt; omega⟩ * aDir V c (ix2 e (⟨cc.val, by have := cc.isLt; omega⟩ : Fin 4))
          + vw V c e ⟨128 + k.val, by have := k.isLt; omega⟩
            * aVrow V c (ix2 e (⟨128 * cc.val + k.val, by have := cc.isLt; have := k.isLt; omega⟩ : Fin 384)))
        * aDir V c (ix2 e (3 : Fin 4)) :=
  (congrFun (final11 V c) _).trans (G_eq V c _ e cc k rfl rfl)

end Cert.KernelIdeal.EdgeValue

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.RefEdge.lean ====
/-
  The reference's message of an edge e, component cc, feature k, read at an entry.  The scalar message is the joined
  row [h(target e), h(source e), rbf(e)] times the message weights plus a bias; over the 306 joined columns the product
  is the sum over the first 128, plus the sum over the next 128, plus the sum over the last 50.  The vector weights
  are the scalar message times the second weights plus a bias; their two halves multiply the edge's unit direction and
  the source node's vector feature; the sum is scaled by the edge's cutoff weight.
-/
import proofs.«161305_j25314537242668_2_alg».proof.Proof.Gen.ReferenceIdeal.Read
import proofs.«161305_j25314537242668_2_alg».proof.Proof.LibConcatCols
import Idealize.ShloMosaic.Lib.ValueIdx

set_option maxRecDepth 16384

noncomputable section

namespace Cert.ReferenceIdeal.RefAt

open Cert.ReferenceIdeal Cert.ReferenceIdeal.Gen Cert.ReferenceIdeal.Read
open Idealize.ShloMosaic Idealize.ShloMosaic.ValueIdx

variable (x0 : (⟨S25000x128, .f32⟩ : BufTy).Contents (Elt Ideal)) (x1 : (⟨S25000x3x128, .f32⟩ : BufTy).Contents (Elt Ideal)) (x3 : (⟨S25000x3, .f32⟩ : BufTy).Contents (Elt Ideal)) (x4 : (⟨S400000x50, .f32⟩ : BufTy).Contents (Elt Ideal)) (x5 : (⟨S2x400000, .i32⟩ : BufTy).Contents (Elt Ideal)) (x6 : (⟨S306x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal))

/-- The scalar message of edge e at feature k'. -/
def smsgR (e : Fin 400000) (k' : Fin 128) : EReal :=
  (((∑ a : Fin 128, val_main_v95 (F := Ideal) x0 x5 (ix2 e a) * x6 (ix2 (⟨a.val, by have := a.isLt; omega⟩ : Fin 306) k'))
    + (∑ a : Fin 128, val_main_v102 (F := Ideal) x0 x5 (ix2 e a) * x6 (ix2 (⟨128 + a.val, by have := a.isLt; omega⟩ : Fin 306) k')))
    + (∑ a : Fin 50, x4 (ix2 e a) * x6 (ix2 (⟨256 + a.val, by have := a.isLt; omega⟩ : Fin 306) k')))
    + x7 (ix1 k')

/-- The vector weight of edge e at column j of 256. -/
def vwR (e : Fin 400000) (j : Fin 256) : EReal :=
  (∑ k' : Fin 128, smsgR x0 x4 x5 x6 x7 e k' * x8 (ix2 k' j)) + x9 (ix1 j)

/-- The joined row at one of its first 128 columns. -/
theorem joined_left (e : Fin 400000) (a : Fin 128) :
    val_main_v103 (F := Ideal) x0 x4 x5 (ix2 e (⟨a.val, by have := a.isLt; omega⟩ : Fin 306)) = val_main_v95 (F := Ideal) x0 x5 (ix2 e a) := by
  unfold val_main_v103
  have h := Cert.Lib.concat_cols_apply (R := 400000) (C := 306)
    [⟨S400000x128, val_main_v95 (F := Ideal) x0 x5⟩, ⟨S400000x128, val_main_v102 (F := Ideal) x0 x5⟩, ⟨S400000x50, x4⟩]
    concatenates_S400000x128_S400000x128_S400000x50_S400000x306_d1 0 (by show (0 : ℕ) < 3; omega) (val_main_v95 (F := Ideal) x0 x5) rfl 0 rfl e a
    (by have := a.isLt; omega)
  simpa only [Nat.zero_add] using h

/-- The joined row at one of its middle 128 columns. -/
theorem joined_mid (e : Fin 400000) (a : Fin 128) :
    val_main_v103 (F := Ideal) x0 x4 x5 (ix2 e (⟨128 + a.val, by have := a.isLt; omega⟩ : Fin 306)) = val_main_v102 (F := Ideal) x0 x5 (ix2 e a) :=
  Cert.Lib.concat_cols_apply (R := 400000) (C := 306)
    [⟨S400000x128, val_main_v95 (F := Ideal) x0 x5⟩, ⟨S400000x128, val_main_v102 (F := Ideal) x0 x5⟩, ⟨S400000x50, x4⟩]
    concatenates_S400000x128_S400000x128_S400000x50_S400000x306_d1 1 (by show (1 : ℕ) < 3; omega) (val_main_v102 (F := Ideal) x0 x5) rfl 128 rfl e a
    (by have := a.isLt; omega)

/-- The joined row at one of its last 50 columns. -/
theorem joined_right (e : Fin 400000) (a : Fin 50) :
    val_main_v103 (F := Ideal) x0 x4 x5 (ix2 e (⟨256 + a.val, by have := a.isLt; omega⟩ : Fin 306)) = x4 (ix2 e a) :=
  Cert.Lib.concat_cols_apply (R := 400000) (C := 306)
    [⟨S400000x128, val_main_v95 (F := Ideal) x0 x5⟩, ⟨S400000x128, val_main_v102 (F := Ideal) x0 x5⟩, ⟨S400000x50, x4⟩]
    concatenates_S400000x128_S400000x128_S400000x50_S400000x306_d1 2 (by show (2 : ℕ) < 3; omega) x4 rfl 256 rfl e a
    (by have := a.isLt; omega)

/-- The scalar message read off the reference's stages. -/
theorem smsg_at (e : Fin 400000) (k' : Fin 128) :
    val_main_v107 (F := Ideal) x0 x4 x5 x6 x7 (ix2 e k') = smsgR x0 x4 x5 x6 x7 e k' := by
  have el : ∀ a : Fin 306, lidx_main_v104 (ix2 e k') a = ix2 e a := fun a =>
    funext fun d => Fin.ext (by match d with | ⟨0, _⟩ => rfl | ⟨1, _⟩ => rfl)
  have er : ∀ a : Fin 306, ridx_main_v104 (ix2 e k') a = ix2 a k' := fun a =>
    funext fun d => Fin.ext (by match d with | ⟨0, _⟩ => rfl | ⟨1, _⟩ => rfl)
  have eb : idx_main_v105 (idx_main_v106 (ix2 e k')) = ix1 k' :=
    funext fun d => Fin.ext (by match d with | ⟨0, _⟩ => rfl)
  rw [val_main_v107_apply, val_main_v104_apply, val_main_v106_apply, val_main_v105_apply]
  simp only [el, er, eb, Ideal.addf_def]
  rw [Cert.Lib.sum_fin_add (a := 256) (b := 50) (n := 306) rfl, Cert.Lib.sum_fin_add (a := 128) (b := 128) (n := 256) rfl]
  unfold smsgR
  simp only [joined_left, joined_mid, joined_right]

/-- The vector weights read off the reference's stages. -/
theorem vw_at (e : Fin 400000) (j : Fin 256) :
    val_main_v111 (F := Ideal) x0 x4 x5 x6 x7 x8 x9 (ix2 e j) = vwR x0 x4 x5 x6 x7 x8 x9 e j := by
  have el : ∀ a : Fin 128, lidx_main_v108 (ix2 e j) a = ix2 e a := fun a =>
    funext fun d => Fin.ext (by match d with | ⟨0, _⟩ => rfl | ⟨1, _⟩ => rfl)
  have er : ∀ a : Fin 128, ridx_main_v108 (ix2 e j) a = ix2 a j := fun a =>
    funext fun d => Fin.ext (by match d with | ⟨0, _⟩ => rfl | ⟨1, _⟩ => rfl)
  have eb : idx_main_v109 (idx_main_v110 (ix2 e j)) = ix1 j :=
    funext fun d => Fin.ext (by match d with | ⟨0, _⟩ => rfl)
  rw [val_main_v111_apply, val_main_v108_apply, val_main_v110_apply, val_main_v109_apply]
  simp only [el, er, eb, Ideal.addf_def, smsg_at]
  rfl

/-- The message of edge e, component cc, feature k. -/
theorem edge_msg_at (e : Fin 400000) (cc : Fin 3) (k : Fin 128) :
    val_main_v132 (F := Ideal) x0 x1 x3 x4 x5 x6 x7 x8 x9 (ix3 e cc k)
      = (vwR x0 x4 x5 x6 x7 x8 x9 e (⟨k.val, by have := k.isLt; omega⟩ : Fin 256) * val_main_v23 (F := Ideal) x3 x5 (ix2 e cc)
          + vwR x0 x4 x5 x6 x7 x8 x9 e (⟨128 + k.val, by have := k.isLt; omega⟩ : Fin 256) * val_main_v126 (F := Ideal) x1 x5 (ix3 e cc k))
        * val_main_v88 (F := Ideal) x3 x5 (ix1 e) := by
  have e1 : idx_main_v112 (idx_main_v114 (idx_main_v116 (ix3 e cc k))) = ix2 e (⟨k.val, by have := k.isLt; omega⟩ : Fin 256) :=
    funext fun d => Fin.ext (by match d with | ⟨0, _⟩ => rfl | ⟨1, _⟩ => rfl)
  have e2 : idx_main_v115 (idx_main_v117 (ix3 e cc k)) = ix2 e cc :=
    funext fun d => Fin.ext (by match d with | ⟨0, _⟩ => rfl | ⟨1, _⟩ => rfl)
  have e3 : idx_main_v113 (idx_main_v119 (idx_main_v127 (ix3 e cc k))) = ix2 e (⟨128 + k.val, by have := k.isLt; omega⟩ : Fin 256) :=
    funext fun d => Fin.ext (by match d with | ⟨0, _⟩ => rfl | ⟨1, _⟩ => rfl)
  have e4 : idx_main_v130 (idx_main_v131 (ix3 e cc k)) = ix1 e :=
    funext fun d => Fin.ext (by match d with | ⟨0, _⟩ => rfl)
  rw [val_main_v132_apply, val_main_v129_apply, val_main_v118_apply, val_main_v116_apply, val_main_v114_apply,
    val_main_v112_apply, val_main_v117_apply, val_main_v115_apply, val_main_v128_apply, val_main_v127_apply,
    val_main_v119_apply, val_main_v113_apply, val_main_v131_apply, val_main_v130_apply]
  simp only [e1, e2, e3, e4, vw_at, Ideal.addf_def, Ideal.mulf_def]

end Cert.ReferenceIdeal.RefAt
end
-- ==== Proof.HostVals2.lean ====
/-
  The operands of the edge-message region that are gathered rows, slices of the weights, or reshaped biases, as the
  host operations before the region leave them: the node features rounded to the narrow format and looked up at the
  two index columns, the flattened vector features looked up at the source column, the three row blocks of the message
  weights, and the two biases laid out as one-row matrices.
-/
import proofs.«161305_j25314537242668_2_alg».proof.Proof.Gen.KernelIdeal.Frame
import proofs.«161305_j25314537242668_2_alg».proof.Proof.Gen.ReferenceIdeal.Read

set_option maxRecDepth 16384

noncomputable section

namespace Cert.KernelIdeal.HostVals2

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000

/-- Node features at the target column of the edge index (rounded to the narrow format first). -/
theorem W3_v94 (c : Dev nD) : W3 m ρ c (Proc.devRef .tc main_v94)
    = Host.gather gather_S25000x128_S400000x1_S400000x128_1_0_n_n_0_1_1128 (truncf .bf16 (m ((c.tc : Thread nD τ).loc main_arg0)) bitsLt_bf16_f32)
        (Cert.ReferenceIdeal.Read.val_main_v94 (F := F) (m ((c.tc : Thread nD τ).loc main_arg5))) := by
  show StableHlo.after hostOps0_2 (StableHlo.after hostOps0_1 (StableHlo.after hostOps0 (W0 m ρ c))) (Proc.devRef .tc main_v94) = _
  after_results_simp <;> rfl

/-- Node features at the source column of the edge index (rounded to the narrow format first). -/
theorem W3_v101 (c : Dev nD) : W3 m ρ c (Proc.devRef .tc main_v101)
    = Host.gather gather_S25000x128_S400000x1_S400000x128_1_0_n_n_0_1_1128 (truncf .bf16 (m ((c.tc : Thread nD τ).loc main_arg0)) bitsLt_bf16_f32)
        (Cert.ReferenceIdeal.Read.val_main_v101 (F := F) (m ((c.tc : Thread nD τ).loc main_arg5))) := by
  show StableHlo.after hostOps0_2 (StableHlo.after hostOps0_1 (StableHlo.after hostOps0 (W0 m ρ c))) (Proc.devRef .tc main_v101) = _
  after_results_simp <;> rfl

/-- The flattened vector features at the source column of the edge index. -/
theorem W3_v109 (c : Dev nD) : W3 m ρ c (Proc.devRef .tc main_v109)
    = Host.gather gather_S25000x384_S400000x1_S400000x384_1_0_n_n_0_1_1384 (shapeCast S25000x384 (m ((c.tc : Thread nD τ).loc main_arg1)) shapeCasts_S25000x3x128_S25000x384)
        (Cert.ReferenceIdeal.Read.val_main_v125 (F := F) (m ((c.tc : Thread nD τ).loc main_arg5))) := by
  show StableHlo.after hostOps0_2 (StableHlo.after hostOps0_1 (StableHlo.after hostOps0 (W0 m ρ c))) (Proc.devRef .tc main_v109) = _
  after_results_simp <;> rfl

theorem W3_arg4 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp <;> rfl

theorem W3_arg8 (c : Dev nD) : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results_simp <;> rfl

theorem W3_arg1 (c : Dev nD) : W3 m ρ c (Proc.devRef .tc main_arg1) = (m ((c.tc : Thread nD τ).loc main_arg1)) := by
  show StableHlo.after hostOps0_2 (StableHlo.after hostOps0_1 (StableHlo.after hostOps0 (W0 m ρ c))) (Proc.devRef .tc main_arg1) = _
  after_results_simp <;> rfl

/-- Rows 0 … 127 of the message weights. -/
theorem W3_v112 (c : Dev nD) : W3 m ρ c (Proc.devRef .tc main_v112)
    = extractStridedSlice S128x128 ![0, 0] (m ((c.tc : Thread nD τ).loc main_arg6)) slices_S306x128_S128x128_0_0 := by
  show StableHlo.after hostOps0_2 (StableHlo.after hostOps0_1 (StableHlo.after hostOps0 (W0 m ρ c))) (Proc.devRef .tc main_v112) = _
  after_results_simp <;> rfl

/-- Rows 128 … 255 of the message weights. -/
theorem W3_v113 (c : Dev nD) : W3 m ρ c (Proc.devRef .tc main_v113)
    = extractStridedSlice S128x128 ![128, 0] (m ((c.tc : Thread nD τ).loc main_arg6)) slices_S306x128_S128x128_128_0 := by
  show StableHlo.after hostOps0_2 (StableHlo.after hostOps0_1 (StableHlo.after hostOps0 (W0 m ρ c))) (Proc.devRef .tc main_v113) = _
  after_results_simp <;> rfl

/-- Rows 256 … 305 of the message weights. -/
theorem W3_v114 (c : Dev nD) : W3 m ρ c (Proc.devRef .tc main_v114)
    = extractStridedSlice S50x128 ![256, 0] (m ((c.tc : Thread nD τ).loc main_arg6)) slices_S306x128_S50x128_256_0 := by
  show StableHlo.after hostOps0_2 (StableHlo.after hostOps0_1 (StableHlo.after hostOps0 (W0 m ρ c))) (Proc.devRef .tc main_v114) = _
  after_results_simp <;> rfl

theorem W3_v115 (c : Dev nD) : W3 m ρ c (Proc.devRef .tc main_v115)
    = shapeCast S1x128 (m ((c.tc : Thread nD τ).loc main_arg7)) shapeCasts_S128_S1x128 := by
  show StableHlo.after hostOps0_2 (StableHlo.after hostOps0_1 (StableHlo.after hostOps0 (W0 m ρ c))) (Proc.devRef .tc main_v115) = _
  after_results_simp <;> rfl

theorem W3_v116 (c : Dev nD) : W3 m ρ c (Proc.devRef .tc main_v116)
    = shapeCast S1x256 (m ((c.tc : Thread nD τ).loc main_arg9)) shapeCasts_S256_S1x256 := by
  show StableHlo.after hostOps0_2 (StableHlo.after hostOps0_1 (StableHlo.after hostOps0 (W0 m ρ c))) (Proc.devRef .tc main_v116) = _
  after_results_simp <;> rfl

end Cert.KernelIdeal.HostVals2
end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.OperandReads.lean ====
/-
  The host-side operand layouts of the idealized kernel, read at an entry.

  Before its regions the kernel's host program lays its operands out: node features are narrowed to a 16-bit format
  before their rows are looked up (on extended reals a change of format is the identity, so the lookup is the plain one);
  the message weights `[306, 128]` are cut into three row blocks (rows `0…127`, `128…255`, `256…305`); bias vectors
  become one-row matrices; the edge directions `[400000, 3]` and the cutoff values `[400000]` are packed side by side into
  `[400000, 4]`; the column sums of a `[128, 128]` matrix are laid as one row; accumulators start as zeros. Each fact
  below says what one such array holds at one entry.
-/
import proofs.«161305_j25314537242668_2_alg».proof.KernelIdeal
import proofs.«161305_j25314537242668_2_alg».proof.ReferenceIdeal
import proofs.«161305_j25314537242668_2_alg».proof.Proof.LibEdgeRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.OperandReads

open Idealize.ShloMosaic Idealize.ShloMosaic.ValueIdx

variable [Cert.KernelIdeal.Facts₀] [Cert.ReferenceIdeal.Facts₀]

/-! ## (1) The lookup of narrowed rows is the plain lookup -/

/-- The kernel's `[25000, 128]` row lookup record is the generic row lookup. -/
theorem kernel_take128 :
    Cert.KernelIdeal.gather_S25000x128_S400000x1_S400000x128_1_0_n_n_0_1_1128
      = Cert.Lib.rowsTake 25000 128 400000
          Cert.KernelIdeal.Facts₀.gather_S25000x128_S400000x1_S400000x128_1_0_n_n_0_1_1128_wf := rfl

/-- The reference's `[25000, 128]` row lookup record is the generic row lookup. -/
theorem reference_take128 :
    Cert.ReferenceIdeal.gather_S25000x128_S400000x1_S400000x128_1_0_n_n_0_1_1128
      = Cert.Lib.rowsTake 25000 128 400000
          Cert.ReferenceIdeal.Facts₀.gather_S25000x128_S400000x1_S400000x128_1_0_n_n_0_1_1128_wf := rfl

/-- Rows of the narrowed features looked up are the rows of the features looked up: on extended reals narrowing is the
    identity entry by entry, and both lookups read the row `idx(e, 0)`, signed and clamped into `[0, 24999]`. -/
theorem gather_trunc
    (x0 : (⟨Cert.KernelIdeal.S25000x128, .f32⟩ : BufTy).Contents (Elt Ideal))
    (idx : (⟨Cert.KernelIdeal.S400000x1, .i32⟩ : BufTy).Contents (Elt Ideal))
    (e : Fin 400000) (a : Fin 128) :
    Host.gather Cert.KernelIdeal.gather_S25000x128_S400000x1_S400000x128_1_0_n_n_0_1_1128
        (truncf (F := Ideal) (φ := .f32) .bf16 x0 Cert.KernelIdeal.Facts₀.bitsLt_bf16_f32) idx (ix2 e a)
      = Host.gather Cert.ReferenceIdeal.gather_S25000x128_S400000x1_S400000x128_1_0_n_n_0_1_1128 x0 idx (ix2 e a) := by
  rw [kernel_take128, reference_take128]
  refine (Cert.Lib.gather_rowsTake_apply (by omega) _ _ idx e a).trans ?_
  exact (Cert.Lib.gather_rowsTake_apply (by omega) _ x0 idx e a).symm

/-- The same lookup read at `(e, a)`: the features at row `idx(e, 0)`, signed and clamped into `[0, 24999]`. -/
theorem gather_trunc_apply
    (x0 : (⟨Cert.KernelIdeal.S25000x128, .f32⟩ : BufTy).Contents (Elt Ideal))
    (idx : (⟨Cert.KernelIdeal.S400000x1, .i32⟩ : BufTy).Contents (Elt Ideal))
    (e : Fin 400000) (a : Fin 128) :
    Host.gather Cert.KernelIdeal.gather_S25000x128_S400000x1_S400000x128_1_0_n_n_0_1_1128
        (truncf (F := Ideal) (φ := .f32) .bf16 x0 Cert.KernelIdeal.Facts₀.bitsLt_bf16_f32) idx (ix2 e a)
      = x0 (ix2 (⟨min (idx (ix2 e (0 : Fin 1))).toInt.toNat (25000 - 1), by omega⟩ : Fin 25000) a) := by
  rw [kernel_take128]
  exact Cert.Lib.gather_rowsTake_apply (by omega) _ _ idx e a

/-! ## (2) The three row blocks of the message weights -/

/-- Rows `0 … 127`. -/
theorem slice_rows_0 (x6 : (⟨Cert.KernelIdeal.S306x128, .f32⟩ : BufTy).Contents (Elt Ideal)) (a : Fin 128) (k' : Fin 128) :
    extractStridedSlice Cert.KernelIdeal.S128x128 ![0, 0] x6 Cert.KernelIdeal.Facts₀.slices_S306x128_S128x128_0_0 (ix2 a k')
      = x6 (ix2 (⟨a.val, by omega⟩ : Fin 306) k') :=
  extractStridedSlice_apply _ x6 _ _ _ (fun b => match b with
    | ⟨0, _⟩ => by show a.val = 0 + a.val; omega
    | ⟨1, _⟩ => by show k'.val = 0 + k'.val; omega)

/-- Rows `128 … 255`. -/
theorem slice_rows_128 (x6 : (⟨Cert.KernelIdeal.S306x128, .f32⟩ : BufTy).Contents (Elt Ideal)) (a : Fin 128) (k' : Fin 128) :
    extractStridedSlice Cert.KernelIdeal.S128x128 ![128, 0] x6 Cert.KernelIdeal.Facts₀.slices_S306x128_S128x128_128_0 (ix2 a k')
      = x6 (ix2 (⟨128 + a.val, by omega⟩ : Fin 306) k') :=
  extractStridedSlice_apply _ x6 _ _ _ (fun b => match b with
    | ⟨0, _⟩ => rfl
    | ⟨1, _⟩ => by show k'.val = 0 + k'.val; omega)

/-- Rows `256 … 305`. -/
theorem slice_rows_256 (x6 : (⟨Cert.KernelIdeal.S306x128, .f32⟩ : BufTy).Contents (Elt Ideal)) (a : Fin 50) (k' : Fin 128) :
    extractStridedSlice Cert.KernelIdeal.S50x128 ![256, 0] x6 Cert.KernelIdeal.Facts₀.slices_S306x128_S50x128_256_0 (ix2 a k')
      = x6 (ix2 (⟨256 + a.val, by omega⟩ : Fin 306) k') :=
  extractStridedSlice_apply _ x6 _ _ _ (fun b => match b with
    | ⟨0, _⟩ => rfl
    | ⟨1, _⟩ => by show k'.val = 0 + k'.val; omega)

/-! ## (3) Bias vectors as one-row matrices -/

/-- A `[128]` vector reshaped to `[1, 128]`. -/
theorem row_128 (x7 : (⟨Cert.KernelIdeal.S128, .f32⟩ : BufTy).Contents (Elt Ideal)) (k' : Fin 128) :
    shapeCast Cert.KernelIdeal.S1x128 x7 Cert.KernelIdeal.Facts₀.shapeCasts_S128_S1x128 (ix2 (0 : Fin 1) k') = x7 (ix1 k') :=
  shapeCast_a_1a_apply x7 _ 0 k'

/-- A `[256]` vector reshaped to `[1, 256]`. -/
theorem row_256 (x9 : (⟨Cert.KernelIdeal.S256, .f32⟩ : BufTy).Contents (Elt Ideal)) (j : Fin 256) :
    shapeCast Cert.KernelIdeal.S1x256 x9 Cert.KernelIdeal.Facts₀.shapeCasts_S256_S1x256 (ix2 (0 : Fin 1) j) = x9 (ix1 j) :=
  shapeCast_a_1a_apply x9 _ 0 j

/-! ## (6) A vector spread as a column, and the zero accumulators -/

/-- A `[400000]` vector spread to a `[400000, 1]` column. -/
theorem column_apply {α : Type} (w : Cert.KernelIdeal.S400000.Idx → α) (e : Fin 400000) :
    broadcastInDim Cert.KernelIdeal.S400000x1 ![0] Cert.KernelIdeal.Facts₀.bcast_S400000_S400000x1_0 w (ix2 e (0 : Fin 1))
      = w (ix1 e) :=
  broadcastInDim_apply _ _ w _ (ix1 e) (fun b => match b with
    | ⟨0, _⟩ => by show e.val = if (400000 : Nat) = 1 then 0 else e.val; rw [if_neg (by decide)])

/-- The kernel's flat accumulator starts as zeros. -/
theorem zeros_flat (i : Cert.KernelIdeal.S25000x384.Idx) :
    broadcastInDim Cert.KernelIdeal.S25000x384 ![] Cert.KernelIdeal.Facts₀.bcast_S_S25000x384
        (constant (F := Ideal) Cert.KernelIdeal.S_ .f32 0x00000000#32) i = (0 : EReal) :=
  (broadcastInDim_apply _ _ _ i ix0 fun b => b.elim0).trans Ideal.ofBits_zero_f32

/-- The reference's blocked accumulator starts as zeros. -/
theorem zeros_blocked (i : Cert.ReferenceIdeal.S25000x3x128.Idx) :
    broadcastInDim Cert.ReferenceIdeal.S25000x3x128 ![] Cert.ReferenceIdeal.Facts₀.bcast_S_S25000x3x128
        (constant (F := Ideal) Cert.ReferenceIdeal.S_ .f32 0x00000000#32) i = (0 : EReal) :=
  (broadcastInDim_apply _ _ _ i ix0 fun b => b.elim0).trans Ideal.ofBits_zero_f32

/-! ## (4) The packed direction / cutoff array -/

/-- Columns `0, 1, 2` of the packed array are the directions. -/
theorem packed_dir
    (u : (⟨Cert.KernelIdeal.S400000x3, .f32⟩ : BufTy).Contents (Elt Ideal))
    (w : (⟨Cert.KernelIdeal.S400000, .f32⟩ : BufTy).Contents (Elt Ideal))
    (e : Fin 400000) (cc : Fin 3) :
    concatenate Cert.KernelIdeal.S400000x4 1
        [⟨Cert.KernelIdeal.S400000x3, u⟩,
         ⟨Cert.KernelIdeal.S400000x1,
          broadcastInDim Cert.KernelIdeal.S400000x1 ![0] Cert.KernelIdeal.Facts₀.bcast_S400000_S400000x1_0 w⟩]
        Cert.KernelIdeal.Facts₀.concatenates_S400000x3_S400000x1_S400000x4_d1
        (ix2 e (⟨cc.val, by omega⟩ : Fin 4))
      = u (ix2 e cc) :=
  concatenate_pair_apply_left (t := Cert.KernelIdeal.S400000x4) (s₁ := Cert.KernelIdeal.S400000x3)
    (s₂ := Cert.KernelIdeal.S400000x1) 1 u
    (broadcastInDim Cert.KernelIdeal.S400000x1 ![0] Cert.KernelIdeal.Facts₀.bcast_S400000_S400000x1_0 w)
    Cert.KernelIdeal.Facts₀.concatenates_S400000x3_S400000x1_S400000x4_d1
    (ix2 e (⟨cc.val, by omega⟩ : Fin 4)) rfl (ix2 e cc) (fun b => match b with | ⟨0, _⟩ => rfl | ⟨1, _⟩ => rfl)

/-- Column `3` of the packed array is the cutoff value. -/
theorem packed_cut
    (u : (⟨Cert.KernelIdeal.S400000x3, .f32⟩ : BufTy).Contents (Elt Ideal))
    (w : (⟨Cert.KernelIdeal.S400000, .f32⟩ : BufTy).Contents (Elt Ideal))
    (e : Fin 400000) :
    concatenate Cert.KernelIdeal.S400000x4 1
        [⟨Cert.KernelIdeal.S400000x3, u⟩,
         ⟨Cert.KernelIdeal.S400000x1,
          broadcastInDim Cert.KernelIdeal.S400000x1 ![0] Cert.KernelIdeal.Facts₀.bcast_S400000_S400000x1_0 w⟩]
        Cert.KernelIdeal.Facts₀.concatenates_S400000x3_S400000x1_S400000x4_d1
        (ix2 e (3 : Fin 4))
      = w (ix1 e) :=
  (concatenate_pair_apply_right (t := Cert.KernelIdeal.S400000x4) (s₁ := Cert.KernelIdeal.S400000x3)
    (s₂ := Cert.KernelIdeal.S400000x1) 1 u
    (broadcastInDim Cert.KernelIdeal.S400000x1 ![0] Cert.KernelIdeal.Facts₀.bcast_S400000_S400000x1_0 w)
    Cert.KernelIdeal.Facts₀.concatenates_S400000x3_S400000x1_S400000x4_d1
    (ix2 e (3 : Fin 4)) rfl rfl (ix2 e (0 : Fin 1))
    (fun b hb => match b with | ⟨0, _⟩ => rfl | ⟨1, _⟩ => absurd rfl hb)
    rfl).trans (column_apply w e)

/-! ## (5) The column sums laid as a row -/

/-- The sums of the columns of a `[128, 128]` matrix, laid as a `[1, 128]` row: entry `(0, q)` is the sum of column `q`. -/
theorem colsum_row (W : (⟨Cert.KernelIdeal.S128x128, .f32⟩ : BufTy).Contents (Elt Ideal)) (q : Fin 128) :
    broadcastInDim Cert.KernelIdeal.S1x128 ![1] Cert.KernelIdeal.Facts₀.bcast_S128_S1x128_1
        (Host.reduceAdd (F := Ideal) (φ := .f32) W (constant (F := Ideal) Cert.KernelIdeal.S_ .f32 0x00000000#32)
          Cert.KernelIdeal.Facts₀.reducesTo_S128x128_S128_d0 Cert.KernelIdeal.Facts₀.h_S_)
        (ix2 (0 : Fin 1) q)
      = (0 : EReal) + ∑ k : Fin 128, W (ix2 k q) := by
  refine (broadcastInDim_apply _ _ _ _ (ix1 q) (fun b => match b with
    | ⟨0, _⟩ => by show q.val = if (128 : Nat) = 1 then 0 else q.val; rw [if_neg (by decide)])).trans ?_
  simp only [Host.reduceAdd, Ideal.hostReduceAdd_def]
  rw [Ideal.hostReduceAdd_single Cert.KernelIdeal.Facts₀.reducesTo_S128x128_S128_d0 (by decide)]
  refine congrArg₂ (· + ·) ?_ (Finset.sum_congr rfl fun k _ => ?_)
  · exact Ideal.ofBits_zero_f32
  · exact congrArg W (funext fun b => Fin.ext (by match b with | ⟨0, _⟩ => rfl | ⟨1, _⟩ => rfl))

end Cert.OperandReads

end
-- ==== Proof.LibRows3.lean ====
/-
  Blocks of rows taken and accumulated along axis 0 of a rank-3 array, read at an index.

  An array `h : [N, A, B]` holds, for each of `N` rows, an `[A, B]` block. A column of `R` row numbers `[R, 1]` names
  the blocks a lookup reads (`h[src]`, result `[R, A, B]`), and another such column names the blocks of an accumulator
  `[N, A, B]` that `R` update blocks `[R, A, B]` are added into (a segment sum). Both are read here entry by entry.

  The lookup's entry `(e, a, b)` is the operand at row `idx(e, 0)`, read as a signed integer and clamped into
  `[0, N − 1]`, and position `(a, b)` of its block. The accumulation's entry `(p, a, b)` is the operand's entry plus the
  sum, over the update rows `e` whose row number `idx(e, 0)`, read as a signed integer and NOT clamped, is exactly `p`,
  of the update's entry `(e, a, b)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

variable {α : Type}

/-! ## Blocks taken: `h[idx]` -/

/-- The dimension numbers of the block lookup `h[idx]` for `h : [N, A, B]`, `idx : [R, 1]`, result `[R, A, B]`: the
    row axis is collapsed and named by the row number, the two block axes are the result's offset axes, a slice is one
    whole block. -/
abbrev rows3Take (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The block lookup at `(e, a, b)`: the operand at row `idx(e, 0)`, read signed and clamped into `[0, N − 1]`, and
    position `(a, b)` of the block. -/
theorem gather_rows3Take_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (e : Fin R) (a : Fin A) (b : Fin B) :
    Host.gather (rows3Take N A B R wf) x idx (ix3 e a b)
      = x (ix3 (⟨min (idx (ix2 e (0 : Fin 1))).toInt.toNat (N - 1), by omega⟩ : Fin N) a b) := by
  unfold Host.gather
  congr 1
  funext c
  refine Fin.ext ?_
  match c with
  | ⟨0, _⟩ =>
    show (rows3Take N A B R wf).start (ix3 e a b) idx 0 + (rows3Take N A B R wf).batchCoord (ix3 e a b) 0
      + (rows3Take N A B R wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Take N A B R wf).startIndexMap from List.mem_singleton.mpr rfl)]
    have hsi : (rows3Take N A B R wf).siIdx (ix3 e a b) ⟨List.idxOf (0 : Fin 3) (rows3Take N A B R wf).startIndexMap,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
    rfl
  | ⟨1, _⟩ =>
    show (rows3Take N A B R wf).start (ix3 e a b) idx 1 + (rows3Take N A B R wf).batchCoord (ix3 e a b) 1
      + (rows3Take N A B R wf).offCoord (ix3 e a b) 1 = a.val
    have hst : (rows3Take N A B R wf).start (ix3 e a b) idx 1 = 0 := by
      unfold GatherDims.start
      rw [dif_neg (show (1 : Fin 3) ∉ (rows3Take N A B R wf).startIndexMap from
        (by decide : (1 : Fin 3) ∉ ([0] : List (Fin 3))))]
    have hoff : (rows3Take N A B R wf).offCoord (ix3 e a b) 1 = a.val := by
      unfold GatherDims.offCoord
      rw [dif_pos (show (1 : Fin 3) ∈ (rows3Take N A B R wf).sKept from
        (by decide : (1 : Fin 3) ∈ (List.finRange 3).filter (· ∉ ([0] ++ [] : List (Fin 3)))))]
      rfl
    rw [GatherDims.batchCoord_eq_zero _ _ _ List.not_mem_nil, hst, hoff]
    omega
  | ⟨2, _⟩ =>
    show (rows3Take N A B R wf).start (ix3 e a b) idx 2 + (rows3Take N A B R wf).batchCoord (ix3 e a b) 2
      + (rows3Take N A B R wf).offCoord (ix3 e a b) 2 = b.val
    have hst : (rows3Take N A B R wf).start (ix3 e a b) idx 2 = 0 := by
      unfold GatherDims.start
      rw [dif_neg (show (2 : Fin 3) ∉ (rows3Take N A B R wf).startIndexMap from
        (by decide : (2 : Fin 3) ∉ ([0] : List (Fin 3))))]
    have hoff : (rows3Take N A B R wf).offCoord (ix3 e a b) 2 = b.val := by
      unfold GatherDims.offCoord
      rw [dif_pos (show (2 : Fin 3) ∈ (rows3Take N A B R wf).sKept from
        (by decide : (2 : Fin 3) ∈ (List.finRange 3).filter (· ∉ ([0] ++ [] : List (Fin 3)))))]
      rfl
    rw [GatherDims.batchCoord_eq_zero _ _ _ List.not_mem_nil, hst, hoff]
    omega

/-! ## Blocks accumulated: `acc[idx] += upd` -/

/-- The dimension numbers of the block accumulation `acc[idx] += upd` for `acc : [N, A, B]`, `idx : [R, 1]`,
    `upd : [R, A, B]`: axes 1 and 2 of the updates are the window, axis 0 of the operand is the one the row number
    names. -/
abbrev rows3Scatter (N A B R : Nat)
    (wf : ScatterDims.WF ⟨3, ![N, A, B]⟩ ⟨2, ![R, 1]⟩ ⟨3, ![R, A, B]⟩ [1, 2] [0] [0] 1) :
    ScatterDims ⟨3, ![N, A, B]⟩ ⟨2, ![R, 1]⟩ ⟨3, ![R, A, B]⟩ where
  updateWindowDims := [1, 2]
  insertedWindowDims := [0]
  scatterDimsToOperandDims := [0]
  indexVectorDim := 1
  wf := wf

/-- On the row axis the window of update index `j` starts at the row number `idx(j₀, 0)`, read signed. -/
theorem start_rows3Scatter_zero {N A B R w : Nat}
    (wf : ScatterDims.WF ⟨3, ![N, A, B]⟩ ⟨2, ![R, 1]⟩ ⟨3, ![R, A, B]⟩ [1, 2] [0] [0] 1)
    (j : (⟨3, ![R, A, B]⟩ : Shape).Idx) (idx : IVec ⟨2, ![R, 1]⟩ w) :
    (rows3Scatter N A B R wf).start j idx 0 = (idx (ix2 (j 0) (0 : Fin 1))).toInt := by
  unfold ScatterDims.start
  rw [dif_pos (show (0 : Fin 3) ∈ (rows3Scatter N A B R wf).scatterDimsToOperandDims from List.mem_singleton.mpr rfl)]
  have hsi : (rows3Scatter N A B R wf).siIdx j ⟨List.idxOf (0 : Fin 3) (rows3Scatter N A B R wf).scatterDimsToOperandDims,
      List.idxOf_lt_length_iff.2 (List.mem_singleton.mpr rfl)⟩ = ix2 (j 0) (0 : Fin 1) := by
    funext d; refine Fin.ext ?_
    match d with
    | ⟨0, _⟩ => rfl
    | ⟨1, _⟩ => rfl
  rw [hsi]
  rfl

/-- On the first block axis, which no row number names, the window starts at `0`. -/
theorem start_rows3Scatter_one {N A B R w : Nat}
    (wf : ScatterDims.WF ⟨3, ![N, A, B]⟩ ⟨2, ![R, 1]⟩ ⟨3, ![R, A, B]⟩ [1, 2] [0] [0] 1)
    (j : (⟨3, ![R, A, B]⟩ : Shape).Idx) (idx : IVec ⟨2, ![R, 1]⟩ w) :
    (rows3Scatter N A B R wf).start j idx 1 = 0 := by
  unfold ScatterDims.start
  rw [dif_neg (show (1 : Fin 3) ∉ (rows3Scatter N A B R wf).scatterDimsToOperandDims from
    (by decide : (1 : Fin 3) ∉ ([0] : List (Fin 3))))]

/-- On the second block axis too the window starts at `0`. -/
theorem start_rows3Scatter_two {N A B R w : Nat}
    (wf : ScatterDims.WF ⟨3, ![N, A, B]⟩ ⟨2, ![R, 1]⟩ ⟨3, ![R, A, B]⟩ [1, 2] [0] [0] 1)
    (j : (⟨3, ![R, A, B]⟩ : Shape).Idx) (idx : IVec ⟨2, ![R, 1]⟩ w) :
    (rows3Scatter N A B R wf).start j idx 2 = 0 := by
  unfold ScatterDims.start
  rw [dif_neg (show (2 : Fin 3) ∉ (rows3Scatter N A B R wf).scatterDimsToOperandDims from
    (by decide : (2 : Fin 3) ∉ ([0] : List (Fin 3))))]

/-- The row axis is an inserted one: the window coordinate on it is `0`. -/
theorem window_rows3Scatter_zero {N A B R : Nat}
    (wf : ScatterDims.WF ⟨3, ![N, A, B]⟩ ⟨2, ![R, 1]⟩ ⟨3, ![R, A, B]⟩ [1, 2] [0] [0] 1)
    (j : (⟨3, ![R, A, B]⟩ : Shape).Idx) :
    (rows3Scatter N A B R wf).window j 0 = 0 := by
  unfold ScatterDims.window
  rw [dif_neg (show (0 : Fin 3) ∉ (rows3Scatter N A B R wf).sKept from
    (by decide : (0 : Fin 3) ∉ (List.finRange 3).filter (· ∉ ([0] : List (Fin 3)))))]

/-- On the first block axis the window coordinate of update index `j` is its coordinate `j₁`. -/
theorem window_rows3Scatter_one {N A B R : Nat}
    (wf : ScatterDims.WF ⟨3, ![N, A, B]⟩ ⟨2, ![R, 1]⟩ ⟨3, ![R, A, B]⟩ [1, 2] [0] [0] 1)
    (j : (⟨3, ![R, A, B]⟩ : Shape).Idx) :
    (rows3Scatter N A B R wf).window j 1 = (j 1).val := by
  unfold ScatterDims.window
  rw [dif_pos (show (1 : Fin 3) ∈ (rows3Scatter N A B R wf).sKept from
    (by decide : (1 : Fin 3) ∈ (List.finRange 3).filter (· ∉ ([0] : List (Fin 3)))))]
  rfl

/-- On the second block axis the window coordinate of update index `j` is its coordinate `j₂`. -/
theorem window_rows3Scatter_two {N A B R : Nat}
    (wf : ScatterDims.WF ⟨3, ![N, A, B]⟩ ⟨2, ![R, 1]⟩ ⟨3, ![R, A, B]⟩ [1, 2] [0] [0] 1)
    (j : (⟨3, ![R, A, B]⟩ : Shape).Idx) :
    (rows3Scatter N A B R wf).window j 2 = (j 2).val := by
  unfold ScatterDims.window
  rw [dif_pos (show (2 : Fin 3) ∈ (rows3Scatter N A B R wf).sKept from
    (by decide : (2 : Fin 3) ∈ (List.finRange 3).filter (· ∉ ([0] : List (Fin 3)))))]
  rfl

/-- Update index `j` lands on the operand's entry `(p, a, b)` exactly when its row number `idx(j₀, 0)`, read signed,
    is `p` and its block coordinates are `(a, b)`; a row number outside `[0, N)` lands on no entry. -/
theorem resultIdx_rows3Scatter {N A B R w : Nat}
    (wf : ScatterDims.WF ⟨3, ![N, A, B]⟩ ⟨2, ![R, 1]⟩ ⟨3, ![R, A, B]⟩ [1, 2] [0] [0] 1)
    (j : (⟨3, ![R, A, B]⟩ : Shape).Idx) (idx : IVec ⟨2, ![R, 1]⟩ w) (p : Fin N) (a : Fin A) (b : Fin B) :
    (rows3Scatter N A B R wf).resultIdx? j idx = some (ix3 p a b)
      ↔ (idx (ix2 (j 0) (0 : Fin 1))).toInt = (p.val : ℤ) ∧ j 1 = a ∧ j 2 = b := by
  have hs0 := start_rows3Scatter_zero wf j idx
  have hs1 := start_rows3Scatter_one wf j idx
  have hs2 := start_rows3Scatter_two wf j idx
  have hw0 := window_rows3Scatter_zero wf j
  have hw1 := window_rows3Scatter_one wf j
  have hw2 := window_rows3Scatter_two wf j
  have hj1 : (j 1).val < A := (j 1).isLt
  have hj2 : (j 2).val < B := (j 2).isLt
  have hpN : p.val < N := p.isLt
  unfold ScatterDims.resultIdx?
  split
  · rename_i h
    rw [Option.some.injEq]
    constructor
    · intro hf
      have h0 : ((rows3Scatter N A B R wf).start j idx 0 + ((rows3Scatter N A B R wf).window j 0 : ℤ)).toNat = p.val :=
        congrArg Fin.val (congrFun hf 0)
      have h1 : ((rows3Scatter N A B R wf).start j idx 1 + ((rows3Scatter N A B R wf).window j 1 : ℤ)).toNat = a.val :=
        congrArg Fin.val (congrFun hf 1)
      have h2 : ((rows3Scatter N A B R wf).start j idx 2 + ((rows3Scatter N A B R wf).window j 2 : ℤ)).toNat = b.val :=
        congrArg Fin.val (congrFun hf 2)
      have hh0 := (h 0).1
      rw [hs0, hw0] at h0 hh0
      rw [hs1, hw1] at h1
      rw [hs2, hw2] at h2
      refine ⟨by omega, Fin.ext (by omega), Fin.ext (by omega)⟩
    · rintro ⟨hp, ha, hb⟩
      funext c
      refine Fin.ext ?_
      match c with
      | ⟨0, _⟩ =>
        show ((rows3Scatter N A B R wf).start j idx 0 + ((rows3Scatter N A B R wf).window j 0 : ℤ)).toNat = p.val
        rw [hs0, hw0, hp]; omega
      | ⟨1, _⟩ =>
        show ((rows3Scatter N A B R wf).start j idx 1 + ((rows3Scatter N A B R wf).window j 1 : ℤ)).toNat = a.val
        rw [hs1, hw1, ha]; omega
      | ⟨2, _⟩ =>
        show ((rows3Scatter N A B R wf).start j idx 2 + ((rows3Scatter N A B R wf).window j 2 : ℤ)).toNat = b.val
        rw [hs2, hw2, hb]; omega
  · rename_i h
    constructor
    · intro hf; cases hf
    · rintro ⟨hp, ha, hb⟩
      exfalso; apply h
      intro c
      match c with
      | ⟨0, _⟩ =>
        show 0 ≤ (rows3Scatter N A B R wf).start j idx 0 + ((rows3Scatter N A B R wf).window j 0 : ℤ)
          ∧ (rows3Scatter N A B R wf).start j idx 0 + ((rows3Scatter N A B R wf).window j 0 : ℤ) < (N : ℤ)
        rw [hs0, hw0, hp]; omega
      | ⟨1, _⟩ =>
        show 0 ≤ (rows3Scatter N A B R wf).start j idx 1 + ((rows3Scatter N A B R wf).window j 1 : ℤ)
          ∧ (rows3Scatter N A B R wf).start j idx 1 + ((rows3Scatter N A B R wf).window j 1 : ℤ) < (A : ℤ)
        rw [hs1, hw1]; omega
      | ⟨2, _⟩ =>
        show 0 ≤ (rows3Scatter N A B R wf).start j idx 2 + ((rows3Scatter N A B R wf).window j 2 : ℤ)
          ∧ (rows3Scatter N A B R wf).start j idx 2 + ((rows3Scatter N A B R wf).window j 2 : ℤ) < (B : ℤ)
        rw [hs2, hw2]; omega

/-- The block accumulation at `(p, a, b)`: the operand's entry plus the sum of the updates' entries `(e, a, b)` over
    the update rows `e` whose row number `idx(e, 0)`, read signed and not clamped, is `p`. -/
theorem scatterAdd_rows3Scatter_apply {N A B R w : Nat}
    (wf : ScatterDims.WF ⟨3, ![N, A, B]⟩ ⟨2, ![R, 1]⟩ ⟨3, ![R, A, B]⟩ [1, 2] [0] [0] 1)
    (x : (⟨3, ![N, A, B]⟩ : Shape).Idx → EReal) (idx : IVec ⟨2, ![R, 1]⟩ w)
    (upd : (⟨3, ![R, A, B]⟩ : Shape).Idx → EReal) (p : Fin N) (a : Fin A) (b : Fin B) :
    Host.scatterAdd (F := Ideal) (φ := .f32) (rows3Scatter N A B R wf) x idx upd (ix3 p a b)
      = x (ix3 p a b)
        + ∑ e ∈ Finset.univ.filter (fun e : Fin R => (idx (ix2 e (0 : Fin 1))).toInt = (p.val : ℤ)),
            upd (ix3 e a b) := by
  show x (ix3 p a b) + ∑ j ∈ Finset.univ.filter
      (fun j => (rows3Scatter N A B R wf).resultIdx? j idx = some (ix3 p a b)), upd j = _
  congr 1
  symm
  refine Finset.sum_bij (fun e _ => ix3 e a b) ?_ ?_ ?_ ?_
  · intro e he
    rw [Finset.mem_filter] at he ⊢
    exact ⟨Finset.mem_univ _, (resultIdx_rows3Scatter wf (ix3 e a b) idx p a b).mpr ⟨he.2, rfl, rfl⟩⟩
  · intro e₁ _ e₂ _ h
    exact congrFun h 0
  · intro j hj
    rw [Finset.mem_filter] at hj
    have hj' := (resultIdx_rows3Scatter wf j idx p a b).mp hj.2
    refine ⟨j 0, Finset.mem_filter.mpr ⟨Finset.mem_univ _, hj'.1⟩, ?_⟩
    rw [← hj'.2.1, ← hj'.2.2]
    exact (eq_ix3 j).symm
  · intro e _
    rfl

end Cert.Lib

end
-- ==== Proof.FlatGather.lean ====
/-
  The lookup of rows, flat against blocked, and the two reshapes between the layouts.

  An array `x : [25000, 3, 128]` reshaped to `[25000, 384]` keeps its elements in row-major order: the flat entry
  `(p, 128·cc + k)` is the blocked entry `(p, cc, k)`, and the reshape back reads the other way. A lookup of rows
  by a column of row numbers reads, on both layouts, the row whose number is `idx(e, 0)` read signed and clamped into
  `[0, 24999]`; so the blocked lookup at `(e, cc, k)` is the flat lookup of the reshaped array at `(e, 128·cc + k)`.
-/
import proofs.«161305_j25314537242668_2_alg».proof.KernelIdeal
import proofs.«161305_j25314537242668_2_alg».proof.ReferenceIdeal
import proofs.«161305_j25314537242668_2_alg».proof.Proof.LibEdgeRows
import proofs.«161305_j25314537242668_2_alg».proof.Proof.LibRows3
import Idealize.ShloMosaic.Lib.Pipeline.Value

noncomputable section

namespace Cert.FlatGather

open Idealize.ShloMosaic Idealize.ShloMosaic.ValueIdx

variable [Cert.KernelIdeal.Facts₀] [Cert.ReferenceIdeal.Facts₀]

/-- The reshape `[25000, 3, 128] → [25000, 384]` read at `(p, 128·cc + k)` is the operand at `(p, cc, k)`. -/
theorem flatten_apply
    (x : (⟨Cert.KernelIdeal.S25000x3x128, .f32⟩ : BufTy).Contents (Elt Ideal))
    (p : Fin 25000) (cc : Fin 3) (k : Fin 128) :
    shapeCast Cert.KernelIdeal.S25000x384 x Cert.KernelIdeal.Facts₀.shapeCasts_S25000x3x128_S25000x384
        (ix2 p (⟨128 * cc.val + k.val, by omega⟩ : Fin 384))
      = x (ix3 p cc k) :=
  shapeCast_apply x _ _ _ (by
    rw [Shape.rowMajor_val_three, Shape.rowMajor_val_two]
    show (p.val * 3 + cc.val) * 128 + k.val = p.val * 384 + (128 * cc.val + k.val)
    omega)

/-- The reshape `[25000, 384] → [25000, 3, 128]` read at `(p, cc, k)` is the operand at `(p, 128·cc + k)`. -/
theorem unflatten_apply
    (y : (⟨Cert.KernelIdeal.S25000x384, .f32⟩ : BufTy).Contents (Elt Ideal))
    (p : Fin 25000) (cc : Fin 3) (k : Fin 128) :
    shapeCast Cert.KernelIdeal.S25000x3x128 y Cert.KernelIdeal.Facts₀.shapeCasts_S25000x384_S25000x3x128
        (ix3 p cc k)
      = y (ix2 p (⟨128 * cc.val + k.val, by omega⟩ : Fin 384)) :=
  shapeCast_apply y _ _ _ (by
    rw [Shape.rowMajor_val_two, Shape.rowMajor_val_three]
    show p.val * 384 + (128 * cc.val + k.val) = (p.val * 3 + cc.val) * 128 + k.val
    omega)

/-- The flat lookup's record is the generic row lookup at `N = 25000`, `D = 384`, `R = 400000`. -/
theorem kernel_record :
    Cert.KernelIdeal.gather_S25000x384_S400000x1_S400000x384_1_0_n_n_0_1_1384
      = Cert.Lib.rowsTake 25000 384 400000
          Cert.KernelIdeal.Facts₀.gather_S25000x384_S400000x1_S400000x384_1_0_n_n_0_1_1384_wf := rfl

/-- The blocked lookup's record is the generic block lookup at `N = 25000`, `A = 3`, `B = 128`, `R = 400000`. -/
theorem reference_record :
    Cert.ReferenceIdeal.gather_S25000x3x128_S400000x1_S400000x3x128_12_0_n_n_0_1_13128
      = Cert.Lib.rows3Take 25000 3 128 400000
          Cert.ReferenceIdeal.Facts₀.gather_S25000x3x128_S400000x1_S400000x3x128_12_0_n_n_0_1_13128_wf := rfl

/-- The blocked lookup at `(e, cc, k)` is the flat lookup of the reshaped array at `(e, 128·cc + k)`. -/
theorem gather_flat
    (x1 : (⟨Cert.KernelIdeal.S25000x3x128, .f32⟩ : BufTy).Contents (Elt Ideal))
    (idx : (⟨Cert.KernelIdeal.S400000x1, .i32⟩ : BufTy).Contents (Elt Ideal))
    (e : Fin 400000) (cc : Fin 3) (k : Fin 128) :
    Host.gather Cert.ReferenceIdeal.gather_S25000x3x128_S400000x1_S400000x3x128_12_0_n_n_0_1_13128 x1 idx
        (ix3 e cc k)
      = Host.gather Cert.KernelIdeal.gather_S25000x384_S400000x1_S400000x384_1_0_n_n_0_1_1384
          (shapeCast Cert.KernelIdeal.S25000x384 x1 Cert.KernelIdeal.Facts₀.shapeCasts_S25000x3x128_S25000x384) idx
          (ix2 e (⟨128 * cc.val + k.val, by omega⟩ : Fin 384)) := by
  rw [reference_record, kernel_record]
  refine (Cert.Lib.gather_rows3Take_apply (by omega) _ x1 idx e cc k).trans ?_
  refine Eq.trans ?_ (Cert.Lib.gather_rowsTake_apply (by omega) _ _ idx e
    (⟨128 * cc.val + k.val, by omega⟩ : Fin 384)).symm
  exact (flatten_apply x1 _ cc k).symm

end Cert.FlatGather

end
-- ==== Proof.EdgeBridge.lean ====
/-
  The edge-message region against the reference: the kernel's message array, at an entry, is the reference's message.

  Before the region the kernel's host operations lay its operands out of the program's arguments: the node features are
  looked up at the two columns of the edge index (after a change of format, the identity on extended reals), the vector
  features are flattened and looked up at the source column, the message weights are cut into three row blocks, the two
  biases become one-row matrices, and the edge directions and cutoff weights (the same host operations of the positions
  as the reference's) are packed side by side. Each operand, read at an entry, is therefore a value of the reference's
  own vocabulary; the two layers (the scalar message, the vector weights) then agree sum by sum, and the message of
  edge `e`, component `cc`, feature `k` — the kernel's at column `128 cc + k` of its flat row — is the reference's.
-/
import proofs.«161305_j25314537242668_2_alg».proof.Proof.Gen.KernelIdeal.Frame
import proofs.«161305_j25314537242668_2_alg».proof.Proof.Gen.ReferenceIdeal.Read
import proofs.«161305_j25314537242668_2_alg».proof.Proof.EdgeValue
import proofs.«161305_j25314537242668_2_alg».proof.Proof.RefEdge
import proofs.«161305_j25314537242668_2_alg».proof.Proof.HostVals
import proofs.«161305_j25314537242668_2_alg».proof.Proof.HostVals2
import proofs.«161305_j25314537242668_2_alg».proof.Proof.OperandReads
import proofs.«161305_j25314537242668_2_alg».proof.Proof.FlatGather
import Idealize.ShloMosaic.Lib.ValueIdx

set_option maxRecDepth 16384

noncomputable section

namespace Cert.EdgeBridge

open Cert.KernelIdeal Cert.KernelIdeal.Gen Cert.KernelIdeal.EdgeValue
open Idealize.ShloMosaic Idealize.ShloMosaic.TcCoe Idealize.ShloMosaic.ValueIdx Idealize.SL.Sem
open Cert.ReferenceIdeal.Read (val_main_v23 val_main_v88 val_main_v94 val_main_v95 val_main_v101 val_main_v102 val_main_v125 val_main_v126 val_main_v132)
open Cert.ReferenceIdeal.RefAt (smsgR vwR edge_msg_at)
open scoped BigOperators

variable (m : (ℓ : Loc nD τ sig) → Buf (Elt Ideal) ℓ) (ρ : Dev nD → PrngReg) (c : Dev nD)

/-! ## The program's arguments on core `c`, each at its literal shape -/

abbrev a0 : (⟨S25000x128, .f32⟩ : BufTy).Contents (Elt Ideal) := m ((c.tc : Thread nD τ).loc main_arg0)
abbrev a1 : (⟨S25000x3x128, .f32⟩ : BufTy).Contents (Elt Ideal) := m ((c.tc : Thread nD τ).loc main_arg1)
abbrev a3 : (⟨S25000x3, .f32⟩ : BufTy).Contents (Elt Ideal) := m ((c.tc : Thread nD τ).loc main_arg3)
abbrev a4 : (⟨S400000x50, .f32⟩ : BufTy).Contents (Elt Ideal) := m ((c.tc : Thread nD τ).loc main_arg4)
abbrev a5 : (⟨S2x400000, .i32⟩ : BufTy).Contents (Elt Ideal) := m ((c.tc : Thread nD τ).loc main_arg5)
abbrev a6 : (⟨S306x128, .f32⟩ : BufTy).Contents (Elt Ideal) := m ((c.tc : Thread nD τ).loc main_arg6)
abbrev a7 : (⟨S128, .f32⟩ : BufTy).Contents (Elt Ideal) := m ((c.tc : Thread nD τ).loc main_arg7)
abbrev a8 : (⟨S128x256, .f32⟩ : BufTy).Contents (Elt Ideal) := m ((c.tc : Thread nD τ).loc main_arg8)
abbrev a9 : (⟨S256, .f32⟩ : BufTy).Contents (Elt Ideal) := m ((c.tc : Thread nD τ).loc main_arg9)

/-! ## Each operand of the region, at an entry, in the reference's vocabulary -/

/-- The looked-up target-node features. -/
theorem hcol_eq (e : Fin 400000) (a : Fin 128) :
    aHcol (V3 m ρ) c (ix2 e a) = val_main_v95 (F := Ideal) (a0 m c) (a5 m c) (ix2 e a) := by
  show (W3 m ρ c (Proc.devRef .tc main_v94) : S400000x128.Idx → EReal) (ix2 e a) = _
  rw [Cert.KernelIdeal.HostVals2.W3_v94]
  exact Cert.OperandReads.gather_trunc _ _ e a

/-- The looked-up source-node features. -/
theorem hrow_eq (e : Fin 400000) (a : Fin 128) :
    aHrow (V3 m ρ) c (ix2 e a) = val_main_v102 (F := Ideal) (a0 m c) (a5 m c) (ix2 e a) := by
  show (W3 m ρ c (Proc.devRef .tc main_v101) : S400000x128.Idx → EReal) (ix2 e a) = _
  rw [Cert.KernelIdeal.HostVals2.W3_v101]
  exact Cert.OperandReads.gather_trunc _ _ e a

/-- The radial basis values are an argument, untouched. -/
theorem rbf_eq (e : Fin 400000) (a : Fin 50) :
    aRbf (V3 m ρ) c (ix2 e a) = a4 m c (ix2 e a) := by
  show (W3 m ρ c (Proc.devRef .tc main_arg4) : S400000x50.Idx → EReal) (ix2 e a) = _
  rw [Cert.KernelIdeal.HostVals2.W3_arg4]

/-- The packed quadruple's first three columns: the unit direction. -/
theorem dir_eq (e : Fin 400000) (cc : Fin 3) :
    aDir (V3 m ρ) c (ix2 e (⟨cc.val, by have := cc.isLt; omega⟩ : Fin 4)) = val_main_v23 (F := Ideal) (a3 m c) (a5 m c) (ix2 e cc) := by
  show (W3 m ρ c (Proc.devRef .tc main_v111) : S400000x4.Idx → EReal) _ = _
  rw [Cert.KernelIdeal.HostVals.W3_v111]
  exact Cert.OperandReads.packed_dir _ _ e cc

/-- The packed quadruple's last column: the cutoff weight. -/
theorem cut_eq (e : Fin 400000) :
    aDir (V3 m ρ) c (ix2 e (3 : Fin 4)) = val_main_v88 (F := Ideal) (a3 m c) (a5 m c) (ix1 e) := by
  show (W3 m ρ c (Proc.devRef .tc main_v111) : S400000x4.Idx → EReal) _ = _
  rw [Cert.KernelIdeal.HostVals.W3_v111]
  exact Cert.OperandReads.packed_cut _ _ e

/-- The looked-up source-node vector features, flat against blocked. -/
theorem vrow_eq (e : Fin 400000) (cc : Fin 3) (k : Fin 128) :
    aVrow (V3 m ρ) c (ix2 e (⟨128 * cc.val + k.val, by have := cc.isLt; have := k.isLt; omega⟩ : Fin 384))
      = val_main_v126 (F := Ideal) (a1 m c) (a5 m c) (ix3 e cc k) := by
  show (W3 m ρ c (Proc.devRef .tc main_v109) : S400000x384.Idx → EReal) _ = _
  rw [Cert.KernelIdeal.HostVals2.W3_v109]
  exact (Cert.FlatGather.gather_flat _ _ e cc k).symm

/-- The three row blocks of the message weights. -/
theorem wm0_eq (a : Fin 128) (k' : Fin 128) :
    aWm0 (V3 m ρ) c (ix2 a k') = a6 m c (ix2 (⟨a.val, by have := a.isLt; omega⟩ : Fin 306) k') := by
  show (W3 m ρ c (Proc.devRef .tc main_v112) : S128x128.Idx → EReal) _ = _
  rw [Cert.KernelIdeal.HostVals2.W3_v112]
  exact Cert.OperandReads.slice_rows_0 _ a k'

theorem wm1_eq (a : Fin 128) (k' : Fin 128) :
    aWm1 (V3 m ρ) c (ix2 a k') = a6 m c (ix2 (⟨128 + a.val, by have := a.isLt; omega⟩ : Fin 306) k') := by
  show (W3 m ρ c (Proc.devRef .tc main_v113) : S128x128.Idx → EReal) _ = _
  rw [Cert.KernelIdeal.HostVals2.W3_v113]
  exact Cert.OperandReads.slice_rows_128 _ a k'

theorem wm2_eq (a : Fin 50) (k' : Fin 128) :
    aWm2 (V3 m ρ) c (ix2 a k') = a6 m c (ix2 (⟨256 + a.val, by have := a.isLt; omega⟩ : Fin 306) k') := by
  show (W3 m ρ c (Proc.devRef .tc main_v114) : S50x128.Idx → EReal) _ = _
  rw [Cert.KernelIdeal.HostVals2.W3_v114]
  exact Cert.OperandReads.slice_rows_256 _ a k'

/-- The message bias as one row. -/
theorem bmsg_eq (k' : Fin 128) :
    aBmsg (V3 m ρ) c (ix2 (0 : Fin 1) k') = a7 m c (ix1 k') := by
  show (W3 m ρ c (Proc.devRef .tc main_v115) : S1x128.Idx → EReal) _ = _
  rw [Cert.KernelIdeal.HostVals2.W3_v115]
  exact Cert.OperandReads.row_128 _ k'

/-- The second weights are an argument, untouched. -/
theorem wvec_eq (k' : Fin 128) (j : Fin 256) :
    aWvec (V3 m ρ) c (ix2 k' j) = a8 m c (ix2 k' j) := by
  show (W3 m ρ c (Proc.devRef .tc main_arg8) : S128x256.Idx → EReal) _ = _
  rw [Cert.KernelIdeal.HostVals2.W3_arg8]

/-- The second bias as one row. -/
theorem bvec_eq (j : Fin 256) :
    aBvec (V3 m ρ) c (ix2 (0 : Fin 1) j) = a9 m c (ix1 j) := by
  show (W3 m ρ c (Proc.devRef .tc main_v116) : S1x256.Idx → EReal) _ = _
  rw [Cert.KernelIdeal.HostVals2.W3_v116]
  exact Cert.OperandReads.row_256 _ j

/-! ## The two layers, and the message -/

/-- The kernel's scalar message is the reference's. -/
theorem smsg_eq (e : Fin 400000) (k' : Fin 128) :
    smsg (V3 m ρ) c e k' = smsgR (a0 m c) (a4 m c) (a5 m c) (a6 m c) (a7 m c) e k' := by
  unfold smsg smsgR
  refine congrArg₂ (· + ·) (congrArg₂ (· + ·) (congrArg₂ (· + ·)
    (Finset.sum_congr rfl fun a _ => ?_) (Finset.sum_congr rfl fun a _ => ?_))
    (Finset.sum_congr rfl fun a _ => ?_)) (bmsg_eq m ρ c k')
  · exact congrArg₂ (· * ·) (hcol_eq m ρ c e a) (wm0_eq m ρ c a k')
  · exact congrArg₂ (· * ·) (hrow_eq m ρ c e a) (wm1_eq m ρ c a k')
  · exact congrArg₂ (· * ·) (rbf_eq m ρ c e a) (wm2_eq m ρ c a k')

/-- The kernel's vector weights are the reference's. -/
theorem vw_eq (e : Fin 400000) (j : Fin 256) :
    vw (V3 m ρ) c e j = vwR (a0 m c) (a4 m c) (a5 m c) (a6 m c) (a7 m c) (a8 m c) (a9 m c) e j := by
  unfold vw vwR
  refine congrArg₂ (· + ·) (Finset.sum_congr rfl fun k' _ => ?_) (bvec_eq m ρ c j)
  exact congrArg₂ (· * ·) (smsg_eq m ρ c e k') (wvec_eq m ρ c k' j)

/-- The bridge, from the region's value at an entry (`hfin`). -/
theorem edge_eq_of
    (hfin : ∀ (e : Fin 400000) (cc : Fin 3) (k : Fin 128),
      ((dat0 (F := Ideal) (V3 m ρ) c).arrAt 11 cfg0.N : S400000x384.Idx → EReal)
          (ix2 e (⟨128 * cc.val + k.val, by have := cc.isLt; have := k.isLt; omega⟩ : Fin 384))
        = (vw (V3 m ρ) c e ⟨k.val, by have := k.isLt; omega⟩ * aDir (V3 m ρ) c (ix2 e (⟨cc.val, by have := cc.isLt; omega⟩ : Fin 4))
            + vw (V3 m ρ) c e ⟨128 + k.val, by have := k.isLt; omega⟩
              * aVrow (V3 m ρ) c (ix2 e (⟨128 * cc.val + k.val, by have := cc.isLt; have := k.isLt; omega⟩ : Fin 384)))
          * aDir (V3 m ρ) c (ix2 e (3 : Fin 4)))
    (e : Fin 400000) (cc : Fin 3) (k : Fin 128) :
    ((dat0 (F := Ideal) (V3 m ρ) c).arrAt 11 cfg0.N : S400000x384.Idx → EReal)
        (ix2 e (⟨128 * cc.val + k.val, by have := cc.isLt; have := k.isLt; omega⟩ : Fin 384))
      = val_main_v132 (F := Ideal) (a0 m c) (a1 m c) (a3 m c) (a4 m c) (a5 m c) (a6 m c) (a7 m c) (a8 m c) (a9 m c) (ix3 e cc k) := by
  rw [hfin e cc k, edge_msg_at, vw_eq, vw_eq, dir_eq, vrow_eq, cut_eq]

/-- THE BRIDGE: the region's output array at `(e, 128 cc + k)` is the reference's message at `(e, cc, k)`. -/
theorem edge_eq (e : Fin 400000) (cc : Fin 3) (k : Fin 128) :
    ((dat0 (F := Ideal) (V3 m ρ) c).arrAt 11 cfg0.N : S400000x384.Idx → EReal)
        (ix2 e (⟨128 * cc.val + k.val, by have := cc.isLt; have := k.isLt; omega⟩ : Fin 384))
      = val_main_v132 (F := Ideal) (a0 m c) (a1 m c) (a3 m c) (a4 m c) (a5 m c) (a6 m c) (a7 m c) (a8 m c) (a9 m c) (ix3 e cc k) :=
  edge_eq_of m ρ c (fun e cc k => final11_apply (V3 m ρ) c e cc k) e cc k

end Cert.EdgeBridge

end
-- ==== Proof.FlatScatter.lean ====
/-
  The accumulation of update rows, flat against blocked.

  One program keeps the accumulator as `[25000, 384]` and the updates as `[400000, 384]`; the other keeps them as
  `[25000, 3, 128]` and `[400000, 3, 128]`, the flat column `128·cc + k` being the block position `(cc, k)`. Both add
  update row `e` into the accumulator row named by the same row number `idx(e, 0)`. Read at an entry, each side is the
  accumulator's entry plus the sum, over the update rows whose row number read signed is exactly `p`, of the update's
  entry; the two sums range over the same rows and their terms agree, so the entries agree. No order of accumulation
  is involved: each side is a sum over a finite set of extended reals.
-/
import proofs.«161305_j25314537242668_2_alg».proof.KernelIdeal
import proofs.«161305_j25314537242668_2_alg».proof.ReferenceIdeal
import proofs.«161305_j25314537242668_2_alg».proof.Proof.LibEdgeRows
import proofs.«161305_j25314537242668_2_alg».proof.Proof.LibRows3

noncomputable section

open scoped BigOperators

namespace Cert.FlatScatter

open Idealize.ShloMosaic Idealize.ShloMosaic.ValueIdx

variable [Cert.KernelIdeal.Facts₀] [Cert.ReferenceIdeal.Facts₀]

/-- The flat accumulation's record is the generic row accumulation at `N = 25000`, `D = 384`, `R = 400000`. -/
theorem kernel_record :
    Cert.KernelIdeal.scatter_S25000x384_S400000x1_S400000x384_1_0_0_1
      = Cert.Lib.rowsScatter 25000 384 400000
          Cert.KernelIdeal.Facts₀.scatter_S25000x384_S400000x1_S400000x384_1_0_0_1_wf := rfl

/-- The blocked accumulation's record is the generic block accumulation at `N = 25000`, `A = 3`, `B = 128`,
    `R = 400000`. -/
theorem reference_record :
    Cert.ReferenceIdeal.scatter_S25000x3x128_S400000x1_S400000x3x128_12_0_0_1
      = Cert.Lib.rows3Scatter 25000 3 128 400000
          Cert.ReferenceIdeal.Facts₀.scatter_S25000x3x128_S400000x1_S400000x3x128_12_0_0_1_wf := rfl

/-- The blocked accumulation at `(p, cc, k)` is the flat one at `(p, 128·cc + k)`, when the accumulators and the updates
    agree under that correspondence of positions. -/
theorem scatter_flat
    (idx : (⟨Cert.KernelIdeal.S400000x1, .i32⟩ : BufTy).Contents (Elt Ideal))
    (o2 : (⟨Cert.KernelIdeal.S25000x384, .f32⟩ : BufTy).Contents (Elt Ideal))
    (o3 : (⟨Cert.ReferenceIdeal.S25000x3x128, .f32⟩ : BufTy).Contents (Elt Ideal))
    (u2 : (⟨Cert.KernelIdeal.S400000x384, .f32⟩ : BufTy).Contents (Elt Ideal))
    (u3 : (⟨Cert.ReferenceIdeal.S400000x3x128, .f32⟩ : BufTy).Contents (Elt Ideal))
    (ho : ∀ (p : Fin 25000) (cc : Fin 3) (k : Fin 128),
      o3 (ix3 p cc k) = o2 (ix2 p (⟨128 * cc.val + k.val, by omega⟩ : Fin 384)))
    (hu : ∀ (e : Fin 400000) (cc : Fin 3) (k : Fin 128),
      u3 (ix3 e cc k) = u2 (ix2 e (⟨128 * cc.val + k.val, by omega⟩ : Fin 384)))
    (p : Fin 25000) (cc : Fin 3) (k : Fin 128) :
    Host.scatterAdd (F := Ideal) (φ := .f32) Cert.ReferenceIdeal.scatter_S25000x3x128_S400000x1_S400000x3x128_12_0_0_1 o3 idx u3
        (ix3 p cc k)
      = Host.scatterAdd (F := Ideal) (φ := .f32) Cert.KernelIdeal.scatter_S25000x384_S400000x1_S400000x384_1_0_0_1 o2 idx u2
        (ix2 p (⟨128 * cc.val + k.val, by omega⟩ : Fin 384)) := by
  rw [reference_record, kernel_record]
  refine (Cert.Lib.scatterAdd_rows3Scatter_apply _ o3 idx u3 p cc k).trans ?_
  refine Eq.trans ?_ (Cert.Lib.scatterAdd_rowsScatter_apply _ o2 idx u2 p
    (⟨128 * cc.val + k.val, by omega⟩ : Fin 384)).symm
  rw [ho p cc k]
  exact congrArg _ (Finset.sum_congr rfl fun e _ => hu e cc k)

end Cert.FlatScatter

end
-- ==== Proof.VUpdated.lean ====
/-
  The updated vector features: the argument plus the edge messages accumulated at their target nodes.

  The kernel's host program accumulates the `[400000, 384]` edge messages into a flat `[25000, 384]` array of zeros at the
  target node of each edge, reshapes the result to `[25000, 3, 128]` and adds it to the vector features. The reference
  accumulates the `[400000, 3, 128]` messages into a `[25000, 3, 128]` array of zeros and adds. When the two message
  arrays agree entry by entry (flat column `128·cc + k` against block position `(cc, k)`), so do the two results: the
  reshape reads the flat accumulation at `(p, 128·cc + k)`, and there the flat and the blocked accumulations are the same
  sum over the same edges.
-/
import proofs.«161305_j25314537242668_2_alg».proof.Proof.Gen.KernelIdeal.Frame
import proofs.«161305_j25314537242668_2_alg».proof.Proof.Gen.ReferenceIdeal.Read
import proofs.«161305_j25314537242668_2_alg».proof.Proof.HostVals
import proofs.«161305_j25314537242668_2_alg».proof.Proof.HostArgsA
import proofs.«161305_j25314537242668_2_alg».proof.Proof.HostVals3
import proofs.«161305_j25314537242668_2_alg».proof.Proof.HostVals4
import proofs.«161305_j25314537242668_2_alg».proof.Proof.FlatScatter
import proofs.«161305_j25314537242668_2_alg».proof.Proof.FlatGather
import proofs.«161305_j25314537242668_2_alg».proof.Proof.OperandReads

set_option maxRecDepth 16384

noncomputable section

namespace Cert.VUpdated

open Idealize.ShloMosaic Idealize.ShloMosaic.ValueIdx

section Core

variable [Cert.KernelIdeal.Facts₀] [Cert.ReferenceIdeal.Facts₀]

/-- Over any vector features `x1`, target column `tgt` and message arrays `U2` (flat) and `U3` (blocked) that agree entry
    by entry, the kernel's updated features are the reference's. -/
theorem accumulate_eq
    (x1 : (⟨Cert.KernelIdeal.S25000x3x128, .f32⟩ : BufTy).Contents (Elt Ideal))
    (tgt : (⟨Cert.KernelIdeal.S400000, .i32⟩ : BufTy).Contents (Elt Ideal))
    (U2 : (⟨Cert.KernelIdeal.S400000x384, .f32⟩ : BufTy).Contents (Elt Ideal))
    (U3 : (⟨Cert.ReferenceIdeal.S400000x3x128, .f32⟩ : BufTy).Contents (Elt Ideal))
    (hU : ∀ (e : Fin 400000) (cc : Fin 3) (k : Fin 128),
      U2 (ix2 e (⟨128 * cc.val + k.val, by omega⟩ : Fin 384)) = U3 (ix3 e cc k)) :
    addf (F := Ideal) (φ := .f32) x1
        (shapeCast Cert.KernelIdeal.S25000x3x128
          (Host.scatterAdd (F := Ideal) (φ := .f32) Cert.KernelIdeal.scatter_S25000x384_S400000x1_S400000x384_1_0_0_1
            (broadcastInDim Cert.KernelIdeal.S25000x384 ![] Cert.KernelIdeal.Facts₀.bcast_S_S25000x384
              (constant (F := Ideal) Cert.KernelIdeal.S_ .f32 0x00000000#32))
            (broadcastInDim Cert.KernelIdeal.S400000x1 ![0] Cert.KernelIdeal.Facts₀.bcast_S400000_S400000x1_0 tgt)
            U2)
          Cert.KernelIdeal.Facts₀.shapeCasts_S25000x384_S25000x3x128)
      = addf (F := Ideal) (φ := .f32) x1
        (Host.scatterAdd (F := Ideal) (φ := .f32) Cert.ReferenceIdeal.scatter_S25000x3x128_S400000x1_S400000x3x128_12_0_0_1
          (broadcastInDim Cert.ReferenceIdeal.S25000x3x128 ![] Cert.ReferenceIdeal.Facts₀.bcast_S_S25000x3x128
            (constant (F := Ideal) Cert.ReferenceIdeal.S_ .f32 0x00000000#32))
          (broadcastInDim Cert.ReferenceIdeal.S400000x1 ![0] Cert.ReferenceIdeal.Facts₀.bcast_S400000_S400000x1_0 tgt)
          U3) := by
  funext i
  obtain ⟨p, cc, k, rfl⟩ : ∃ (p : Fin 25000) (cc : Fin 3) (k : Fin 128), i = ix3 p cc k :=
    ⟨i 0, i 1, i 2, eq_ix3 i⟩
  rw [addf_apply, addf_apply]
  refine congrArg (x1 (ix3 p cc k) + ·) ?_
  rw [Cert.FlatGather.unflatten_apply]
  have hidx : broadcastInDim Cert.ReferenceIdeal.S400000x1 ![0] Cert.ReferenceIdeal.Facts₀.bcast_S400000_S400000x1_0 tgt
      = broadcastInDim Cert.KernelIdeal.S400000x1 ![0] Cert.KernelIdeal.Facts₀.bcast_S400000_S400000x1_0 tgt := rfl
  rw [hidx]
  exact (Cert.FlatScatter.scatter_flat
    (broadcastInDim Cert.KernelIdeal.S400000x1 ![0] Cert.KernelIdeal.Facts₀.bcast_S400000_S400000x1_0 tgt)
    (broadcastInDim Cert.KernelIdeal.S25000x384 ![] Cert.KernelIdeal.Facts₀.bcast_S_S25000x384
      (constant (F := Ideal) Cert.KernelIdeal.S_ .f32 0x00000000#32))
    (broadcastInDim Cert.ReferenceIdeal.S25000x3x128 ![] Cert.ReferenceIdeal.Facts₀.bcast_S_S25000x3x128
      (constant (F := Ideal) Cert.ReferenceIdeal.S_ .f32 0x00000000#32))
    U2 U3
    (fun p cc k => (Cert.OperandReads.zeros_blocked (ix3 p cc k)).trans
      (Cert.OperandReads.zeros_flat (ix2 p (⟨128 * cc.val + k.val, by omega⟩ : Fin 384))).symm)
    (fun e cc k => (hU e cc k).symm) p cc k).symm

end Core

open Cert.KernelIdeal Cert.KernelIdeal.Gen
open Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The kernel's updated vector features at the end of its run are the reference's stage, given that the edge-message
    region's output array agrees with the reference's messages entry by entry. -/
theorem v_updated_eq (c : Dev nD)
    (hedge : ∀ (e : Fin 400000) (cc : Fin 3) (k : Fin 128),
      ((dat0 (F := Ideal) (V3 m ρ) c).arrAt 11 cfg0.N : S400000x384.Idx → EReal)
          (ix2 e (⟨128 * cc.val + k.val, by omega⟩ : Fin 384))
        = Cert.ReferenceIdeal.Read.val_main_v132 (F := Ideal) (m ((c.tc : Thread nD τ).loc main_arg0)) (m ((c.tc : Thread nD τ).loc main_arg1))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9)) (ix3 e cc k)) :
    W8 m ρ c (Proc.devRef .tc main_v122)
      = Cert.ReferenceIdeal.Read.val_main_v136 (F := Ideal) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  rw [Cert.KernelIdeal.HostVals4.W8_v122 m ρ c, Cert.KernelIdeal.HostVals3.W5_v122 m ρ c,
    Cert.KernelIdeal.HostVals3.W4_v117 m ρ c, Cert.KernelIdeal.HostArgsA.W3_arg1 m ρ c,
    Cert.KernelIdeal.HostVals.W3_v3 m ρ c]
  exact accumulate_eq (m ((c.tc : Thread nD τ).loc main_arg1))
    (Cert.ReferenceIdeal.Read.val_main_v3 (F := Ideal) (m ((c.tc : Thread nD τ).loc main_arg5)))
    ((dat0 (F := Ideal) (V3 m ρ) c).arrAt 11 cfg0.N)
    (Cert.ReferenceIdeal.Read.val_main_v132 (F := Ideal) (m ((c.tc : Thread nD τ).loc main_arg0)) (m ((c.tc : Thread nD τ).loc main_arg1))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)))
    hedge

end Cert.VUpdated

end
-- ==== Proof.lean ====
/-
  The kernel updates a graph network's node, edge and vector features from one message-passing step: an edge-message
  region (a dense per-edge product giving each edge's vector message), an accumulation of the messages at the target
  nodes on the host, and two gated-update regions (x + (x·W + b) · σ(s·colsum(Wg) + bg)) for the node and edge
  features.  The reference computes the same quantities with plain host operations.

  At the extended reals the two programs agree result by result:
  * the accumulated direction vectors are the same host operations of the same arguments on both sides;
  * the two spread scalars (squared direction norm, dihedral scalar) are a column repeated over the features;
  * the gated updates agree because a REAL scalar times a finite sum of REAL weights (from zero) is the sum of the
    products — the scalar is real because every geometric quantity is built from real positions with a positive
    denominator, the weights are real by the precondition — and the logistic function is 1 / (1 + exp(−y));
  * the vector features agree because the joined row [h(target), h(source), rbf] times the message weights is the sum
    of three block products, a flattened [·, 384] row is the [·, 3, 128] block read at column 128·c + k, and an
    accumulation at the target nodes does not depend on this layout.
  Every frame is the generated one; the idealization rewrote no operation.
-/
import proofs.«161305_j25314537242668_2_alg».proof.Defs
import proofs.«161305_j25314537242668_2_alg».proof.Proof.Gen.Kernel
import proofs.«161305_j25314537242668_2_alg».proof.Proof.Gen.Kernel.Skeleton
import proofs.«161305_j25314537242668_2_alg».proof.Proof.Gen.Kernel.Launch
import proofs.«161305_j25314537242668_2_alg».proof.Proof.Gen.Kernel.Points
import proofs.«161305_j25314537242668_2_alg».proof.Proof.Gen.Kernel.Frame
import proofs.«161305_j25314537242668_2_alg».proof.Proof.Gen.KernelIdeal
import proofs.«161305_j25314537242668_2_alg».proof.Proof.Gen.KernelIdeal.Skeleton
import proofs.«161305_j25314537242668_2_alg».proof.Proof.Gen.KernelIdeal.Launch
import proofs.«161305_j25314537242668_2_alg».proof.Proof.Gen.KernelIdeal.Points
import proofs.«161305_j25314537242668_2_alg».proof.Proof.Gen.KernelIdeal.Frame
import proofs.«161305_j25314537242668_2_alg».proof.Proof.Gen.ReferenceIdeal
import proofs.«161305_j25314537242668_2_alg».proof.Proof.Gen.ReferenceIdeal.Run
import proofs.«161305_j25314537242668_2_alg».proof.Proof.Gen.ReferenceIdeal.Read
import proofs.«161305_j25314537242668_2_alg».proof.Proof.Gen.Pre_finite_inputs
import proofs.«161305_j25314537242668_2_alg».proof.Proof.KernelRun
import proofs.«161305_j25314537242668_2_alg».proof.Proof.HostVals
import proofs.«161305_j25314537242668_2_alg».proof.Proof.HostVals4
import proofs.«161305_j25314537242668_2_alg».proof.Proof.RealInputs
import proofs.«161305_j25314537242668_2_alg».proof.Proof.GatedBridge
import proofs.«161305_j25314537242668_2_alg».proof.Proof.EdgeBridge
import proofs.«161305_j25314537242668_2_alg».proof.Proof.VUpdated
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

open Cert.KernelIdeal Cert.KernelIdeal.Gen in
/-- Both idealized programs end with the reference's six result terms of the (agreeing) arguments. -/
theorem algebraic : Cert.algebraic_KernelIdeal_ReferenceIdeal := by
  intro m ρ m' ρ' hpre hagree
  refine ⟨fun c => Cert.ReferenceIdeal.Value.res_main_v152 m' c, fun c => Cert.ReferenceIdeal.Value.res_main_v136 m' c,
    fun c => Cert.ReferenceIdeal.Value.res_main_v168 m' c, fun c => Cert.ReferenceIdeal.Value.res_main_v43 m' c,
    fun c => Cert.ReferenceIdeal.Value.res_main_v73 m' c, fun c => Cert.ReferenceIdeal.Value.res_main_v39 m' c, ?_,
    Cert.ReferenceIdeal.Value.run (F := Ideal) m' ρ'⟩
  refine (θ_run Cert.KernelIdeal.defs _ _).mono (fun r h c => ?_) (Cert.KernelIdeal.Run.run_W8 (F := Ideal) m ρ)
  obtain ⟨g0, g1, g2, g3, g4, g5, g6, g7, g8, g9, g10, g11, g12, g13, g14, g15, g16, g17⟩ := hagree c
  obtain ⟨h3, h14, h16⟩ := Cert.RealInputs.real_of_pre m hpre c
  have hc := h c
  refine ⟨(hc _ (mem_uc main_v127_0 (by decide))).trans ?_, (hc _ (mem_uc main_v122 (by decide))).trans ?_,
    (hc _ (mem_uc main_v132_0 (by decide))).trans ?_, (hc _ (mem_uc main_v127_1 (by decide))).trans ?_,
    (hc _ (mem_uc main_v132_1 (by decide))).trans ?_, (hc _ (mem_uc main_v39 (by decide))).trans ?_,
    (hc _ (mem_uc main_arg0 (by decide))).trans (W8_main_arg0 m ρ c),
    (hc _ (mem_uc main_arg1 (by decide))).trans (W8_main_arg1 m ρ c),
    (hc _ (mem_uc main_arg2 (by decide))).trans (W8_main_arg2 m ρ c),
    (hc _ (mem_uc main_arg3 (by decide))).trans (W8_main_arg3 m ρ c),
    (hc _ (mem_uc main_arg4 (by decide))).trans (W8_main_arg4 m ρ c),
    (hc _ (mem_uc main_arg5 (by decide))).trans (W8_main_arg5 m ρ c),
    (hc _ (mem_uc main_arg6 (by decide))).trans (W8_main_arg6 m ρ c),
    (hc _ (mem_uc main_arg7 (by decide))).trans (W8_main_arg7 m ρ c),
    (hc _ (mem_uc main_arg8 (by decide))).trans (W8_main_arg8 m ρ c),
    (hc _ (mem_uc main_arg9 (by decide))).trans (W8_main_arg9 m ρ c),
    (hc _ (mem_uc main_arg10 (by decide))).trans (W8_main_arg10 m ρ c),
    (hc _ (mem_uc main_arg11 (by decide))).trans (W8_main_arg11 m ρ c),
    (hc _ (mem_uc main_arg12 (by decide))).trans (W8_main_arg12 m ρ c),
    (hc _ (mem_uc main_arg13 (by decide))).trans (W8_main_arg13 m ρ c),
    (hc _ (mem_uc main_arg14 (by decide))).trans (W8_main_arg14 m ρ c),
    (hc _ (mem_uc main_arg15 (by decide))).trans (W8_main_arg15 m ρ c),
    (hc _ (mem_uc main_arg16 (by decide))).trans (W8_main_arg16 m ρ c),
    (hc _ (mem_uc main_arg17 (by decide))).trans (W8_main_arg17 m ρ c)⟩
  · show _ = Cert.ReferenceIdeal.Value.res_main_v152 m' c
    rw [Cert.ReferenceIdeal.Read.val_main_v152_eq, g0, g3, g5, g10, g11, g14, g15]
    exact Cert.GatedBridge.h_updated_eq m ρ c h3 h14
  · show _ = Cert.ReferenceIdeal.Value.res_main_v136 m' c
    rw [Cert.ReferenceIdeal.Read.val_main_v136_eq, g0, g1, g3, g4, g5, g6, g7, g8, g9]
    exact Cert.VUpdated.v_updated_eq m ρ c (Cert.EdgeBridge.edge_eq m ρ c)
  · show _ = Cert.ReferenceIdeal.Value.res_main_v168 m' c
    rw [Cert.ReferenceIdeal.Read.val_main_v168_eq, g2, g3, g5, g12, g13, g16, g17]
    exact Cert.GatedBridge.f_updated_eq m ρ c h3 h16
  · show _ = Cert.ReferenceIdeal.Value.res_main_v43 m' c
    rw [Cert.ReferenceIdeal.Read.val_main_v43_eq, g3, g5]
    exact Cert.GatedBridge.ang_info_eq m ρ c
  · show _ = Cert.ReferenceIdeal.Value.res_main_v73 m' c
    rw [Cert.ReferenceIdeal.Read.val_main_v73_eq, g3, g5]
    exact Cert.GatedBridge.dih_info_eq m ρ c
  · show _ = Cert.ReferenceIdeal.Value.res_main_v39 m' c
    rw [Cert.ReferenceIdeal.Read.val_main_v39_eq, g3, g5]
    exact (Cert.KernelIdeal.HostVals4.W8_v39 m ρ c).trans (Cert.KernelIdeal.HostVals.W3_v39 m ρ c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
